-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x512 : Shape := ⟨2, ![4096, 512]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4096x512 .f32) (main_arg2 : FVec F S4096x512 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S4096x512 : Shape := ⟨2, ![4096, 512]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x1024x1024 : Shape := ⟨3, ![1, 1024, 1024]⟩
abbrev S1024x512 : Shape := ⟨2, ![1024, 512]⟩
abbrev S1x3072 : Shape := ⟨2, ![1, 3072]⟩
abbrev S4x256x1024 : Shape := ⟨3, ![4, 256, 1024]⟩
abbrev S4x256x1 : Shape := ⟨3, ![4, 256, 1]⟩
abbrev S4x256x256 : Shape := ⟨3, ![4, 256, 256]⟩
abbrev S4x256 : Shape := ⟨2, ![4, 256]⟩

abbrev nBuf : Space → Nat
  | .hbm => 19
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S4x4096x1024, .bf16⟩
  | .hbm, ⟨16, _⟩ => ⟨S4x4096x1024, .bf16⟩
  | .hbm, ⟨17, _⟩ => ⟨S4x4096x1024, .bf16⟩
  | .hbm, ⟨18, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x3072, .bf16⟩
  | .local _ .vmem, ⟨3, _⟩ => ⟨S3072, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S4x256x1024, .bf16⟩
  | .local _ .vmem, ⟨15, _⟩ => ⟨S4x256x1024, .bf16⟩
  | .local _ .vmem, ⟨16, _⟩ => ⟨S4x256x1024, .bf16⟩
  | .local _ .vmem, ⟨17, _⟩ => ⟨S4x256x1024, .bf16⟩
  | .local _ .vmem, ⟨18, _⟩ => ⟨S4x256x1024, .bf16⟩
  | .local _ .vmem, ⟨19, _⟩ => ⟨S4x256x1024, .bf16⟩
  | .local _ .vmem, ⟨20, _⟩ => ⟨S4x256x1024, .f32⟩
  | .local _ .vmem, ⟨21, _⟩ => ⟨S4x256x1024, .f32⟩
  | .local _ .vmem, ⟨22, _⟩ => ⟨S4x256x1, .f32⟩
  | .local _ .vmem, ⟨23, _⟩ => ⟨S4x256x1, .f32⟩
  | .local _ .vmem, ⟨24, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 16], ![false, false]⟩

def k1_cond3 (i : grid1.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S1024x3072 : S1x3072.Broadcasts S1024x3072
  slices_S1024x3072_o0_0_S1024x1024 : S1024x3072.Slices ![0, 0] S1024x1024
  slices_S1024x3072_o0_1024_S1024x1024 : S1024x3072.Slices ![0, 1024] S1024x1024
  slices_S1024x3072_o0_2048_S1024x1024 : S1024x3072.Slices ![0, 2048] S1024x1024
  inb_S1024x512_S1024x512_0_0 : ∀ a, (![0, 0] : Fin 2 → Nat) a + S1024x512.size a ≤ S1024x512.size a
  h_S1024x512 : 0 < S1024x512.numel
  slices_S1024x1024_o0_0_S1024x512 : S1024x1024.Slices ![0, 0] S1024x512
  slices_S1024x1024_o0_512_S1024x512 : S1024x1024.Slices ![0, 512] S1024x512
  concatenates_S1024x512_S1024x512_S1024x1024_d1 : Shape.Concatenates [S1024x512, S1024x512] S1024x1024 1
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  iota_S4x256x256_d1_w32 : S4x256x256.Iotas .tc 32 [1]
  iota_S4x256x256_d2_w32 : S4x256x256.Iotas .tc 32 [2]
  reduces_S4x256x256_S4x256 : S4x256x256.Reduces [2] S4x256
  shapeCasts_S4x256_S4x256x1 : S4x256.ShapeCasts S4x256x1
  broadcasts_S4x256x1_S4x256x256 : S4x256x1.Broadcasts S4x256x256
  broadcasts_S4x256x1_S4x256x1024 : S4x256x1.Broadcasts S4x256x1024
  dot_S1024x1024_S1024x3072_S1024x3072_1_0_0_1_n_n_wf : DotDims.WF S1024x1024 S1024x3072 S1024x3072 [1] [0] [0] [1] [] []
  dot_S4x256x1024_S4x256x1024_S4x256x256_2_2_1_1_0_0_wf : DotDims.WF S4x256x1024 S4x256x1024 S4x256x256 [2] [2] [1] [1] [0] [0]
  dot_S4x256x256_S4x256x1024_S4x256x1024_2_1_1_2_0_0_wf : DotDims.WF S4x256x256 S4x256x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .f32 = 32 ∨ (Rect.block (s := S4096x512) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x4096x1024.size a
  hwx0_5 : ∀ i : grid0.Coords, EltTy.bits .bf16 = 32 ∨ (Rect.block (s := S4x4096x1024) S1x1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x4096x1024.size a
  hwx0_6 : ∀ i : grid0.Coords, EltTy.bits .bf16 = 32 ∨ (Rect.block (s := S4x4096x1024) S1x1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S4x4096x1024.size a
  hwx0_7 : ∀ i : grid0.Coords, EltTy.bits .bf16 = 32 ∨ (Rect.block (s := S4x4096x1024) S1x1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x1024.size a ≤ S4x4096x1024.size a
  hwx1_0 : ∀ i : grid1.Coords, EltTy.bits .bf16 = 32 ∨ (Rect.block (s := S4x4096x1024) S4x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x1024.size a ≤ S4x4096x1024.size a
  hwx1_1 : ∀ i : grid1.Coords, EltTy.bits .bf16 = 32 ∨ (Rect.block (s := S4x4096x1024) S4x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x1024.size a ≤ S4x4096x1024.size a
  hwx1_2 : ∀ i : grid1.Coords, EltTy.bits .bf16 = 32 ∨ (Rect.block (s := S4x4096x1024) S4x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x256x1024.size a ≤ S4x4096x1024.size a
  hwx1_3 : ∀ i : grid1.Coords, EltTy.bits .f32 = 32 ∨ (Rect.block (s := S4x4096x1024) S4x256x1024.size (cc1_transform_3 i) (hinb1_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x256x256_S4x256x1024_S4x256x1024_2_1_1_2_0_0 : DotDims S4x256x256 S4x256x1024 S4x256x1024 where
  lhsContracting := [2]
  rhsContracting := [1]
  lhsNonContracting := [1]
  rhsNonContracting := [2]
  lhsBatch := [0]
  rhsBatch := [0]
  wf := dot_S4x256x256_S4x256x1024_S4x256x1024_2_1_1_2_0_0_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_0) S4x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S4x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S4x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4096x512 : Shape := ⟨2, ![4096, 512]⟩
abbrev S1024x1024 : Shape := ⟨2, ![1024, 1024]⟩
abbrev S1024 : Shape := ⟨1, ![1024]⟩
abbrev S1x1x1024 : Shape := ⟨3, ![1, 1, 1024]⟩
abbrev S4x4096x512 : Shape := ⟨3, ![4, 4096, 512]⟩
abbrev S1x4096x512 : Shape := ⟨3, ![1, 4096, 512]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1x1x1024, .f32⟩
  | .hbm, ⟨15, _⟩ => ⟨S4x4096x1024, .f32⟩
  | .hbm, ⟨16, _⟩ => ⟨S4x4096x1024, .f32⟩
  | .hbm, ⟨17, _⟩ => ⟨S4x4096x512, .f32⟩
  | .hbm, ⟨18, _⟩ => ⟨S4x4096x512, .f32⟩
  | .hbm, ⟨19, _⟩ => ⟨S1x4096x512, .f32⟩
  | .hbm, ⟨20, _⟩ => ⟨S4x4096x512, .f32⟩
  | .hbm, ⟨21, _⟩ => ⟨S4x4096x512, .f32⟩
  | .hbm, ⟨22, _⟩ => ⟨S1x4096x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S1x4096x512, .f32⟩
  | .hbm, ⟨27, _⟩ => ⟨S4x4096x512, .f32⟩
  | .hbm, ⟨28, _⟩ => ⟨S4x4096x512, .f32⟩
  | .hbm, ⟨29, _⟩ => ⟨S1x4096x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x1024, .f32⟩
  | .hbm, ⟨34, _⟩ => ⟨S4x4096x512, .f32⟩
  | .hbm, ⟨35, _⟩ => ⟨S4x4096x512, .f32⟩
  | .hbm, ⟨36, _⟩ => ⟨S1x4096x512, .f32⟩
  | .hbm, ⟨37, _⟩ => ⟨S4x4096x512, .f32⟩
  | .hbm, ⟨38, _⟩ => ⟨S4x4096x512, .f32⟩
  | .hbm, ⟨39, _⟩ => ⟨S1x4096x512, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S1x4096x512, .f32⟩
  | .hbm, ⟨44, _⟩ => ⟨S4x4096x512, .f32⟩
  | .hbm, ⟨45, _⟩ => ⟨S4x4096x512, .f32⟩
  | .hbm, ⟨46, _⟩ => ⟨S1x4096x512, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S4x4096x1024, .f32⟩
  | .hbm, ⟨51, _⟩ => ⟨S4x4096x4096, .f32⟩
  | .hbm, ⟨52, _⟩ => ⟨S_, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S_, .i1⟩
  | .hbm, ⟨57, _⟩ => ⟨S4096x4096, .i1⟩
  | .hbm, ⟨58, _⟩ => ⟨S4096x4096, .i32⟩
  | .hbm, ⟨59, _⟩ => ⟨S_, .i32⟩
  | .hbm, ⟨60, _⟩ => ⟨S4096x4096, .i32⟩
  | .hbm, ⟨61, _⟩ => ⟨S4096x4096, .i32⟩
  | .hbm, ⟨62, _⟩ => ⟨S4096x4096, .i32⟩
  | .hbm, ⟨63, _⟩ => ⟨S4096x4096, .i1⟩
  | .hbm, ⟨64, _⟩ => ⟨S_, .i1⟩
  | .hbm, ⟨65, _⟩ => ⟨S4096x4096, .i1⟩
  | .hbm, ⟨66, _⟩ => ⟨S4096x4096, .i1⟩
  | .hbm, ⟨67, _⟩ => ⟨S_, .f32⟩
  | .hbm, ⟨68, _⟩ => ⟨S_, .f32⟩
  | .hbm, ⟨69, _⟩ => ⟨S4x4096x4096, .i1⟩
  | .hbm, ⟨70, _⟩ => ⟨S4x4096x4096, .f32⟩
  | .hbm, ⟨71, _⟩ => ⟨S4x4096x4096, .f32⟩
  | .hbm, ⟨72, _⟩ => ⟨S_, .f32⟩
  | .hbm, ⟨73, _⟩ => ⟨S4x4096, .f32⟩
  | .hbm, ⟨74, _⟩ => ⟨S_, .f32⟩
  | .hbm, ⟨75, _⟩ => ⟨S4x4096, .f32⟩
  | .hbm, ⟨76, _⟩ => ⟨S4x4096, .f32⟩
  | .hbm, ⟨77, _⟩ => ⟨S4x4096x1, .f32⟩
  | .hbm, ⟨78, _⟩ => ⟨S4x4096x4096, .f32⟩
  | .hbm, ⟨79, _⟩ => ⟨S4x4096x4096, .f32⟩
  | .hbm, ⟨80, _⟩ => ⟨S4x4096x4096, .f32⟩
  | .hbm, ⟨81, _⟩ => ⟨S_, .f32⟩
  | .hbm, ⟨82, _⟩ => ⟨S4x4096, .f32⟩
  | .hbm, ⟨83, _⟩ => ⟨S4x4096x1, .f32⟩
  | .hbm, ⟨84, _⟩ => ⟨S4x4096x4096, .f32⟩
  | .hbm, ⟨85, _⟩ => ⟨S4x4096x4096, .f32⟩
  | .hbm, ⟨86, _⟩ => ⟨S4x4096x1024, .f32⟩
  | .hbm, ⟨87, _⟩ => ⟨S1x1x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c : Ref sig .tc := ⟨.hbm, 56, rfl⟩
abbrev main_v46 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v47 : Ref sig .tc := ⟨.hbm, 66, rfl⟩
abbrev main_cst_0 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v48 : Ref sig .tc := ⟨.hbm, 71, rfl⟩
abbrev main_cst_1 : Ref sig .tc := ⟨.hbm, 72, rfl⟩
abbrev main_v49 : Ref sig .tc := ⟨.hbm, 73, rfl⟩
abbrev main_cst_2 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  slices_S4x4096x1024_S4x4096x512_0_0_0 : S4x4096x1024.Slices ![0, 0, 0] S4x4096x512
  slices_S4x4096x1024_S4x4096x512_0_0_512 : S4x4096x1024.Slices ![0, 0, 512] S4x4096x512
  bcast_S4096x512_S1x4096x512_1_2 : S4096x512.BroadcastsInDim S1x4096x512 (![1, 2] : Fin 2 → Fin S1x4096x512.rank)
  bcast_S1x4096x512_S4x4096x512_0_1_2 : S1x4096x512.BroadcastsInDim S4x4096x512 (![0, 1, 2] : Fin 3 → Fin S4x4096x512.rank)
  concatenates_S4x4096x512_S4x4096x512_S4x4096x1024_d2 : Shape.Concatenates [S4x4096x512, S4x4096x512] S4x4096x1024 2
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Easy.lean ====
/-
  The two conjuncts that need no kernel run.

  * The reference is a host program with no kernel launch: its run, read back operation by operation, terminates
    without a fault and writes only its own intermediate buffers, so every argument array ends as launched.
  * The one rewrite of the ideal pass: the finite fill value the attention kernel puts at the masked (future)
    positions of a score tile is named "neg_big", and the certificate's table reads that name as −∞.
-/
import proofs.«116248_j65103114273198_2_alg».proof.Defs
import proofs.«116248_j65103114273198_2_alg».proof.Proof.Gen.ReferenceIdeal
import proofs.«116248_j65103114273198_2_alg».proof.Proof.Gen.Pre_finite_inputs
import proofs.«116248_j65103114273198_2_alg».proof.Proof.Gen.ReferenceIdeal.Run

noncomputable section

namespace Cert.Proof.Easy

open Idealize.ShloMosaic Idealize.ShloMosaic.TcCoe Idealize.SL.Sem

attribute [local instance] Cert.ReferenceIdeal.Gen.facts Cert.Pre_finite_inputs.Gen.facts

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The masked fill is −∞ at the ideal instance, by the table. -/
theorem preserves : Cert.preserves_Kernel_KernelIdeal :=
  IdealRules.named_const.statement Cert.KernelIdeal.κ "neg_big" .f32 0xFF333332#32 ⊥ rfl

end Cert.Proof.Easy

end
-- ==== Proof.Kernel.Region0.lean ====
/-
  Region 0 of @main: the fused projection kernel, a grid of 4 × 4 points (sequence tile, batch).

  At a point the body reads five whole blocks — a [1, 1024, 1024] tile of the activations, the whole [1024, 3072]
  concatenated weight, the whole [3072] concatenated bias, and the [1024, 512] tiles of the two angle tables —
  and overwrites three whole [1, 1024, 1024] blocks: the rotated queries, the rotated keys and the values. Each
  output block is therefore ONE function of the five input blocks, and nothing is carried from point to point.

  Everything is stated at a parameter `V`: the contents of the TensorCore's buffers when the region is entered.
  The region's proof data holds, after the body at a point, every input's staging buffer at its block of `V`'s
  array and every output's at the body's function of those five blocks.
-/
import proofs.«116248_j65103114273198_2_alg».proof.Proof.Gen.Kernel.Launch
import proofs.«116248_j65103114273198_2_alg».proof.Proof.Gen.Kernel.Skeleton
import proofs.«116248_j65103114273198_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched
    it there or not (when it did not, the block index has not moved since the last fetch), for any proof data over
    `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds the window's block at every point, whether the pipeline fetched
    it there or not (when it did not, the block index has not moved since the last fetch), for any proof data over
    `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds the window's block at every point, whether the pipeline fetched
    it there or not (when it did not, the block index has not moved since the last fetch), for any proof data over
    `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds the window's block at every point, whether the pipeline fetched
    it there or not (when it did not, the block index has not moved since the last fetch), for any proof data over
    `V`'s array whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds the window's block at every point, whether the pipeline fetched
    it there or not (when it did not, the block index has not moved since the last fetch), for any proof data over
    `V`'s array whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev r0_0 : Rect S1x1024x1024 := Rect.unit (s := S1x1024x1024) ![0, 0, 0] S1x1024x1024.size inb_S1x1024x1024_S1x1024x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S1024x512 := Rect.unit (s := S1024x512) ![0, 0] S1024x512.size inb_S1024x512_S1024x512_0_0

/-! ## What the body leaves in each output window's buffer -/

/-- The rotated queries' buffer after the body: its one store, of the rotated first third of the projection. -/
def out0_5 (x0 : Vec F S1x1024x1024 .f32) (x1 : Vec F S1024x3072 .bf16) (x2 : Vec F S3072 .f32) (x3 x4 : Vec F S1024x512 .f32) : Vec F S1x1024x1024 .bf16 :=
  View.canon [⟨r0_0, k0_pay5 (View.ld x0 r0_0) (View.ld x1 r0_1) (View.ld x2 r0_2) (View.ld x3 r0_3) (View.ld x4 r0_3)⟩]

/-- The rotated keys' buffer after the body: its one store, of the rotated second third of the projection. -/
def out0_6 (x0 : Vec F S1x1024x1024 .f32) (x1 : Vec F S1024x3072 .bf16) (x2 : Vec F S3072 .f32) (x3 x4 : Vec F S1024x512 .f32) : Vec F S1x1024x1024 .bf16 :=
  View.canon [⟨r0_0, k0_pay1 (k0_pay6 (View.ld x0 r0_0) (View.ld x1 r0_1) (View.ld x2 r0_2) (View.ld x3 r0_3) (View.ld x4 r0_3))⟩]

/-- The values' buffer after the body: its one store, of the last third of the projection, not rotated. -/
def out0_7 (x0 : Vec F S1x1024x1024 .f32) (x1 : Vec F S1024x3072 .bf16) (x2 : Vec F S3072 .f32) : Vec F S1x1024x1024 .bf16 :=
  View.canon [⟨r0_0, k0_pay2 (k0_pay4 (View.ld x0 r0_0) (View.ld x1 r0_1) (View.ld x2 r0_2))⟩]

/-- A store of the whole buffer covers it. -/
theorem cover0_out (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging memrefs — the five inputs' at contents `x0 … x4`, the three outputs' at anything — runs
    to a state holding the inputs' as they were and each output's at its function of the inputs. -/
theorem sound_kernel0 (c : Dev nD) (E : Set ℕ) (i : grid0.Coords) (arg2 : Memref sig .tc .vmem S1x1024x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole)
    (x0 : Vec F S1x1024x1024 .f32) (x1 : Vec F S1024x3072 .bf16) (x2 : Vec F S3072 .f32) (x3 x4 : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4)
            ∗ owns (c : Thread nD τ) arg9 fullShare (out0_7 x0 x1 x2)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_out _)
  isplitl [H6]
  · iexists _; isplitr
    swap; · iexact H6
    ipureintro
    try dsimp only
    exact View.read_writes_eq_canon _ _ _ (cover0_out _)
  iexists _; isplitr
  swap; · iexact H7
  ipureintro
  try dsimp only
  exact View.read_writes_eq_canon _ _ _ (cover0_out _)

/-! ## The pipeline's proof data -/

/-- The proof data of the region on core `c`: the arrays as the region finds them; after the body at point `t` each
    input's buffer at its block and each output's at the body's function of the five input blocks; the invariant
    that the scoped rest and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1Base.lean ====
/-
  The attention region, first part: what every later statement about it is written over.

  The region's grid is 16 × 16; point `t` has query tile `q = t / 16` and key tile `k = t % 16`. The body has three
  guarded blocks: at `k = 0` it resets the running maximum, denominator and numerator kept in three scratch
  buffers; at `k ≤ q` it folds the key tile into them; at `k = q` it writes the quotient into the output tile.
  The output tile's block index depends on `q` only, so its staging buffer is written back once per row, at
  `k = 15`; at every point with `k ≠ q` the body stores nothing into it.
-/
import proofs.«116248_j65103114273198_2_alg».proof.Proof.Gen.Kernel.Launch
import proofs.«116248_j65103114273198_2_alg».proof.Proof.Gen.Kernel.Skeleton
import proofs.«116248_j65103114273198_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three guards, from the grid coordinates -/

/-- The reset guard: the key tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The fold guard: the key tile is not after the query tile. -/
abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 16 ≤ t.val / 16 :=
  (by decide +kernel : ∀ t : Fin grid1.N, cond1_1 (grid1.coords t) ↔ t.val % 16 ≤ t.val / 16)

/-- The write guard: the key tile is the query tile (the diagonal). -/
abbrev cond1_2 (i : grid1.Coords) : Prop := k1_cond3 i = 1#1
theorem hcond1_2 : ∀ t : Fin cfg1.N, cond1_2 (grid1.coords t) ↔ t.val % 16 = t.val / 16 :=
  (by decide +kernel : ∀ t : Fin grid1.N, cond1_2 (grid1.coords t) ↔ t.val % 16 = t.val / 16)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the diagonal the body stores nothing into the output tile's buffer; on it, it does. -/
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel

/-! ## The memrefs the body is called with -/

abbrev VO1_3 : View sig .tc .vmem S4x256x1024 .f32 := (Memref.whole cc1_stg3_0 : Memref sig .tc .vmem S4x256x1024 .f32).view
abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .f32 := win1_3.stage (cfg1.slots t 3)
abbrev hs1_3 (t : Fin cfg1.N) : (ms1_3 t).IsWhole := hstage1_3 ((cfg1.slots t 3).cast nbuf1_3)
/-- The three scratch buffers: running maximum, denominator, numerator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

end Cert.Kernel.Hand

end
-- ==== Proof.Kernel.R1RunD.lean ====
/-
  The attention body at a diagonal point after the first key tile (`0 < k = q`): no reset; the key tile is folded
  into the running maximum, denominator and numerator; the quotient is written into the output tile.
-/
import proofs.«116248_j65103114273198_2_alg».proof.Proof.Kernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces, in the output tile's buffer and in the three scratch buffers, with the
    run that finds them: inputs at their blocks, scratch at what the point before left. -/
noncomputable def kernelRun1_D (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Kernel.R1RunC.lean ====
/-
  The attention body strictly below the diagonal and after the first key tile (`0 < k < q`): no reset; the key tile
  is folded into the running maximum, denominator and numerator; the output tile's buffer is not touched.
-/
import proofs.«116248_j65103114273198_2_alg».proof.Proof.Kernel.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Kernel.R1RunB.lean ====
/-
  The attention body at the first key tile of a later row (`k = 0 < q`): the running maximum, denominator and
  numerator are reset (to −∞, 0, 0) and the key tile is folded into them; the output tile's buffer is not touched.
-/
import proofs.«116248_j65103114273198_2_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : cond1_0 i) (hc1 : cond1_1 i) (hc2 : ¬cond1_2 i)
    (x0 x1 x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.Kernel.R1RunA.lean ====
/-
  The attention body at the very first point (`k = q = 0`): reset, fold the key tile, write the quotient into the
  output tile.
-/
import proofs.«116248_j65103114273198_2_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : cond1_0 i) (hc1 : cond1_1 i) (hc2 : cond1_2 i)
    (x0 x1 x2 : Vec F S4x256x1024 .bf16) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2

    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.Kernel.R1RunE.lean ====
/-
  The attention body above the diagonal (`k > q`): every guard fails; the body touches nothing.
-/
import proofs.«116248_j65103114273198_2_alg».proof.Proof.Kernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernelRun1_E (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : ¬cond1_1 i) (hc2 : ¬cond1_2 i) (E : Set ℕ) (K : PUnit → sProp 𝕄) :
    (K ⟨⟩ : sProp 𝕄) ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  iintro Hk
  sl_exec (disch := first | exact hc0 | exact hc1 | exact hc2)
  sl_step
  iexact Hk

end Cert.Kernel.Hand

end
-- ==== Proof.Kernel.R1Outs.lean ====
/-
  The attention region: what each case of the body leaves in the buffers it stores into (the pieces its run found,
  read back; each list of pieces tiles its buffer), and the state after each grid point.
-/
import proofs.«116248_j65103114273198_2_alg».proof.Proof.Kernel.R1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_A_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1024.Idx) :
    ∃ pc ∈ (kernelRun1_A c i arg2 harg2 arg3 harg3 arg4 harg4 arg5 harg5 arg6 harg6 arg7 harg7 arg8 harg8 hc0 hc1 hc2 x0 x1 x2).1, y ∈ pc.1.set :=
  View.cover_of_tiledL (kernelRun1_A c i arg2 harg2 arg3 harg3 arg4 harg4 arg5 harg5 arg6 harg6 arg7 harg7 arg8 harg8 hc0 hc1 hc2 x0 x1 x2).1 S4x256x1024.size (by sl_kernel_rfl) y

def out1_A_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1024 .f32 :=
  VO1_3.read (Elt F) (VO1_3.writes (Elt F) VO1_3.junk (kernelRun1_A c i arg2 harg2 arg3 harg3 arg4 harg4 arg5 harg5 arg6 harg6 arg7 harg7 arg8 harg8 hc0 hc1 hc2 x0 x1 x2).1)

theorem scover1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1.Idx) :
    ∃ pc ∈ (kernelRun1_A c i arg2 harg2 arg3 harg3 arg4 harg4 arg5 harg5 arg6 harg6 arg7 harg7 arg8 harg8 hc0 hc1 hc2 x0 x1 x2).2.1, y ∈ pc.1.set :=
  View.cover_of_tiledL (kernelRun1_A c i arg2 harg2 arg3 harg3 arg4 harg4 arg5 harg5 arg6 harg6 arg7 harg7 arg8 harg8 hc0 hc1 hc2 x0 x1 x2).2.1 S4x256x1.size (by sl_kernel_rfl) y

def sout1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 hc2 x0 x1 x2).2.1)

theorem scover1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1.Idx) :
    ∃ pc ∈ (kernelRun1_A c i arg2 harg2 arg3 harg3 arg4 harg4 arg5 harg5 arg6 harg6 arg7 harg7 arg8 harg8 hc0 hc1 hc2 x0 x1 x2).2.2.1, y ∈ pc.1.set :=
  View.cover_of_tiledL (kernelRun1_A c i arg2 harg2 arg3 harg3 arg4 harg4 arg5 harg5 arg6 harg6 arg7 harg7 arg8 harg8 hc0 hc1 hc2 x0 x1 x2).2.2.1 S4x256x1.size (by sl_kernel_rfl) y

def sout1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 hc2 x0 x1 x2).2.2.1)

theorem scover1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1024.Idx) :
    ∃ pc ∈ (kernelRun1_A c i arg2 harg2 arg3 harg3 arg4 harg4 arg5 harg5 arg6 harg6 arg7 harg7 arg8 harg8 hc0 hc1 hc2 x0 x1 x2).2.2.2.1, y ∈ pc.1.set :=
  View.cover_of_tiledL (kernelRun1_A c i arg2 harg2 arg3 harg3 arg4 harg4 arg5 harg5 arg6 harg6 arg7 harg7 arg8 harg8 hc0 hc1 hc2 x0 x1 x2).2.2.2.1 S4x256x1024.size (by sl_kernel_rfl) y

def sout1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 hc0 hc1 hc2 x0 x1 x2).2.2.2.1)

theorem scover1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1.Idx) :
    ∃ pc ∈ (kernelRun1_B c i arg2 harg2 arg3 harg3 arg4 harg4 arg5 harg5 arg6 harg6 arg7 harg7 arg8 harg8 hc0 hc1 hc2 x0 x1 x2).1, y ∈ pc.1.set :=
  View.cover_of_tiledL (kernelRun1_B c i arg2 harg2 arg3 harg3 arg4 harg4 arg5 harg5 arg6 harg6 arg7 harg7 arg8 harg8 hc0 hc1 hc2 x0 x1 x2).1 S4x256x1.size (by sl_kernel_rfl) y

def sout1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 hc2 x0 x1 x2).1)

theorem scover1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1.Idx) :
    ∃ pc ∈ (kernelRun1_B c i arg2 harg2 arg3 harg3 arg4 harg4 arg5 harg5 arg6 harg6 arg7 harg7 arg8 harg8 hc0 hc1 hc2 x0 x1 x2).2.1, y ∈ pc.1.set :=
  View.cover_of_tiledL (kernelRun1_B c i arg2 harg2 arg3 harg3 arg4 harg4 arg5 harg5 arg6 harg6 arg7 harg7 arg8 harg8 hc0 hc1 hc2 x0 x1 x2).2.1 S4x256x1.size (by sl_kernel_rfl) y

def sout1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 hc2 x0 x1 x2).2.1)

theorem scover1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1024.Idx) :
    ∃ pc ∈ (kernelRun1_B c i arg2 harg2 arg3 harg3 arg4 harg4 arg5 harg5 arg6 harg6 arg7 harg7 arg8 harg8 hc0 hc1 hc2 x0 x1 x2).2.2.1, y ∈ pc.1.set :=
  View.cover_of_tiledL (kernelRun1_B c i arg2 harg2 arg3 harg3 arg4 harg4 arg5 harg5 arg6 harg6 arg7 harg7 arg8 harg8 hc0 hc1 hc2 x0 x1 x2).2.2.1 S4x256x1024.size (by sl_kernel_rfl) y

def sout1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 hc0 hc1 hc2 x0 x1 x2).2.2.1)

theorem scover1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 hc2 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).1 S4x256x1.size (by sl_kernel_rfl) y

def sout1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 hc2 x0 x1 x2 xs0 xs1 xs2).1)

theorem scover1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 hc2 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).2.1 S4x256x1.size (by sl_kernel_rfl) y

def sout1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 hc2 x0 x1 x2 xs0 xs1 xs2).2.1)

theorem scover1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 hc2 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).2.2.1 S4x256x1024.size (by sl_kernel_rfl) y

def sout1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 hc0 hc1 hc2 x0 x1 x2 xs0 xs1 xs2).2.2.1)

theorem cover1_D_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1024.Idx) :
    ∃ pc ∈ (kernelRun1_D c i arg2 harg2 arg3 harg3 arg4 harg4 arg5 harg5 arg6 harg6 arg7 harg7 arg8 harg8 hc0 hc1 hc2 x0 x1 x2 xs0 xs1 xs2).1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).1 S4x256x1024.size (by sl_kernel_rfl) y

def out1_D_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1024 .f32 :=
  VO1_3.read (Elt F) (VO1_3.writes (Elt F) VO1_3.junk (kernelRun1_D c i arg2 harg2 arg3 harg3 arg4 harg4 arg5 harg5 arg6 harg6 arg7 harg7 arg8 harg8 hc0 hc1 hc2 x0 x1 x2 xs0 xs1 xs2).1)

theorem scover1_D_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1.Idx) :
    ∃ pc ∈ (kernelRun1_D c i arg2 harg2 arg3 harg3 arg4 harg4 arg5 harg5 arg6 harg6 arg7 harg7 arg8 harg8 hc0 hc1 hc2 x0 x1 x2 xs0 xs1 xs2).2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.1 S4x256x1.size (by sl_kernel_rfl) y

def sout1_D_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1 .f32 :=
  VS1_0.read (Elt F) (VS1_0.writes (Elt F) VS1_0.junk (kernelRun1_D c i arg2 harg2 arg3 harg3 arg4 harg4 arg5 harg5 arg6 harg6 arg7 harg7 arg8 harg8 hc0 hc1 hc2 x0 x1 x2 xs0 xs1 xs2).2.1)

theorem scover1_D_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1.Idx) :
    ∃ pc ∈ (kernelRun1_D c i arg2 harg2 arg3 harg3 arg4 harg4 arg5 harg5 arg6 harg6 arg7 harg7 arg8 harg8 hc0 hc1 hc2 x0 x1 x2 xs0 xs1 xs2).2.2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.2.1 S4x256x1.size (by sl_kernel_rfl) y

def sout1_D_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1 .f32 :=
  VS1_1.read (Elt F) (VS1_1.writes (Elt F) VS1_1.junk (kernelRun1_D c i arg2 harg2 arg3 harg3 arg4 harg4 arg5 harg5 arg6 harg6 arg7 harg7 arg8 harg8 hc0 hc1 hc2 x0 x1 x2 xs0 xs1 xs2).2.2.1)

theorem scover1_D_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1024.Idx) :
    ∃ pc ∈ (kernelRun1_D c i arg2 harg2 arg3 harg3 arg4 harg4 arg5 harg5 arg6 harg6 arg7 harg7 arg8 harg8 hc0 hc1 hc2 x0 x1 x2 xs0 xs1 xs2).2.2.2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.2.2.1 S4x256x1024.size (by sl_kernel_rfl) y

def sout1_D_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1024 .f32 :=
  VS1_2.read (Elt F) (VS1_2.writes (Elt F) VS1_2.junk (kernelRun1_D c i arg2 harg2 arg3 harg3 arg4 harg4 arg5 harg5 arg6 harg6 arg7 harg7 arg8 harg8 hc0 hc1 hc2 x0 x1 x2 xs0 xs1 xs2).2.2.2.1)

variable (V : (c : Dev nD) → (b : Ref sig .tc) → Buf (Elt F) ((c : Thread nD τ).loc b))

/-! ## What the buffers hold after each point -/

/-- After the body at position `n`: the output tile's staging buffer, then the running maximum, denominator and
    numerator. Which of the guards hold at `n` selects the case; a case that reads the scratch reads what position
    `n - 1` left; a buffer the case does not store into keeps what position `n - 1` left in it. -/
def outsAt1 (c : Dev nD) : (n : ℕ) → n < cfg1.N → Vec F S4x256x1024 .f32 × Vec F S4x256x1 .f32 × Vec F S4x256x1 .f32 × Vec F S4x256x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩))
  | n + 1, hn =>
    if h0 : (n + 1) % 16 = 0 then
      ((outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩), sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩), sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩))
    else if h1 : (n + 1) % 16 ≤ (n + 1) / 16 then
      if h2 : (n + 1) % 16 = (n + 1) / 16 then
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        ((outsAt1 c n (Nat.lt_of_succ_lt hn)).1, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      outsAt1 c n (Nat.lt_of_succ_lt hn)

theorem outsAt1_A (c : Dev nD) (t : Fin cfg1.N) (hz : t.val = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t)) := by
  obtain ⟨n, hn⟩ := t
  cases n with
  | zero => rfl
  | succ n => exact absurd hz (Nat.succ_ne_zero n)

theorem outsAt1_B (c : Dev nD) (t : Fin cfg1.N) (hz : t.val ≠ 0) (h0 : t.val % 16 = 0) :
    outsAt1 V c t.val t.isLt = ((outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t)) := by
  obtain ⟨n, hn⟩ := t
  cases n with
  | zero => exact absurd rfl hz
  | succ n => exact (dif_pos h0).trans rfl

theorem outsAt1_C (c : Dev nD) (t : Fin cfg1.N) (h0 : ¬t.val % 16 = 0) (h1 : t.val % 16 ≤ t.val / 16) (h2 : ¬t.val % 16 = t.val / 16) :
    outsAt1 V c t.val t.isLt = ((outsAt1 V c (t.val - 1) (Nat.lt_of_le_of_lt (Nat.sub_le _ _) t.isLt)).1, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))

theorem outsAt1_D (c : Dev nD) (t : Fin cfg1.N) (h0 : ¬t.val % 16 = 0) (h1 : t.val % 16 ≤ t.val / 16) (h2 : t.val % 16 = t.val / 16) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))

theorem outsAt1_E (c : Dev nD) (t : Fin cfg1.N) (h0 : ¬t.val % 16 = 0) (h1 : ¬t.val % 16 ≤ t.val / 16) :
    outsAt1 V c t.val t.isLt = outsAt1 V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

end Cert.Kernel.Hand

end
-- ==== Proof.Kernel.R1Shape.lean ====
/-
  The attention region's invariant, its shape. Between two grid points the region holds, beside the generator
  register, every scoped buffer no window of it stages: the projection region's fourteen staging buffers, at
  anything, and the three scratch buffers, at what the point before left (at anything before the first point).
-/
import proofs.«116248_j65103114273198_2_alg».proof.Proof.Kernel.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The projection region's staging buffers at anything, beside `P`. -/
def stgRest (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P)

/-- The class invariant with the scratch buffers as memrefs owned at some contents. -/
theorem PhiA1_eq (c : Dev nD) :
    (Pipeline.ΦA spec1 c : sProp 𝕄)
      = iprop(stgRest (F := F) c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA stgRest; rw [scopedRest1_eq]; simp only [scM1_0, scM1_1, scM1_2, owns_whole]; try rfl

/-- What rides beside the staging buffers can be taken out -/
theorem stgRest_out (c : Dev nD) (P : sProp 𝕄) : stgRest (F := F) c P ⊢ iprop(stgRest (F := F) c iprop(emp) ∗ P) := by
  unfold stgRest
  iintro ⟨H1, H2, H3, H4, H5, H6, H7, H8, H9, H10, H11, H12, H13, H14, HP⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iempintro
  iexact HP

/-- and put back. -/
theorem stgRest_in (c : Dev nD) (P : sProp 𝕄) : iprop(stgRest (F := F) c iprop(emp) ∗ P) ⊢ stgRest (F := F) c P := by
  unfold stgRest
  iintro ⟨⟨H1, H2, H3, H4, H5, H6, H7, H8, H9, H10, H11, H12, H13, H14, -⟩, HP⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HP

end Cert.Kernel.Hand

end
-- ==== Proof.Kernel.R1Frame.lean ====
/-
  The attention region: its invariant point by point, its proof data, and the body obligation.

  Before the first point the region holds the class invariant (every scoped buffer it does not stage at anything,
  and the generator register). After point `n` it holds the three scratch buffers at the running maximum,
  denominator and numerator that point left. The output tile's staging buffer is stored at the diagonal point of a
  row only; the points after it in the row leave it alone, so at the row's last point, where the pipeline writes the
  tile back, it still holds what the diagonal point stored: looking back from a point above the diagonal through
  the points that left the buffer alone, one arrives at the diagonal's store.
-/
import proofs.«116248_j65103114273198_2_alg».proof.Proof.Kernel.R1Outs
import proofs.«116248_j65103114273198_2_alg».proof.Proof.Kernel.R1Shape

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position `n`. -/
def PhiS1 (c : Dev nD) : (n : ℕ) → n ≤ cfg1.N → sProp 𝕄
  | 0, _ => Pipeline.ΦA spec1 c
  | n + 1, hn => iprop(stgRest (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stgRest (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(stgRest (F := F) c iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The output tile's buffer is uncut: what the body left in it is found whole. -/
theorem kept1_3 (c : Dev nD) (t : Fin cfg1.N) (d) : (dat1 V c).kept 3 t d = (dat1 V c).after 3 t := by
  unfold Dat.kept
  rw [Pipeline.fill_of_clip_none (cfg := cfg1) 3 _ (fun _ => rfl) d ((dat1 V c).after 3 t), Window.fill_cut]

/-- ABOVE THE DIAGONAL the output tile's buffer holds what the point before left in it: the pipeline did not write
    it back in between (the row's last point is still ahead), and the points since the diagonal left it alone. -/
theorem before1_3_above (c : Dev nD) : ∀ (n : ℕ) (hn : n < cfg1.N), n / 16 < n % 16 → ∀ d,
    (dat1 V c).before 3 ⟨n, hn⟩ d = (outsAt1 V c (n - 1) (Nat.lt_of_le_of_lt (Nat.sub_le _ _) hn)).1 := by
  intro n
  induction n with
  | zero => intro hn h; simp at h
  | succ n ih =>
    intro hn h d
    have hn' : n < cfg1.N := Nat.lt_of_succ_lt hn
    have hN : n + 1 < 256 := lt_of_lt_of_eq hn N_1
    rw [(dat1 V c).before_of_pos 3 ⟨n + 1, hn⟩ (Nat.succ_ne_zero n) ((cfg1.win 3).fetch_out rfl _) d]
    have hfl : (cfg1.win 3).flush ⟨n + 1 - 1, Nat.lt_of_le_of_lt (Nat.sub_le _ _) hn⟩ = false :=
      Bool.eq_false_iff.mpr fun hf => by
        have := (flush1_3 _).mp hf; dsimp only at this; omega
    rw [hfl, if_neg Bool.false_ne_true]
    unfold Dat.left
    by_cases hd : n % 16 = n / 16
    · have hlive : cfg1.idle 3 (grid1.coords ⟨n, hn'⟩) = false := liveAt1_3 ⟨n, hn'⟩ ((hcond1_2 ⟨n, hn'⟩).mpr hd)
      simp only [Nat.add_sub_cancel]
      split
      · next heq => exact Bool.noConfusion (heq.symm.trans hlive)
      · rw [kept1_3, after1_3]
    · have hidle : cfg1.idle 3 (grid1.coords ⟨n, hn'⟩) = true := idleAt1_3 ⟨n, hn'⟩ (fun hc => hd ((hcond1_2 ⟨n, hn'⟩).mp hc))
      simp only [Nat.add_sub_cancel]
      split
      · rw [ih hn' (by omega) d]
        exact (congrArg Prod.fst (outsAt1_E V c ⟨n, hn'⟩ (by dsimp only; omega) (by dsimp only; omega))).symm
      · next heq => exact Bool.noConfusion (hidle.symm.trans heq)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt N_1
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  by_cases hz : t.val = 0
  · -- the first point: reset, fold, write
    rw [show (dat1 V c).leavesExact 3 t = owns (c : Thread nD τ) (ms1_3 t) fullShare ((dat1 V c).after 3 t) from by
      unfold Dat.leavesExact; rw [liveAt1_3 t ((hcond1_2 t).mpr (by rw [hz]))], after1_3]
    rw [outsAt1_A V c t hz]
    unfold out1_A_3 sout1_A_0 sout1_A_1 sout1_A_2; (try dsimp only)
    rw [PhiS1_castSucc V c t, PhiS1_zero V c _ _ hz, PhiA1_eq]
    iintro ⟨⟨HR, Hg⟩, Ho, ⟨%d0, H0⟩, ⟨%d1, H1⟩, ⟨%d2, H2⟩, ⟨%d3, H3⟩⟩
    ihave HR' := (stgRest_out c _) $$ HR
    icases HR' with ⟨Hstg, HS0, HS1, HS2⟩
    iapply ((kernelRun1_A c (grid1.coords t) _ _ _ _ _ _ _ _ _ _ _ _ _ _ ((hcond1_0 t).mpr (by rw [hz])) ((hcond1_1 t).mpr (by rw [hz])) ((hcond1_2 t).mpr (by rw [hz])) (iblk1 V c 0 t) (iblk1 V c 1 t) (iblk1 V c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hstg HS0 HS1 HS2 Hg]
    · isplitl [Hstg HS0 HS1 HS2]
      · iapply (stgRest_in c _)
        isplitl [Hstg]; · iexact Hstg
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _)
  · by_cases h0 : t.val % 16 = 0
    · -- first key tile of a later row: reset, fold; output untouched, not written back
      have hnc2 : ¬cond1_2 (grid1.coords t) := fun h => by have := (hcond1_2 t).mp h; omega
      rw [Dat.leavesExact_idle (dat1 V c) 3 t (idleAt1_3 t hnc2) (Bool.eq_false_iff.mpr fun hf => by have := (flush1_3 t).mp hf; omega)]
      rw [outsAt1_B V c t hz h0]
      unfold sout1_B_0 sout1_B_1 sout1_B_2; (try dsimp only)
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (stgRest_out c _) $$ HR
      icases HR' with ⟨Hstg, HS0, HS1, HS2⟩
      iapply ((kernelRun1_B c (grid1.coords t) _ _ _ _ _ _ _ _ _ _ _ _ _ _ ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hstg HS0 HS1 HS2 Hg]
      · isplitl [Hstg HS0 HS1 HS2]
        · iapply (stgRest_in c _)
          isplitl [Hstg]; · iexact Hstg
          isplitl [HS0]
          · unfold owns; iexists _; isplitr
            swap; · iexact HS0
            ipureintro; exact View.read_writes_of_cover _ _ _ _ _ (scover1_B_0 c _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · by_cases h1 : t.val % 16 ≤ t.val / 16
      · by_cases h2 : t.val % 16 = t.val / 16
        · -- the diagonal of a later row: fold, write
          rw [show (dat1 V c).leavesExact 3 t = owns (c : Thread nD τ) (ms1_3 t) fullShare ((dat1 V c).after 3 t) from by
            unfold Dat.leavesExact; rw [liveAt1_3 t ((hcond1_2 t).mpr h2)], after1_3]
          rw [outsAt1_D V c t h0 h1 h2]
          unfold out1_D_3 sout1_D_0 sout1_D_1 sout1_D_2; (try dsimp only)
          rw [PhiS1_castSucc V c t, PhiS1_pos V c _ _ hz]
          iintro ⟨⟨HR, Hg⟩, Ho, ⟨%d0, H0⟩, ⟨%d1, H1⟩, ⟨%d2, H2⟩, ⟨%d3, H3⟩⟩
          ihave HR' := (stgRest_out c _) $$ HR
          icases HR' with ⟨Hstg, HS0, HS1, HS2⟩
          iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hstg HS0 HS1 HS2 Hg]
          · isplitl [Hstg HS0 HS1 HS2]
            · iapply (stgRest_in c _)
              isplitl [Hstg]; · iexact Hstg
              isplitl [HS0]
              · unfold owns; iexists _; isplitr
                swap; · iexact HS0
                ipureintro; exact View.read_writes_of_cover _ _ _ _ _ (scover1_D_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_D_1 c _ _ _ _ _ _ _ _ _ _ _ _ _ _ _ _ _ _ _ _ _ _ _ _)
              unfold owns; iexists _; isplitr
              swap; · iexact HS2
              ipureintro; exact View.read_writes_of_cover _ _ _ _ _ (scover1_D_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_D_3 c _ _ _ _ _ _ _ _ _ _ _ _ _ _ _ _ _ _ _ _ _ _ _ _)
        · -- below the diagonal: fold; output untouched, not written back
          have hnc2 : ¬cond1_2 (grid1.coords t) := fun h => h2 ((hcond1_2 t).mp h)
          rw [Dat.leavesExact_idle (dat1 V c) 3 t (idleAt1_3 t hnc2) (Bool.eq_false_iff.mpr fun hf => by have := (flush1_3 t).mp hf; omega)]
          rw [outsAt1_C V c t h0 h1 h2]
          unfold sout1_C_0 sout1_C_1 sout1_C_2; (try dsimp only)
          rw [PhiS1_castSucc V c t, PhiS1_pos V c _ _ hz]
          iintro ⟨⟨HR, Hg⟩, Ho, ⟨%d0, H0⟩, ⟨%d1, H1⟩, ⟨%d2, H2⟩, ⟨%d3, H3⟩⟩
          ihave HR' := (stgRest_out c _) $$ HR
          icases HR' with ⟨Hstg, HS0, HS1, HS2⟩
          iapply ((kernelRun1_C c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hstg HS0 HS1 HS2 Hg]
          · isplitl [Hstg HS0 HS1 HS2]
            · iapply (stgRest_in c _)
              isplitl [Hstg]; · iexact Hstg
              isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · -- above the diagonal: the body touches nothing
        have hnc0 : ¬cond1_0 (grid1.coords t) := fun h => h0 ((hcond1_0 t).mp h)
        have hnc1 : ¬cond1_1 (grid1.coords t) := fun h => h1 ((hcond1_1 t).mp h)
        have hnc2 : ¬cond1_2 (grid1.coords t) := fun h => by have := (hcond1_2 t).mp h; omega
        rw [outsAt1_E V c t h0 h1]
        rw [PhiS1_castSucc V c t, PhiS1_pos V c _ _ hz]
        by_cases h15 : t.val % 16 = 15
        · -- the row's last point: the tile is written back, at what the diagonal stored
          rw [show (dat1 V c).leavesExact 3 t = owns (c : Thread nD τ) (ms1_3 t) fullShare ((dat1 V c).after 3 t) from by
            unfold Dat.leavesExact; rw [idleAt1_3 t hnc2, (flush1_3 t).mpr h15], after1_3, outsAt1_E V c t h0 h1]
          simp only [before1_3_above V c t.val t.isLt (by omega)]
          iintro ⟨HΦ, Ho, ⟨%d0, H0⟩, ⟨%d1, H1⟩, ⟨%d2, H2⟩, ⟨%d3, H3⟩⟩
          iapply (kernelRun1_E c (grid1.coords t) _ _ _ _ _ _ _ _ _ _ _ _ _ _ hnc0 hnc1 hnc2 Set.univ _)
          isplitl [HΦ]; · iexact HΦ
          isplitl [Ho]; · iexact Ho
          isplitl [H0]; · iexact H0
          isplitl [H1]; · iexact H1
          isplitl [H2]; · iexact H2
          iexact H3
        · rw [Dat.leavesExact_idle (dat1 V c) 3 t (idleAt1_3 t hnc2) (Bool.eq_false_iff.mpr fun hf => h15 ((flush1_3 t).mp hf))]
          iintro ⟨HΦ, Ho, ⟨%d0, H0⟩, ⟨%d1, H1⟩, ⟨%d2, H2⟩, ⟨%d3, H3⟩⟩
          iapply (kernelRun1_E c (grid1.coords t) _ _ _ _ _ _ _ _ _ _ _ _ _ _ hnc0 hnc1 hnc2 Set.univ _)
          isplitl [HΦ]; · iexact HΦ
          isplitl [Ho]; · iexact Ho
          isplitl [H0]; · iexact H0
          isplitl [H1]; · iexact H1
          isplitl [H2]; · iexact H2
          iexists _; iexact H3

theorem body_obligation1 (c : Dev nD) : BodyObligation (dat1 (F := F) V c) (defs₀ (F := F)) Variants.none () Set.univ := fun t => by
  rw [bigSep_W1, bigSep_W1]
  exact sound_body1 V c t

/-- The class invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (stgRest_out c _) $$ HR
    icases HR' with ⟨Hstg, HS0, HS1, HS2⟩
    iapply (stgRest_in c _)
    isplitl [Hstg]; · iexact Hstg
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.Kernel.Run.lean ====
/-
  The kernel program's run: a stretch of host operations (three transposes, two concatenations, a change of
  format), the projection region, the attention region. Between two of these items every unscoped buffer of the
  core is held whole at known contents: as launched; after the host stretch; after the projection region, its
  three result arrays at what its write-backs leave; after the attention region, the result array likewise.
  Each region enters its pipeline from that thread state and leaves it at the next one; the generator register and
  the (empty) dues ride along. At the end every unscoped buffer is read against the last contents: the arguments
  walk back unchanged to the launch, and the result is what the attention pipeline's write-backs leave.
-/
import proofs.«116248_j65103114273198_2_alg».proof.Proof.Kernel.Region0
import proofs.«116248_j65103114273198_2_alg».proof.Proof.Kernel.R1Frame
import proofs.«116248_j65103114273198_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 4).trans (((dat0 (V1 m) c).arrAt_in 4 rfl _).trans (A_eq0 (V1 m) c 4))
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := V1_of m c main_arg8 (by decide)
    _ = m ((c : Thread nD τ).loc main_arg8) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have h := hout1 (V2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩) (run_all m ρ)

/-- The run with the result named: what the attention pipeline's write-backs leave in the result array. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v7 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩) (run_all m ρ)

end Cert.Kernel.Hand

end
-- ==== Proof.KernelIdeal.Region0.lean ====
/-
  Region 0 of @main: the fused projection kernel, a grid of 4 × 4 points (sequence tile, batch).

  At a point the body reads five whole blocks — a [1, 1024, 1024] tile of the activations, the whole [1024, 3072]
  concatenated weight, the whole [3072] concatenated bias, and the [1024, 512] tiles of the two angle tables —
  and overwrites three whole [1, 1024, 1024] blocks: the rotated queries, the rotated keys and the values. Each
  output block is therefore ONE function of the five input blocks, and nothing is carried from point to point.

  Everything is stated at a parameter `V`: the contents of the TensorCore's buffers when the region is entered.
  The region's proof data holds, after the body at a point, every input's staging buffer at its block of `V`'s
  array and every output's at the body's function of those five blocks.
-/
import proofs.«116248_j65103114273198_2_alg».proof.Proof.Gen.KernelIdeal.Launch
import proofs.«116248_j65103114273198_2_alg».proof.Proof.Gen.KernelIdeal.Skeleton
import proofs.«116248_j65103114273198_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether the pipeline fetched
    it there or not (when it did not, the block index has not moved since the last fetch), for any proof data over
    `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds the window's block at every point, whether the pipeline fetched
    it there or not (when it did not, the block index has not moved since the last fetch), for any proof data over
    `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds the window's block at every point, whether the pipeline fetched
    it there or not (when it did not, the block index has not moved since the last fetch), for any proof data over
    `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds the window's block at every point, whether the pipeline fetched
    it there or not (when it did not, the block index has not moved since the last fetch), for any proof data over
    `V`'s array whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds the window's block at every point, whether the pipeline fetched
    it there or not (when it did not, the block index has not moved since the last fetch), for any proof data over
    `V`'s array whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev r0_0 : Rect S1x1024x1024 := Rect.unit (s := S1x1024x1024) ![0, 0, 0] S1x1024x1024.size inb_S1x1024x1024_S1x1024x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S1024x512 := Rect.unit (s := S1024x512) ![0, 0] S1024x512.size inb_S1024x512_S1024x512_0_0

/-! ## What the body leaves in each output window's buffer -/

/-- The rotated queries' buffer after the body: its one store, of the rotated first third of the projection. -/
def out0_5 (x0 : Vec F S1x1024x1024 .f32) (x1 : Vec F S1024x3072 .bf16) (x2 : Vec F S3072 .f32) (x3 x4 : Vec F S1024x512 .f32) : Vec F S1x1024x1024 .bf16 :=
  View.canon [⟨r0_0, k0_pay5 (View.ld x0 r0_0) (View.ld x1 r0_1) (View.ld x2 r0_2) (View.ld x3 r0_3) (View.ld x4 r0_3)⟩]

/-- The rotated keys' buffer after the body: its one store, of the rotated second third of the projection. -/
def out0_6 (x0 : Vec F S1x1024x1024 .f32) (x1 : Vec F S1024x3072 .bf16) (x2 : Vec F S3072 .f32) (x3 x4 : Vec F S1024x512 .f32) : Vec F S1x1024x1024 .bf16 :=
  View.canon [⟨r0_0, k0_pay1 (k0_pay6 (View.ld x0 r0_0) (View.ld x1 r0_1) (View.ld x2 r0_2) (View.ld x3 r0_3) (View.ld x4 r0_3))⟩]

/-- The values' buffer after the body: its one store, of the last third of the projection, not rotated. -/
def out0_7 (x0 : Vec F S1x1024x1024 .f32) (x1 : Vec F S1024x3072 .bf16) (x2 : Vec F S3072 .f32) : Vec F S1x1024x1024 .bf16 :=
  View.canon [⟨r0_0, k0_pay2 (k0_pay4 (View.ld x0 r0_0) (View.ld x1 r0_1) (View.ld x2 r0_2))⟩]

/-- A store of the whole buffer covers it. -/
theorem cover0_out (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging memrefs — the five inputs' at contents `x0 … x4`, the three outputs' at anything — runs
    to a state holding the inputs' as they were and each output's at its function of the inputs. -/
theorem sound_kernel0 (c : Dev nD) (E : Set ℕ) (i : grid0.Coords) (arg2 : Memref sig .tc .vmem S1x1024x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S1x1024x1024 .bf16) (harg9 : arg9.IsWhole)
    (x0 : Vec F S1x1024x1024 .f32) (x1 : Vec F S1024x3072 .bf16) (x2 : Vec F S3072 .f32) (x3 x4 : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4) ∗ owns (c : Thread nD τ) arg8 fullShare (out0_6 x0 x1 x2 x3 x4)
            ∗ owns (c : Thread nD τ) arg9 fullShare (out0_7 x0 x1 x2)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_out _)
  isplitl [H6]
  · iexists _; isplitr
    swap; · iexact H6
    ipureintro
    try dsimp only
    exact View.read_writes_eq_canon _ _ _ (cover0_out _)
  iexists _; isplitr
  swap; · iexact H7
  ipureintro
  try dsimp only
  exact View.read_writes_eq_canon _ _ _ (cover0_out _)

/-! ## The pipeline's proof data -/

/-- The proof data of the region on core `c`: the arrays as the region finds them; after the body at point `t` each
    input's buffer at its block and each output's at the body's function of the five input blocks; the invariant
    that the scoped rest and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1Base.lean ====
/-
  The attention region, first part: what every later statement about it is written over.

  The region's grid is 16 × 16; point `t` has query tile `q = t / 16` and key tile `k = t % 16`. The body has three
  guarded blocks: at `k = 0` it resets the running maximum, denominator and numerator kept in three scratch
  buffers; at `k ≤ q` it folds the key tile into them; at `k = q` it writes the quotient into the output tile.
  The output tile's block index depends on `q` only, so its staging buffer is written back once per row, at
  `k = 15`; at every point with `k ≠ q` the body stores nothing into it.
-/
import proofs.«116248_j65103114273198_2_alg».proof.Proof.Gen.KernelIdeal.Launch
import proofs.«116248_j65103114273198_2_alg».proof.Proof.Gen.KernelIdeal.Skeleton
import proofs.«116248_j65103114273198_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three guards, from the grid coordinates -/

/-- The reset guard: the key tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The fold guard: the key tile is not after the query tile. -/
abbrev cond1_1 (i : grid1.Coords) : Prop := (Scalar.cmpi .ne (Scalar.extui (Scalar.cmpi .sle (BitVec.ofNat 32 (i 1).val) (BitVec.ofNat 32 (i 0).val))) 0#32) = 1#1
theorem hcond1_1 : ∀ t : Fin cfg1.N, cond1_1 (grid1.coords t) ↔ t.val % 16 ≤ t.val / 16 :=
  (by decide +kernel : ∀ t : Fin grid1.N, cond1_1 (grid1.coords t) ↔ t.val % 16 ≤ t.val / 16)

/-- The write guard: the key tile is the query tile (the diagonal). -/
abbrev cond1_2 (i : grid1.Coords) : Prop := k1_cond3 i = 1#1
theorem hcond1_2 : ∀ t : Fin cfg1.N, cond1_2 (grid1.coords t) ↔ t.val % 16 = t.val / 16 :=
  (by decide +kernel : ∀ t : Fin grid1.N, cond1_2 (grid1.coords t) ↔ t.val % 16 = t.val / 16)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the diagonal the body stores nothing into the output tile's buffer; on it, it does. -/
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel

/-! ## The memrefs the body is called with -/

abbrev VO1_3 : View sig .tc .vmem S4x256x1024 .f32 := (Memref.whole cc1_stg3_0 : Memref sig .tc .vmem S4x256x1024 .f32).view
abbrev ms1_0 (t : Fin cfg1.N) : Memref sig .tc .vmem S4x256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x256x1024 .f32 := win1_3.stage (cfg1.slots t 3)
abbrev hs1_3 (t : Fin cfg1.N) : (ms1_3 t).IsWhole := hstage1_3 ((cfg1.slots t 3).cast nbuf1_3)
/-- The three scratch buffers: running maximum, denominator, numerator. -/
abbrev scM1_0 : Memref sig .tc .vmem S4x256x1 .f32 := Memref.whole cc1_scratch0
abbrev scM1_1 : Memref sig .tc .vmem S4x256x1 .f32 := Memref.whole cc1_scratch1
abbrev scM1_2 : Memref sig .tc .vmem S4x256x1024 .f32 := Memref.whole cc1_scratch2
abbrev VS1_0 : View sig .tc .vmem S4x256x1 .f32 := scM1_0.view
abbrev VS1_1 : View sig .tc .vmem S4x256x1 .f32 := scM1_1.view
abbrev VS1_2 : View sig .tc .vmem S4x256x1024 .f32 := scM1_2.view

end Cert.KernelIdeal.Hand

end
-- ==== Proof.KernelIdeal.R1RunD.lean ====
/-
  The attention body at a diagonal point after the first key tile (`0 < k = q`): no reset; the key tile is folded
  into the running maximum, denominator and numerator; the quotient is written into the output tile.
-/
import proofs.«116248_j65103114273198_2_alg».proof.Proof.KernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave, as pieces, in the output tile's buffer and in the three scratch buffers, with the
    run that finds them: inputs at their blocks, scratch at what the point before left. -/
noncomputable def kernelRun1_D (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KernelIdeal.R1RunC.lean ====
/-
  The attention body strictly below the diagonal and after the first key tile (`0 < k < q`): no reset; the key tile
  is folded into the running maximum, denominator and numerator; the output tile's buffer is not touched.
-/
import proofs.«116248_j65103114273198_2_alg».proof.Proof.KernelIdeal.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1; obtain rfl := harg8.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KernelIdeal.R1RunB.lean ====
/-
  The attention body at the first key tile of a later row (`k = 0 < q`): the running maximum, denominator and
  numerator are reset (to −∞, 0, 0) and the key tile is folded into them; the output tile's buffer is not touched.
-/
import proofs.«116248_j65103114273198_2_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : cond1_0 i) (hc1 : cond1_1 i) (hc2 : ¬cond1_2 i)
    (x0 x1 x2 : Vec F S4x256x1024 .bf16) :
    Σ' (LS0 : List (View.Piece (Elt F) S4x256x1 .f32)) (LS1 : List (View.Piece (Elt F) S4x256x1 .f32)), { LS2 : List (View.Piece (Elt F) S4x256x1024 .f32) //
      ∀ (xi3 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KernelIdeal.R1RunA.lean ====
/-
  The attention body at the very first point (`k = q = 0`): reset, fold the key tile, write the quotient into the
  output tile.
-/
import proofs.«116248_j65103114273198_2_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : cond1_0 i) (hc1 : cond1_1 i) (hc2 : cond1_2 i)
    (x0 x1 x2 : Vec F S4x256x1024 .bf16) :
    Σ' (L3 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2

    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KernelIdeal.R1RunE.lean ====
/-
  The attention body above the diagonal (`k > q`): every guard fails; the body touches nothing.
-/
import proofs.«116248_j65103114273198_2_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernelRun1_E (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole)
    (hc0 : ¬cond1_0 i) (hc1 : ¬cond1_1 i) (hc2 : ¬cond1_2 i) (E : Set ℕ) (K : PUnit → sProp 𝕄) :
    (K ⟨⟩ : sProp 𝕄) ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  iintro Hk
  sl_exec (disch := first | exact hc0 | exact hc1 | exact hc2)
  sl_step
  iexact Hk

end Cert.KernelIdeal.Hand

end
-- ==== Proof.KernelIdeal.R1Outs.lean ====
/-
  The attention region: what each case of the body leaves in the buffers it stores into (the pieces its run found,
  read back; each list of pieces tiles its buffer), and the state after each grid point.
-/
import proofs.«116248_j65103114273198_2_alg».proof.Proof.KernelIdeal.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem cover1_A_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1024.Idx) :
    ∃ pc ∈ (kernelRun1_A c i arg2 harg2 arg3 harg3 arg4 harg4 arg5 harg5 arg6 harg6 arg7 harg7 arg8 harg8 hc0 hc1 hc2 x0 x1 x2).1, y ∈ pc.1.set :=
  View.cover_of_tiledL (kernelRun1_A c i arg2 harg2 arg3 harg3 arg4 harg4 arg5 harg5 arg6 harg6 arg7 harg7 arg8 harg8 hc0 hc1 hc2 x0 x1 x2).1 S4x256x1024.size (by sl_kernel_rfl) y

def out1_A_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1024 .f32 :=
  VO1_3.read (Elt F) (VO1_3.writes (Elt F) VO1_3.junk (kernelRun1_A c i arg2 harg2 arg3 harg3 arg4 harg4 arg5 harg5 arg6 harg6 arg7 harg7 arg8 harg8 hc0 hc1 hc2 x0 x1 x2).1)

theorem scover1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1.Idx) :
    ∃ pc ∈ (kernelRun1_A c i arg2 harg2 arg3 harg3 arg4 harg4 arg5 harg5 arg6 harg6 arg7 harg7 arg8 harg8 hc0 hc1 hc2 x0 x1 x2).2.1, y ∈ pc.1.set :=
  View.cover_of_tiledL (kernelRun1_A c i arg2 harg2 arg3 harg3 arg4 harg4 arg5 harg5 arg6 harg6 arg7 harg7 arg8 harg8 hc0 hc1 hc2 x0 x1 x2).2.1 S4x256x1.size (by sl_kernel_rfl) y

def sout1_A_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1 .f32 :=
  VS1_0.read (Elt F) (VS1_0.writes (Elt F) VS1_0.junk (kernelRun1_A c i arg2 harg2 arg3 harg3 arg4 harg4 arg5 harg5 arg6 harg6 arg7 harg7 arg8 harg8 hc0 hc1 hc2 x0 x1 x2).2.1)

theorem scover1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1.Idx) :
    ∃ pc ∈ (kernelRun1_A c i arg2 harg2 arg3 harg3 arg4 harg4 arg5 harg5 arg6 harg6 arg7 harg7 arg8 harg8 hc0 hc1 hc2 x0 x1 x2).2.2.1, y ∈ pc.1.set :=
  View.cover_of_tiledL (kernelRun1_A c i arg2 harg2 arg3 harg3 arg4 harg4 arg5 harg5 arg6 harg6 arg7 harg7 arg8 harg8 hc0 hc1 hc2 x0 x1 x2).2.2.1 S4x256x1.size (by sl_kernel_rfl) y

def sout1_A_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1 .f32 :=
  VS1_1.read (Elt F) (VS1_1.writes (Elt F) VS1_1.junk (kernelRun1_A c i arg2 harg2 arg3 harg3 arg4 harg4 arg5 harg5 arg6 harg6 arg7 harg7 arg8 harg8 hc0 hc1 hc2 x0 x1 x2).2.2.1)

theorem scover1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) (y : S4x256x1024.Idx) :
    ∃ pc ∈ (kernelRun1_A c i arg2 harg2 arg3 harg3 arg4 harg4 arg5 harg5 arg6 harg6 arg7 harg7 arg8 harg8 hc0 hc1 hc2 x0 x1 x2).2.2.2.1, y ∈ pc.1.set :=
  View.cover_of_tiledL (kernelRun1_A c i arg2 harg2 arg3 harg3 arg4 harg4 arg5 harg5 arg6 harg6 arg7 harg7 arg8 harg8 hc0 hc1 hc2 x0 x1 x2).2.2.2.1 S4x256x1024.size (by sl_kernel_rfl) y

def sout1_A_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) : Vec F S4x256x1024 .f32 :=
  VS1_2.read (Elt F) (VS1_2.writes (Elt F) VS1_2.junk (kernelRun1_A c i arg2 harg2 arg3 harg3 arg4 harg4 arg5 harg5 arg6 harg6 arg7 harg7 arg8 harg8 hc0 hc1 hc2 x0 x1 x2).2.2.2.1)

theorem scover1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1.Idx) :
    ∃ pc ∈ (kernelRun1_B c i arg2 harg2 arg3 harg3 arg4 harg4 arg5 harg5 arg6 harg6 arg7 harg7 arg8 harg8 hc0 hc1 hc2 x0 x1 x2).1, y ∈ pc.1.set :=
  View.cover_of_tiledL (kernelRun1_B c i arg2 harg2 arg3 harg3 arg4 harg4 arg5 harg5 arg6 harg6 arg7 harg7 arg8 harg8 hc0 hc1 hc2 x0 x1 x2).1 S4x256x1.size (by sl_kernel_rfl) y

def sout1_B_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1 .f32 :=
  VS1_0.read (Elt F) (VS1_0.writes (Elt F) VS1_0.junk (kernelRun1_B c i arg2 harg2 arg3 harg3 arg4 harg4 arg5 harg5 arg6 harg6 arg7 harg7 arg8 harg8 hc0 hc1 hc2 x0 x1 x2).1)

theorem scover1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1.Idx) :
    ∃ pc ∈ (kernelRun1_B c i arg2 harg2 arg3 harg3 arg4 harg4 arg5 harg5 arg6 harg6 arg7 harg7 arg8 harg8 hc0 hc1 hc2 x0 x1 x2).2.1, y ∈ pc.1.set :=
  View.cover_of_tiledL (kernelRun1_B c i arg2 harg2 arg3 harg3 arg4 harg4 arg5 harg5 arg6 harg6 arg7 harg7 arg8 harg8 hc0 hc1 hc2 x0 x1 x2).2.1 S4x256x1.size (by sl_kernel_rfl) y

def sout1_B_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1 .f32 :=
  VS1_1.read (Elt F) (VS1_1.writes (Elt F) VS1_1.junk (kernelRun1_B c i arg2 harg2 arg3 harg3 arg4 harg4 arg5 harg5 arg6 harg6 arg7 harg7 arg8 harg8 hc0 hc1 hc2 x0 x1 x2).2.1)

theorem scover1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) (y : S4x256x1024.Idx) :
    ∃ pc ∈ (kernelRun1_B c i arg2 harg2 arg3 harg3 arg4 harg4 arg5 harg5 arg6 harg6 arg7 harg7 arg8 harg8 hc0 hc1 hc2 x0 x1 x2).2.2.1, y ∈ pc.1.set :=
  View.cover_of_tiledL (kernelRun1_B c i arg2 harg2 arg3 harg3 arg4 harg4 arg5 harg5 arg6 harg6 arg7 harg7 arg8 harg8 hc0 hc1 hc2 x0 x1 x2).2.2.1 S4x256x1024.size (by sl_kernel_rfl) y

def sout1_B_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) : Vec F S4x256x1024 .f32 :=
  VS1_2.read (Elt F) (VS1_2.writes (Elt F) VS1_2.junk (kernelRun1_B c i arg2 harg2 arg3 harg3 arg4 harg4 arg5 harg5 arg6 harg6 arg7 harg7 arg8 harg8 hc0 hc1 hc2 x0 x1 x2).2.2.1)

theorem scover1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 hc2 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).1 S4x256x1.size (by sl_kernel_rfl) y

def sout1_C_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1 .f32 :=
  VS1_0.read (Elt F) (VS1_0.writes (Elt F) VS1_0.junk (kernelRun1_C c i arg2 harg2 arg3 harg3 arg4 harg4 arg5 harg5 arg6 harg6 arg7 harg7 arg8 harg8 hc0 hc1 hc2 x0 x1 x2 xs0 xs1 xs2).1)

theorem scover1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1.Idx) :
    ∃ pc ∈ (kernelRun1_C c i arg2 harg2 arg3 harg3 arg4 harg4 arg5 harg5 arg6 harg6 arg7 harg7 arg8 harg8 hc0 hc1 hc2 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).2.1 S4x256x1.size (by sl_kernel_rfl) y

def sout1_C_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1 .f32 :=
  VS1_1.read (Elt F) (VS1_1.writes (Elt F) VS1_1.junk (kernelRun1_C c i arg2 harg2 arg3 harg3 arg4 harg4 arg5 harg5 arg6 harg6 arg7 harg7 arg8 harg8 hc0 hc1 hc2 x0 x1 x2 xs0 xs1 xs2).2.1)

theorem scover1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) (y : S4x256x1024.Idx) :
    ∃ pc ∈ (kernelRun1_C c i arg2 harg2 arg3 harg3 arg4 harg4 arg5 harg5 arg6 harg6 arg7 harg7 arg8 harg8 hc0 hc1 hc2 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 hc2 x0 x1 x2 xs0 xs1 xs2).2.2.1 S4x256x1024.size (by sl_kernel_rfl) y

def sout1_C_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) : Vec F S4x256x1024 .f32 :=
  VS1_2.read (Elt F) (VS1_2.writes (Elt F) VS1_2.junk (kernelRun1_C c i arg2 harg2 arg3 harg3 arg4 harg4 arg5 harg5 arg6 harg6 arg7 harg7 arg8 harg8 hc0 hc1 hc2 x0 x1 x2 xs0 xs1 xs2).2.2.1)

theorem cover1_D_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1024.Idx) :
    ∃ pc ∈ (kernelRun1_D c i arg2 harg2 arg3 harg3 arg4 harg4 arg5 harg5 arg6 harg6 arg7 harg7 arg8 harg8 hc0 hc1 hc2 x0 x1 x2 xs0 xs1 xs2).1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).1 S4x256x1024.size (by sl_kernel_rfl) y

def out1_D_3 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1024 .f32 :=
  VO1_3.read (Elt F) (VO1_3.writes (Elt F) VO1_3.junk (kernelRun1_D c i arg2 harg2 arg3 harg3 arg4 harg4 arg5 harg5 arg6 harg6 arg7 harg7 arg8 harg8 hc0 hc1 hc2 x0 x1 x2 xs0 xs1 xs2).1)

theorem scover1_D_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1.Idx) :
    ∃ pc ∈ (kernelRun1_D c i arg2 harg2 arg3 harg3 arg4 harg4 arg5 harg5 arg6 harg6 arg7 harg7 arg8 harg8 hc0 hc1 hc2 x0 x1 x2 xs0 xs1 xs2).2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.1 S4x256x1.size (by sl_kernel_rfl) y

def sout1_D_0 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1 .f32 :=
  VS1_0.read (Elt F) (VS1_0.writes (Elt F) VS1_0.junk (kernelRun1_D c i arg2 harg2 arg3 harg3 arg4 harg4 arg5 harg5 arg6 harg6 arg7 harg7 arg8 harg8 hc0 hc1 hc2 x0 x1 x2 xs0 xs1 xs2).2.1)

theorem scover1_D_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1.Idx) :
    ∃ pc ∈ (kernelRun1_D c i arg2 harg2 arg3 harg3 arg4 harg4 arg5 harg5 arg6 harg6 arg7 harg7 arg8 harg8 hc0 hc1 hc2 x0 x1 x2 xs0 xs1 xs2).2.2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.2.1 S4x256x1.size (by sl_kernel_rfl) y

def sout1_D_1 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1 .f32 :=
  VS1_1.read (Elt F) (VS1_1.writes (Elt F) VS1_1.junk (kernelRun1_D c i arg2 harg2 arg3 harg3 arg4 harg4 arg5 harg5 arg6 harg6 arg7 harg7 arg8 harg8 hc0 hc1 hc2 x0 x1 x2 xs0 xs1 xs2).2.2.1)

theorem scover1_D_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) (y : S4x256x1024.Idx) :
    ∃ pc ∈ (kernelRun1_D c i arg2 harg2 arg3 harg3 arg4 harg4 arg5 harg5 arg6 harg6 arg7 harg7 arg8 harg8 hc0 hc1 hc2 x0 x1 x2 xs0 xs1 xs2).2.2.2.1, y ∈ pc.1.set :=
  View.cover_of_tiledL (kernelRun1_D c i arg2 harg2 arg3 harg3 arg4 harg4 arg5 harg5 arg6 harg6 arg7 harg7 arg8 harg8 hc0 hc1 hc2 x0 x1 x2 xs0 xs1 xs2).2.2.2.1 S4x256x1024.size (by sl_kernel_rfl) y

def sout1_D_2 (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) : Vec F S4x256x1024 .f32 :=
  VS1_2.read (Elt F) (VS1_2.writes (Elt F) VS1_2.junk (kernelRun1_D c i arg2 harg2 arg3 harg3 arg4 harg4 arg5 harg5 arg6 harg6 arg7 harg7 arg8 harg8 hc0 hc1 hc2 x0 x1 x2 xs0 xs1 xs2).2.2.2.1)

variable (V : (c : Dev nD) → (b : Ref sig .tc) → Buf (Elt F) ((c : Thread nD τ).loc b))

/-! ## What the buffers hold after each point -/

/-- After the body at position `n`: the output tile's staging buffer, then the running maximum, denominator and
    numerator. Which of the guards hold at `n` selects the case; a case that reads the scratch reads what position
    `n - 1` left; a buffer the case does not store into keeps what position `n - 1` left in it. -/
def outsAt1 (c : Dev nD) : (n : ℕ) → n < cfg1.N → Vec F S4x256x1024 .f32 × Vec F S4x256x1 .f32 × Vec F S4x256x1 .f32 × Vec F S4x256x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (by simp)) ((hcond1_2 ⟨0, hn⟩).mpr (by simp)) (iblk1 V c 0 ⟨0, hn⟩) (iblk1 V c 1 ⟨0, hn⟩) (iblk1 V c 2 ⟨0, hn⟩))
  | n + 1, hn =>
    if h0 : (n + 1) % 16 = 0 then
      ((outsAt1 c n (Nat.lt_of_succ_lt hn)).1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩), sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩), sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr (by have := h0; (try dsimp only at this ⊢); omega)) (fun h => by have h' := (hcond1_2 ⟨n + 1, hn⟩).mp h; have := h0; have hN : (⟨n + 1, hn⟩ : Fin cfg1.N).val < 256 := lt_of_lt_of_eq (⟨n + 1, hn⟩ : Fin cfg1.N).isLt N_1; (try dsimp only at this h' hN); omega) (iblk1 V c 0 ⟨n + 1, hn⟩) (iblk1 V c 1 ⟨n + 1, hn⟩) (iblk1 V c 2 ⟨n + 1, hn⟩))
    else if h1 : (n + 1) % 16 ≤ (n + 1) / 16 then
      if h2 : (n + 1) % 16 = (n + 1) / 16 then
        (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        ((outsAt1 c n (Nat.lt_of_succ_lt hn)).1, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
    else
      outsAt1 c n (Nat.lt_of_succ_lt hn)

theorem outsAt1_A (c : Dev nD) (t : Fin cfg1.N) (hz : t.val = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by rw [hz])) ((hcond1_1 t).mpr (by rw [hz])) ((hcond1_2 t).mpr (by rw [hz])) (iblk1 V c 0 t) (iblk1 V c 1 t) (iblk1 V c 2 t)) := by
  obtain ⟨n, hn⟩ := t
  cases n with
  | zero => rfl
  | succ n => exact absurd hz (Nat.succ_ne_zero n)

theorem outsAt1_B (c : Dev nD) (t : Fin cfg1.N) (hz : t.val ≠ 0) (h0 : t.val % 16 = 0) :
    outsAt1 V c t.val t.isLt = ((outsAt1 V c (t.val - 1) (Nat.lt_of_le_of_lt (Nat.sub_le _ _) t.isLt)).1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t), sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t), sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t)) := by
  obtain ⟨n, hn⟩ := t
  cases n with
  | zero => exact absurd rfl hz
  | succ n => exact (dif_pos h0).trans rfl

theorem outsAt1_C (c : Dev nD) (t : Fin cfg1.N) (h0 : ¬t.val % 16 = 0) (h1 : t.val % 16 ≤ t.val / 16) (h2 : ¬t.val % 16 = t.val / 16) :
    outsAt1 V c t.val t.isLt = ((outsAt1 V c (t.val - 1) (Nat.lt_of_le_of_lt (Nat.sub_le _ _) t.isLt)).1, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_neg h2).trans rfl))

theorem outsAt1_D (c : Dev nD) (t : Fin cfg1.N) (h0 : ¬t.val % 16 = 0) (h1 : t.val % 16 ≤ t.val / 16) (h2 : t.val % 16 = t.val / 16) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_pos h1).trans ((dif_pos h2).trans rfl))

theorem outsAt1_E (c : Dev nD) (t : Fin cfg1.N) (h0 : ¬t.val % 16 = 0) (h1 : ¬t.val % 16 ≤ t.val / 16) :
    outsAt1 V c t.val t.isLt = outsAt1 V c (t.val - 1) (Nat.lt_of_le_of_lt (Nat.sub_le _ _) t.isLt) := by
  obtain ⟨n, hn⟩ := t
  cases n with
  | zero => exact absurd (Nat.zero_mod _) h0
  | succ n => exact (dif_neg h0).trans ((dif_neg h1).trans rfl)

end Cert.KernelIdeal.Hand

end
-- ==== Proof.KernelIdeal.R1Shape.lean ====
/-
  The attention region's invariant, its shape. Between two grid points the region holds, beside the generator
  register, every scoped buffer no window of it stages: the projection region's fourteen staging buffers, at
  anything, and the three scratch buffers, at what the point before left (at anything before the first point).
-/
import proofs.«116248_j65103114273198_2_alg».proof.Proof.KernelIdeal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The projection region's staging buffers at anything, beside `P`. -/
def stgRest (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P)

/-- The class invariant with the scratch buffers as memrefs owned at some contents. -/
theorem PhiA1_eq (c : Dev nD) :
    (Pipeline.ΦA spec1 c : sProp 𝕄)
      = iprop(stgRest (F := F) c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA stgRest; rw [scopedRest1_eq]; simp only [scM1_0, scM1_1, scM1_2, owns_whole]; try rfl

/-- What rides beside the staging buffers can be taken out -/
theorem stgRest_out (c : Dev nD) (P : sProp 𝕄) : stgRest (F := F) c P ⊢ iprop(stgRest (F := F) c iprop(emp) ∗ P) := by
  unfold stgRest
  iintro ⟨H1, H2, H3, H4, H5, H6, H7, H8, H9, H10, H11, H12, H13, H14, HP⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iempintro
  iexact HP

/-- and put back. -/
theorem stgRest_in (c : Dev nD) (P : sProp 𝕄) : iprop(stgRest (F := F) c iprop(emp) ∗ P) ⊢ stgRest (F := F) c P := by
  unfold stgRest
  iintro ⟨⟨H1, H2, H3, H4, H5, H6, H7, H8, H9, H10, H11, H12, H13, H14, -⟩, HP⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact HP

end Cert.KernelIdeal.Hand

end
-- ==== Proof.KernelIdeal.R1Frame.lean ====
/-
  The attention region: its invariant point by point, its proof data, and the body obligation.

  Before the first point the region holds the class invariant (every scoped buffer it does not stage at anything,
  and the generator register). After point `n` it holds the three scratch buffers at the running maximum,
  denominator and numerator that point left. The output tile's staging buffer is stored at the diagonal point of a
  row only; the points after it in the row leave it alone, so at the row's last point, where the pipeline writes the
  tile back, it still holds what the diagonal point stored: looking back from a point above the diagonal through
  the points that left the buffer alone, one arrives at the diagonal's store.
-/
import proofs.«116248_j65103114273198_2_alg».proof.Proof.KernelIdeal.R1Outs
import proofs.«116248_j65103114273198_2_alg».proof.Proof.KernelIdeal.R1Shape

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The invariant before position `n`. -/
def PhiS1 (c : Dev nD) : (n : ℕ) → n ≤ cfg1.N → sProp 𝕄
  | 0, _ => Pipeline.ΦA spec1 c
  | n + 1, hn => iprop(stgRest (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(stgRest (F := F) c iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(stgRest (F := F) c iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- The output tile's buffer is uncut: what the body left in it is found whole. -/
theorem kept1_3 (c : Dev nD) (t : Fin cfg1.N) (d) : (dat1 V c).kept 3 t d = (dat1 V c).after 3 t := by
  unfold Dat.kept
  rw [Pipeline.fill_of_clip_none (cfg := cfg1) 3 _ (fun _ => rfl) d ((dat1 V c).after 3 t), Window.fill_cut]

/-- ABOVE THE DIAGONAL the output tile's buffer holds what the point before left in it: the pipeline did not write
    it back in between (the row's last point is still ahead), and the points since the diagonal left it alone. -/
theorem before1_3_above (c : Dev nD) : ∀ (n : ℕ) (hn : n < cfg1.N), n / 16 < n % 16 → ∀ d,
    (dat1 V c).before 3 ⟨n, hn⟩ d = (outsAt1 V c (n - 1) (Nat.lt_of_le_of_lt (Nat.sub_le _ _) hn)).1 := by
  intro n
  induction n with
  | zero => intro hn h; simp at h
  | succ n ih =>
    intro hn h d
    have hn' : n < cfg1.N := Nat.lt_of_succ_lt hn
    have hN : n + 1 < 256 := lt_of_lt_of_eq hn N_1
    rw [(dat1 V c).before_of_pos 3 ⟨n + 1, hn⟩ (Nat.succ_ne_zero n) ((cfg1.win 3).fetch_out rfl _) d]
    have hfl : (cfg1.win 3).flush ⟨n + 1 - 1, Nat.lt_of_le_of_lt (Nat.sub_le _ _) hn⟩ = false :=
      Bool.eq_false_iff.mpr fun hf => by
        have := (flush1_3 _).mp hf; dsimp only at this; omega
    rw [hfl, if_neg Bool.false_ne_true]
    unfold Dat.left
    by_cases hd : n % 16 = n / 16
    · have hlive : cfg1.idle 3 (grid1.coords ⟨n, hn'⟩) = false := liveAt1_3 ⟨n, hn'⟩ ((hcond1_2 ⟨n, hn'⟩).mpr hd)
      simp only [Nat.add_sub_cancel]
      split
      · next heq => exact Bool.noConfusion (heq.symm.trans hlive)
      · rw [kept1_3, after1_3]
    · have hidle : cfg1.idle 3 (grid1.coords ⟨n, hn'⟩) = true := idleAt1_3 ⟨n, hn'⟩ (fun hc => hd ((hcond1_2 ⟨n, hn'⟩).mp hc))
      simp only [Nat.add_sub_cancel]
      split
      · rw [ih hn' (by omega) d]
        exact (congrArg Prod.fst (outsAt1_E V c ⟨n, hn'⟩ (by dsimp only; omega) (by dsimp only; omega))).symm
      · next heq => exact Bool.noConfusion (hidle.symm.trans heq)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt N_1
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2]
  by_cases hz : t.val = 0
  · -- the first point: reset, fold, write
    rw [show (dat1 V c).leavesExact 3 t = owns (c : Thread nD τ) (ms1_3 t) fullShare ((dat1 V c).after 3 t) from by
      unfold Dat.leavesExact; rw [liveAt1_3 t ((hcond1_2 t).mpr (by rw [hz]))], after1_3]
    rw [outsAt1_A V c t hz]
    unfold out1_A_3 sout1_A_0 sout1_A_1 sout1_A_2; (try dsimp only)
    rw [PhiS1_castSucc V c t, PhiS1_zero V c _ _ hz, PhiA1_eq]
    iintro ⟨⟨HR, Hg⟩, Ho, ⟨%d0, H0⟩, ⟨%d1, H1⟩, ⟨%d2, H2⟩, ⟨%d3, H3⟩⟩
    ihave HR' := (stgRest_out c _) $$ HR
    icases HR' with ⟨Hstg, HS0, HS1, HS2⟩
    iapply ((kernelRun1_A c (grid1.coords t) _ _ _ _ _ _ _ _ _ _ _ _ _ _ ((hcond1_0 t).mpr (by rw [hz])) ((hcond1_1 t).mpr (by rw [hz])) ((hcond1_2 t).mpr (by rw [hz])) (iblk1 V c 0 t) (iblk1 V c 1 t) (iblk1 V c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hstg HS0 HS1 HS2 Hg]
    · isplitl [Hstg HS0 HS1 HS2]
      · iapply (stgRest_in c _)
        isplitl [Hstg]; · iexact Hstg
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _ _ _ _ _ _ _ _ _)
  · by_cases h0 : t.val % 16 = 0
    · -- first key tile of a later row: reset, fold; output untouched, not written back
      have hnc2 : ¬cond1_2 (grid1.coords t) := fun h => by have := (hcond1_2 t).mp h; omega
      rw [Dat.leavesExact_idle (dat1 V c) 3 t (idleAt1_3 t hnc2) (Bool.eq_false_iff.mpr fun hf => by have := (flush1_3 t).mp hf; omega)]
      rw [outsAt1_B V c t hz h0]
      unfold sout1_B_0 sout1_B_1 sout1_B_2; (try dsimp only)
      rw [PhiS1_castSucc V c t, PhiS1_pos V c _ _ hz]
      iintro ⟨⟨HR, Hg⟩, Ho, ⟨%d0, H0⟩, ⟨%d1, H1⟩, ⟨%d2, H2⟩, ⟨%d3, H3⟩⟩
      ihave HR' := (stgRest_out c _) $$ HR
      icases HR' with ⟨Hstg, HS0, HS1, HS2⟩
      iapply ((kernelRun1_B c (grid1.coords t) _ _ _ _ _ _ _ _ _ _ _ _ _ _ ((hcond1_0 t).mpr h0) ((hcond1_1 t).mpr (by have := h0; (try dsimp only at this ⊢); omega)) (fun h => by have h' := (hcond1_2 t).mp h; have := h0; have hN : (t : Fin cfg1.N).val < 256 := lt_of_lt_of_eq (t : Fin cfg1.N).isLt N_1; (try dsimp only at this h' hN); omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hstg HS0 HS1 HS2 Hg]
      · isplitl [Hstg HS0 HS1 HS2]
        · iapply (stgRest_in c _)
          isplitl [Hstg]; · iexact Hstg
          isplitl [HS0]
          · unfold owns; iexists _; isplitr
            swap; · iexact HS0
            ipureintro; exact View.read_writes_of_cover _ _ _ _ _ (scover1_B_0 c _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · by_cases h1 : t.val % 16 ≤ t.val / 16
      · by_cases h2 : t.val % 16 = t.val / 16
        · -- the diagonal of a later row: fold, write
          rw [show (dat1 V c).leavesExact 3 t = owns (c : Thread nD τ) (ms1_3 t) fullShare ((dat1 V c).after 3 t) from by
            unfold Dat.leavesExact; rw [liveAt1_3 t ((hcond1_2 t).mpr h2)], after1_3]
          rw [outsAt1_D V c t h0 h1 h2]
          unfold out1_D_3 sout1_D_0 sout1_D_1 sout1_D_2; (try dsimp only)
          rw [PhiS1_castSucc V c t, PhiS1_pos V c _ _ hz]
          iintro ⟨⟨HR, Hg⟩, Ho, ⟨%d0, H0⟩, ⟨%d1, H1⟩, ⟨%d2, H2⟩, ⟨%d3, H3⟩⟩
          ihave HR' := (stgRest_out c _) $$ HR
          icases HR' with ⟨Hstg, HS0, HS1, HS2⟩
          iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hstg HS0 HS1 HS2 Hg]
          · isplitl [Hstg HS0 HS1 HS2]
            · iapply (stgRest_in c _)
              isplitl [Hstg]; · iexact Hstg
              isplitl [HS0]
              · unfold owns; iexists _; isplitr
                swap; · iexact HS0
                ipureintro; exact View.read_writes_of_cover _ _ _ _ _ (scover1_D_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_D_1 c _ _ _ _ _ _ _ _ _ _ _ _ _ _ _ _ _ _ _ _ _ _ _ _)
              unfold owns; iexists _; isplitr
              swap; · iexact HS2
              ipureintro; exact View.read_writes_of_cover _ _ _ _ _ (scover1_D_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_D_3 c _ _ _ _ _ _ _ _ _ _ _ _ _ _ _ _ _ _ _ _ _ _ _ _)
        · -- below the diagonal: fold; output untouched, not written back
          have hnc2 : ¬cond1_2 (grid1.coords t) := fun h => h2 ((hcond1_2 t).mp h)
          rw [Dat.leavesExact_idle (dat1 V c) 3 t (idleAt1_3 t hnc2) (Bool.eq_false_iff.mpr fun hf => by have := (flush1_3 t).mp hf; omega)]
          rw [outsAt1_C V c t h0 h1 h2]
          unfold sout1_C_0 sout1_C_1 sout1_C_2; (try dsimp only)
          rw [PhiS1_castSucc V c t, PhiS1_pos V c _ _ hz]
          iintro ⟨⟨HR, Hg⟩, Ho, ⟨%d0, H0⟩, ⟨%d1, H1⟩, ⟨%d2, H2⟩, ⟨%d3, H3⟩⟩
          ihave HR' := (stgRest_out c _) $$ HR
          icases HR' with ⟨Hstg, HS0, HS1, HS2⟩
          iapply ((kernelRun1_C c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hstg HS0 HS1 HS2 Hg]
          · isplitl [Hstg HS0 HS1 HS2]
            · iapply (stgRest_in c _)
              isplitl [Hstg]; · iexact Hstg
              isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _ _)
              unfold owns; iexists _; isplitr
              swap; · iexact HS2
              ipureintro; exact View.read_writes_of_cover _ _ _ _ _ (scover1_C_2 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · -- above the diagonal: the body touches nothing
        have hnc0 : ¬cond1_0 (grid1.coords t) := fun h => h0 ((hcond1_0 t).mp h)
        have hnc1 : ¬cond1_1 (grid1.coords t) := fun h => h1 ((hcond1_1 t).mp h)
        have hnc2 : ¬cond1_2 (grid1.coords t) := fun h => by have := (hcond1_2 t).mp h; omega
        rw [outsAt1_E V c t h0 h1]
        rw [PhiS1_castSucc V c t, PhiS1_pos V c _ _ hz]
        by_cases h15 : t.val % 16 = 15
        · -- the row's last point: the tile is written back, at what the diagonal stored
          rw [show (dat1 V c).leavesExact 3 t = owns (c : Thread nD τ) (ms1_3 t) fullShare ((dat1 V c).after 3 t) from by
            unfold Dat.leavesExact; rw [idleAt1_3 t hnc2, (flush1_3 t).mpr h15], after1_3, outsAt1_E V c t h0 h1]
          simp only [before1_3_above V c t.val t.isLt (by omega)]
          iintro ⟨HΦ, Ho, ⟨%d0, H0⟩, ⟨%d1, H1⟩, ⟨%d2, H2⟩, ⟨%d3, H3⟩⟩
          iapply (kernelRun1_E c (grid1.coords t) _ _ _ _ _ _ _ _ _ _ _ _ _ _ hnc0 hnc1 hnc2 Set.univ _)
          isplitl [HΦ]; · iexact HΦ
          isplitl [Ho]; · iexact Ho
          isplitl [H0]; · iexact H0
          isplitl [H1]; · iexact H1
          isplitl [H2]; · iexact H2
          iexact H3
        · rw [Dat.leavesExact_idle (dat1 V c) 3 t (idleAt1_3 t hnc2) (Bool.eq_false_iff.mpr fun hf => h15 ((flush1_3 t).mp hf))]
          iintro ⟨HΦ, Ho, ⟨%d0, H0⟩, ⟨%d1, H1⟩, ⟨%d2, H2⟩, ⟨%d3, H3⟩⟩
          iapply (kernelRun1_E c (grid1.coords t) _ _ _ _ _ _ _ _ _ _ _ _ _ _ hnc0 hnc1 hnc2 Set.univ _)
          isplitl [HΦ]; · iexact HΦ
          isplitl [Ho]; · iexact Ho
          isplitl [H0]; · iexact H0
          isplitl [H1]; · iexact H1
          isplitl [H2]; · iexact H2
          iexists _; iexact H3

theorem body_obligation1 (c : Dev nD) : BodyObligation (dat1 (F := F) V c) (defs₀ (F := F)) Variants.none () Set.univ := fun t => by
  rw [bigSep_W1, bigSep_W1]
  exact sound_body1 V c t

/-- The class invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (stgRest_out c _) $$ HR
    icases HR' with ⟨Hstg, HS0, HS1, HS2⟩
    iapply (stgRest_in c _)
    isplitl [Hstg]; · iexact Hstg
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KernelIdeal.Run.lean ====
/-
  The kernel program's run: a stretch of host operations (three transposes, two concatenations, a change of
  format), the projection region, the attention region. Between two of these items every unscoped buffer of the
  core is held whole at known contents: as launched; after the host stretch; after the projection region, its
  three result arrays at what its write-backs leave; after the attention region, the result array likewise.
  Each region enters its pipeline from that thread state and leaves it at the next one; the generator register and
  the (empty) dues ride along. At the end every unscoped buffer is read against the last contents: the arguments
  walk back unchanged to the launch, and the result is what the attention pipeline's write-backs leave.
-/
import proofs.«116248_j65103114273198_2_alg».proof.Proof.KernelIdeal.Region0
import proofs.«116248_j65103114273198_2_alg».proof.Proof.KernelIdeal.R1Frame
import proofs.«116248_j65103114273198_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 3).trans (((dat0 (V1 m) c).arrAt_in 3 rfl _).trans (A_eq0 (V1 m) c 3))
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 4).trans (((dat0 (V1 m) c).arrAt_in 4 rfl _).trans (A_eq0 (V1 m) c 4))
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = W0 m c (Proc.devRef .tc main_arg8) := V1_of m c main_arg8 (by decide)
    _ = m ((c : Thread nD τ).loc main_arg8) := rfl

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have h := hout1 (V2 m) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every unscoped buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the nine argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩) (run_all m ρ)

/-- The run with the result named: what the attention pipeline's write-backs leave in the result array. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v7 (by decide))).trans (W3_arr m c 3),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩) (run_all m ρ)

end Cert.KernelIdeal.Hand

end
-- ==== Proof.KernelIdeal.Blocks1.lean ====
/-
  The attention region's blocks at coordinates. Point `t` is query tile `q = t / 16`, key tile `k = t % 16`. The
  query window and the result window take rows `256·q + r` of their arrays; the key and value windows take rows
  `256·min(k, q) + j` (the index is clamped at the diagonal: above it the block stays where it was). Every block
  spans the four batches and all 1024 features.
-/
import proofs.«116248_j65103114273198_2_alg».proof.Proof.KernelIdeal.R1Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps, decided over the 256 points. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = min (t.val % 16) (t.val / 16) ∧ win1_1.index t (2 : Fin 3) = 0
    ∧ win1_2.index t (0 : Fin 3) = 0 ∧ win1_2.index t (1 : Fin 3) = min (t.val % 16) (t.val / 16) ∧ win1_2.index t (2 : Fin 3) = 0
    ∧ win1_3.index t (0 : Fin 3) = 0 ∧ win1_3.index t (1 : Fin 3) = t.val / 16 ∧ win1_3.index t (2 : Fin 3) = 0 :=
  (by decide +kernel : ∀ t : Fin grid1.N, _)

theorem lt_N1 (t : Fin cfg1.N) : t.val < 256 := lt_of_lt_of_eq t.isLt (show cfg1.N = 256 from N_1)

/-- Row `r` of tile `q`, as a position of the sequence. -/
def pos (q : ℕ) (hq : q < 16) (r : Fin 256) : Fin 4096 := ⟨256 * q + r.val, by have := r.isLt; omega⟩

theorem qlt (t : Fin cfg1.N) : t.val / 16 < 16 := by have := lt_N1 t; omega
theorem klt (t : Fin cfg1.N) : min (t.val % 16) (t.val / 16) < 16 := by have := lt_N1 t; omega

/-- The query block at point `t`: rows of tile `t / 16`. -/
theorem iblk1_0_at (c : Dev nD) (t : Fin cfg1.N) (b : Fin 4) (r : Fin 256) (d : Fin 1024) :
    (iblk1 V c 0 t : S4x256x1024.Idx → EReal) (ix3 b r d) = (V c main_v6_0 : S4x4096x1024.Idx → EReal) (ix3 b (pos (t.val / 16) (qlt t) r) d) := by
  obtain ⟨e0, e1, e2, -⟩ := idx_facts1 t
  unfold iblk1
  rw [View.read_apply]
  show V c main_v6_0 _ = V c main_v6_0 _
  congr 1
  funext a
  apply Fin.ext
  match a with
  | ⟨0, _⟩ => show win1_0.index t (0 : Fin 3) * 4 + 1 * b.val = b.val; rw [e0]; omega
  | ⟨1, _⟩ => show win1_0.index t (1 : Fin 3) * 256 + 1 * r.val = 256 * (t.val / 16) + r.val; rw [e1]; omega
  | ⟨2, _⟩ => show win1_0.index t (2 : Fin 3) * 1024 + 1 * d.val = d.val; rw [e2]; omega

/-- The key block at point `t`: rows of tile `min (t % 16) (t / 16)`. -/
theorem iblk1_1_at (c : Dev nD) (t : Fin cfg1.N) (b : Fin 4) (j : Fin 256) (d : Fin 1024) :
    (iblk1 V c 1 t : S4x256x1024.Idx → EReal) (ix3 b j d) = (V c main_v6_1 : S4x4096x1024.Idx → EReal) (ix3 b (pos (min (t.val % 16) (t.val / 16)) (klt t) j) d) := by
  obtain ⟨-, -, -, e0, e1, e2, -⟩ := idx_facts1 t
  unfold iblk1
  rw [View.read_apply]
  show V c main_v6_1 _ = V c main_v6_1 _
  congr 1
  funext a
  apply Fin.ext
  match a with
  | ⟨0, _⟩ => show win1_1.index t (0 : Fin 3) * 4 + 1 * b.val = b.val; rw [e0]; omega
  | ⟨1, _⟩ => show win1_1.index t (1 : Fin 3) * 256 + 1 * j.val = 256 * min (t.val % 16) (t.val / 16) + j.val; rw [e1]; omega
  | ⟨2, _⟩ => show win1_1.index t (2 : Fin 3) * 1024 + 1 * d.val = d.val; rw [e2]; omega

/-- The value block at point `t`: rows of tile `min (t % 16) (t / 16)`. -/
theorem iblk1_2_at (c : Dev nD) (t : Fin cfg1.N) (b : Fin 4) (j : Fin 256) (d : Fin 1024) :
    (iblk1 V c 2 t : S4x256x1024.Idx → EReal) (ix3 b j d) = (V c main_v6_2 : S4x4096x1024.Idx → EReal) (ix3 b (pos (min (t.val % 16) (t.val / 16)) (klt t) j) d) := by
  obtain ⟨-, -, -, -, -, -, e0, e1, e2, -⟩ := idx_facts1 t
  unfold iblk1
  rw [View.read_apply]
  show V c main_v6_2 _ = V c main_v6_2 _
  congr 1
  funext a
  apply Fin.ext
  match a with
  | ⟨0, _⟩ => show win1_2.index t (0 : Fin 3) * 4 + 1 * b.val = b.val; rw [e0]; omega
  | ⟨1, _⟩ => show win1_2.index t (1 : Fin 3) * 256 + 1 * j.val = 256 * min (t.val % 16) (t.val / 16) + j.val; rw [e1]; omega
  | ⟨2, _⟩ => show win1_2.index t (2 : Fin 3) * 1024 + 1 * d.val = d.val; rw [e2]; omega

/-- Where the result window's block at point `t` sits in the result array. -/
theorem emb1_3 (t : Fin cfg1.N) (b : Fin 4) (r : Fin 256) (d : Fin 1024) :
    ((cfg1.win 3).blk t).view.emb (ix3 b r d) = (ix3 b (pos (t.val / 16) (qlt t) r) d : S4x4096x1024.Idx) := by
  obtain ⟨-, -, -, -, -, -, -, -, -, e0, e1, e2⟩ := idx_facts1 t
  funext a
  apply Fin.ext
  match a with
  | ⟨0, _⟩ => show win1_3.index t (0 : Fin 3) * 4 + 1 * b.val = b.val; rw [e0]; omega
  | ⟨1, _⟩ => show win1_3.index t (1 : Fin 3) * 256 + 1 * r.val = 256 * (t.val / 16) + r.val; rw [e1]; omega
  | ⟨2, _⟩ => show win1_3.index t (2 : Fin 3) * 1024 + 1 * d.val = d.val; rw [e2]; omega

/-- An index of the result array is in point `t`'s block iff each coordinate is in the block's range. -/
theorem mem_blk1_3 (t : Fin cfg1.N) (i : S4x4096x1024.Idx) :
    i ∈ ((cfg1.win 3).blk t).view.set ↔ ∀ a : Fin 3, win1_3.index t a * S4x256x1024.size a ≤ (i a).val ∧ (i a).val < win1_3.index t a * S4x256x1024.size a + S4x256x1024.size a := by
  show i ∈ ((View.whole main_v7).slice (win1_3.rect t)).set ↔ _
  rw [View.set_slice_whole, Rect.mem_set_unit]
  exact Iff.rfl

/-- The sixteen written-back blocks tile the result array: index `(b, s, d)` is in the block the last point of
    row tile `s / 256` writes back. -/
theorem cover1_3 (i : S4x4096x1024.Idx) : ∃ t : Fin cfg1.N, (cfg1.win 3).flush t = true ∧ i ∈ ((cfg1.win 3).blk t).view.set := by
  have h0 : (i 0).val < 4 := (i 0).isLt
  have h1 : (i 1).val < 4096 := (i 1).isLt
  have h2 : (i 2).val < 1024 := (i 2).isLt
  let t : Fin cfg1.N := ⟨16 * ((i 1).val / 256) + 15, lt_of_lt_of_eq (by omega : 16 * ((i 1).val / 256) + 15 < 256) (show cfg1.N = 256 from N_1).symm⟩
  have ht : t.val = 16 * ((i 1).val / 256) + 15 := rfl
  obtain ⟨-, -, -, -, -, -, -, -, -, e0, e1, e2⟩ := idx_facts1 t
  refine ⟨t, (flush1_3 t).mpr (by omega), ?_⟩
  rw [mem_blk1_3]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

end Cert.KernelIdeal.Hand

end
-- ==== Proof.KernelIdeal.R1Pieces.lean ====
/-
  The attention body's stores, read back: what each control case leaves in the running maximum, the denominator,
  the numerator and the output tile, as the body's arithmetic of the blocks it loads.

  With a reset (the first key tile) the fold starts from the constants: −∞ for the maximum, zero for the
  denominator and the numerator. Without it the fold starts from what the point before left in the three scratch
  buffers. On the diagonal the output tile receives the numerator divided by the denominator.
-/
import proofs.«116248_j65103114273198_2_alg».proof.Proof.KernelIdeal.R1Outs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz3' : (![0, 0, 0] : Fin 3 → Nat) = fun _ => 0 := funext fun a => by fin_cases a <;> rfl

/-- Case A: the output tile after the body, folded from the reset constants. -/
theorem out1_A_3_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) :
    out1_A_3 c i arg2 harg2 arg3 harg3 arg4 harg4 arg5 harg5 arg6 harg6 arg7 harg7 arg8 harg8 hc0 hc1 hc2 x0 x1 x2 = k1_pay6 (k1_pay4 (k1_pay9 (BitVec.ofNat 32 (i 0).val) (BitVec.ofNat 32 (i 1).val) x0 x1 k1_pay1) (k1_pay10 (BitVec.ofNat 32 (i 0).val) (BitVec.ofNat 32 (i 1).val) x0 x1 k1_pay1) k1_pay3 x2) (k1_pay11 (BitVec.ofNat 32 (i 0).val) (BitVec.ofNat 32 (i 1).val) x0 x1 k1_pay1 k1_pay2) := by
  unfold out1_A_3
  rw [View.read_writes_eq_canon _ _ _ (cover1_A_3 c i arg2 harg2 arg3 harg3 arg4 harg4 arg5 harg5 arg6 harg6 arg7 harg7 arg8 harg8 hc0 hc1 hc2 x0 x1 x2)]
  unfold kernelRun1_A
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case A: the running maximum after the body, folded from the reset constants. -/
theorem sout1_A_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) :
    sout1_A_0 c i arg2 harg2 arg3 harg3 arg4 harg4 arg5 harg5 arg6 harg6 arg7 harg7 arg8 harg8 hc0 hc1 hc2 x0 x1 x2 = k1_pay5 (k1_pay8 (BitVec.ofNat 32 (i 0).val) (BitVec.ofNat 32 (i 1).val) x0 x1 k1_pay1) := by
  unfold sout1_A_0
  rw [View.read_writes_eq_canon _ _ _ (scover1_A_0 c i arg2 harg2 arg3 harg3 arg4 harg4 arg5 harg5 arg6 harg6 arg7 harg7 arg8 harg8 hc0 hc1 hc2 x0 x1 x2)]
  unfold kernelRun1_A
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case A: the denominator after the body, folded from the reset constants. -/
theorem sout1_A_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) :
    sout1_A_1 c i arg2 harg2 arg3 harg3 arg4 harg4 arg5 harg5 arg6 harg6 arg7 harg7 arg8 harg8 hc0 hc1 hc2 x0 x1 x2 = k1_pay11 (BitVec.ofNat 32 (i 0).val) (BitVec.ofNat 32 (i 1).val) x0 x1 k1_pay1 k1_pay2 := by
  unfold sout1_A_1
  rw [View.read_writes_eq_canon _ _ _ (scover1_A_1 c i arg2 harg2 arg3 harg3 arg4 harg4 arg5 harg5 arg6 harg6 arg7 harg7 arg8 harg8 hc0 hc1 hc2 x0 x1 x2)]
  unfold kernelRun1_A
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case A: the numerator after the body, folded from the reset constants. -/
theorem sout1_A_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : cond1_2 i)
    (x0 x1 x2 : Vec F S4x256x1024 .bf16) :
    sout1_A_2 c i arg2 harg2 arg3 harg3 arg4 harg4 arg5 harg5 arg6 harg6 arg7 harg7 arg8 harg8 hc0 hc1 hc2 x0 x1 x2 = k1_pay4 (k1_pay9 (BitVec.ofNat 32 (i 0).val) (BitVec.ofNat 32 (i 1).val) x0 x1 k1_pay1) (k1_pay10 (BitVec.ofNat 32 (i 0).val) (BitVec.ofNat 32 (i 1).val) x0 x1 k1_pay1) k1_pay3 x2 := by
  unfold sout1_A_2
  rw [View.read_writes_eq_canon _ _ _ (scover1_A_2 c i arg2 harg2 arg3 harg3 arg4 harg4 arg5 harg5 arg6 harg6 arg7 harg7 arg8 harg8 hc0 hc1 hc2 x0 x1 x2)]
  unfold kernelRun1_A
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case B: the running maximum after the body, folded from the reset constants. -/
theorem sout1_B_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) :
    sout1_B_0 c i arg2 harg2 arg3 harg3 arg4 harg4 arg5 harg5 arg6 harg6 arg7 harg7 arg8 harg8 hc0 hc1 hc2 x0 x1 x2 = k1_pay5 (k1_pay8 (BitVec.ofNat 32 (i 0).val) (BitVec.ofNat 32 (i 1).val) x0 x1 k1_pay1) := by
  unfold sout1_B_0
  rw [View.read_writes_eq_canon _ _ _ (scover1_B_0 c i arg2 harg2 arg3 harg3 arg4 harg4 arg5 harg5 arg6 harg6 arg7 harg7 arg8 harg8 hc0 hc1 hc2 x0 x1 x2)]
  unfold kernelRun1_B
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case B: the denominator after the body, folded from the reset constants. -/
theorem sout1_B_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) :
    sout1_B_1 c i arg2 harg2 arg3 harg3 arg4 harg4 arg5 harg5 arg6 harg6 arg7 harg7 arg8 harg8 hc0 hc1 hc2 x0 x1 x2 = k1_pay11 (BitVec.ofNat 32 (i 0).val) (BitVec.ofNat 32 (i 1).val) x0 x1 k1_pay1 k1_pay2 := by
  unfold sout1_B_1
  rw [View.read_writes_eq_canon _ _ _ (scover1_B_1 c i arg2 harg2 arg3 harg3 arg4 harg4 arg5 harg5 arg6 harg6 arg7 harg7 arg8 harg8 hc0 hc1 hc2 x0 x1 x2)]
  unfold kernelRun1_B
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case B: the numerator after the body, folded from the reset constants. -/
theorem sout1_B_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : cond1_0 i) (hc1 : cond1_1 i) (hc2 : ¬cond1_2 i)
    (x0 x1 x2 : Vec F S4x256x1024 .bf16) :
    sout1_B_2 c i arg2 harg2 arg3 harg3 arg4 harg4 arg5 harg5 arg6 harg6 arg7 harg7 arg8 harg8 hc0 hc1 hc2 x0 x1 x2 = k1_pay4 (k1_pay9 (BitVec.ofNat 32 (i 0).val) (BitVec.ofNat 32 (i 1).val) x0 x1 k1_pay1) (k1_pay10 (BitVec.ofNat 32 (i 0).val) (BitVec.ofNat 32 (i 1).val) x0 x1 k1_pay1) k1_pay3 x2 := by
  unfold sout1_B_2
  rw [View.read_writes_eq_canon _ _ _ (scover1_B_2 c i arg2 harg2 arg3 harg3 arg4 harg4 arg5 harg5 arg6 harg6 arg7 harg7 arg8 harg8 hc0 hc1 hc2 x0 x1 x2)]
  unfold kernelRun1_B
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case C: the running maximum after the body, folded from what the point before left. -/
theorem sout1_C_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) :
    sout1_C_0 c i arg2 harg2 arg3 harg3 arg4 harg4 arg5 harg5 arg6 harg6 arg7 harg7 arg8 harg8 hc0 hc1 hc2 x0 x1 x2 xs0 xs1 xs2 = k1_pay5 (k1_pay8 (BitVec.ofNat 32 (i 0).val) (BitVec.ofNat 32 (i 1).val) x0 x1 xs0) := by
  unfold sout1_C_0
  rw [View.read_writes_eq_canon _ _ _ (scover1_C_0 c i arg2 harg2 arg3 harg3 arg4 harg4 arg5 harg5 arg6 harg6 arg7 harg7 arg8 harg8 hc0 hc1 hc2 x0 x1 x2 xs0 xs1 xs2)]
  unfold kernelRun1_C
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case C: the denominator after the body, folded from what the point before left. -/
theorem sout1_C_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) :
    sout1_C_1 c i arg2 harg2 arg3 harg3 arg4 harg4 arg5 harg5 arg6 harg6 arg7 harg7 arg8 harg8 hc0 hc1 hc2 x0 x1 x2 xs0 xs1 xs2 = k1_pay11 (BitVec.ofNat 32 (i 0).val) (BitVec.ofNat 32 (i 1).val) x0 x1 xs0 xs1 := by
  unfold sout1_C_1
  rw [View.read_writes_eq_canon _ _ _ (scover1_C_1 c i arg2 harg2 arg3 harg3 arg4 harg4 arg5 harg5 arg6 harg6 arg7 harg7 arg8 harg8 hc0 hc1 hc2 x0 x1 x2 xs0 xs1 xs2)]
  unfold kernelRun1_C
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case C: the numerator after the body, folded from what the point before left. -/
theorem sout1_C_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : ¬cond1_2 i)
    (x0 x1 x2 : Vec F S4x256x1024 .bf16) (xs0 xs1 : Vec F S4x256x1 .f32) (xs2 : Vec F S4x256x1024 .f32) :
    sout1_C_2 c i arg2 harg2 arg3 harg3 arg4 harg4 arg5 harg5 arg6 harg6 arg7 harg7 arg8 harg8 hc0 hc1 hc2 x0 x1 x2 xs0 xs1 xs2 = k1_pay4 (k1_pay9 (BitVec.ofNat 32 (i 0).val) (BitVec.ofNat 32 (i 1).val) x0 x1 xs0) (k1_pay10 (BitVec.ofNat 32 (i 0).val) (BitVec.ofNat 32 (i 1).val) x0 x1 xs0) xs2 x2 := by
  unfold sout1_C_2
  rw [View.read_writes_eq_canon _ _ _ (scover1_C_2 c i arg2 harg2 arg3 harg3 arg4 harg4 arg5 harg5 arg6 harg6 arg7 harg7 arg8 harg8 hc0 hc1 hc2 x0 x1 x2 xs0 xs1 xs2)]
  unfold kernelRun1_C
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case D: the output tile after the body, folded from what the point before left. -/
theorem out1_D_3_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    out1_D_3 c i arg2 harg2 arg3 harg3 arg4 harg4 arg5 harg5 arg6 harg6 arg7 harg7 arg8 harg8 hc0 hc1 hc2 x0 x1 x2 xs0 xs1 xs2 = k1_pay6 (k1_pay4 (k1_pay9 (BitVec.ofNat 32 (i 0).val) (BitVec.ofNat 32 (i 1).val) x0 x1 xs0) (k1_pay10 (BitVec.ofNat 32 (i 0).val) (BitVec.ofNat 32 (i 1).val) x0 x1 xs0) xs2 x2) (k1_pay11 (BitVec.ofNat 32 (i 0).val) (BitVec.ofNat 32 (i 1).val) x0 x1 xs0 xs1) := by
  unfold out1_D_3
  rw [View.read_writes_eq_canon _ _ _ (cover1_D_3 c i arg2 harg2 arg3 harg3 arg4 harg4 arg5 harg5 arg6 harg6 arg7 harg7 arg8 harg8 hc0 hc1 hc2 x0 x1 x2 xs0 xs1 xs2)]
  unfold kernelRun1_D
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case D: the running maximum after the body, folded from what the point before left. -/
theorem sout1_D_0_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    sout1_D_0 c i arg2 harg2 arg3 harg3 arg4 harg4 arg5 harg5 arg6 harg6 arg7 harg7 arg8 harg8 hc0 hc1 hc2 x0 x1 x2 xs0 xs1 xs2 = k1_pay5 (k1_pay8 (BitVec.ofNat 32 (i 0).val) (BitVec.ofNat 32 (i 1).val) x0 x1 xs0) := by
  unfold sout1_D_0
  rw [View.read_writes_eq_canon _ _ _ (scover1_D_0 c i arg2 harg2 arg3 harg3 arg4 harg4 arg5 harg5 arg6 harg6 arg7 harg7 arg8 harg8 hc0 hc1 hc2 x0 x1 x2 xs0 xs1 xs2)]
  unfold kernelRun1_D
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case D: the denominator after the body, folded from what the point before left. -/
theorem sout1_D_1_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    sout1_D_1 c i arg2 harg2 arg3 harg3 arg4 harg4 arg5 harg5 arg6 harg6 arg7 harg7 arg8 harg8 hc0 hc1 hc2 x0 x1 x2 xs0 xs1 xs2 = k1_pay11 (BitVec.ofNat 32 (i 0).val) (BitVec.ofNat 32 (i 1).val) x0 x1 xs0 xs1 := by
  unfold sout1_D_1
  rw [View.read_writes_eq_canon _ _ _ (scover1_D_1 c i arg2 harg2 arg3 harg3 arg4 harg4 arg5 harg5 arg6 harg6 arg7 harg7 arg8 harg8 hc0 hc1 hc2 x0 x1 x2 xs0 xs1 xs2)]
  unfold kernelRun1_D
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

/-- Case D: the numerator after the body, folded from what the point before left. -/
theorem sout1_D_2_eq (c : Dev nD) (i : grid1.Coords) (arg2 : Memref sig .tc .vmem S4x256x1024 .bf16) (harg2 : arg2.IsWhole) (arg3 : Memref sig .tc .vmem S4x256x1024 .bf16) (harg3 : arg3.IsWhole) (arg4 : Memref sig .tc .vmem S4x256x1024 .bf16) (harg4 : arg4.IsWhole) (arg5 : Memref sig .tc .vmem S4x256x1024 .f32) (harg5 : arg5.IsWhole) (arg6 : Memref sig .tc .vmem S4x256x1 .f32) (harg6 : arg6.IsWhole) (arg7 : Memref sig .tc .vmem S4x256x1 .f32) (harg7 : arg7.IsWhole) (arg8 : Memref sig .tc .vmem S4x256x1024 .f32) (harg8 : arg8.IsWhole) (hc0 : ¬cond1_0 i) (hc1 : cond1_1 i) (hc2 : cond1_2 i)
    (x0 x1 x2 : Vec F S4x256x1024 .bf16) (xs0 xs1 : Vec F S4x256x1 .f32) (xs2 : Vec F S4x256x1024 .f32) :
    sout1_D_2 c i arg2 harg2 arg3 harg3 arg4 harg4 arg5 harg5 arg6 harg6 arg7 harg7 arg8 harg8 hc0 hc1 hc2 x0 x1 x2 xs0 xs1 xs2 = k1_pay4 (k1_pay9 (BitVec.ofNat 32 (i 0).val) (BitVec.ofNat 32 (i 1).val) x0 x1 xs0) (k1_pay10 (BitVec.ofNat 32 (i 0).val) (BitVec.ofNat 32 (i 1).val) x0 x1 xs0) xs2 x2 := by
  unfold sout1_D_2
  rw [View.read_writes_eq_canon _ _ _ (scover1_D_2 c i arg2 harg2 arg3 harg3 arg4 harg4 arg5 harg5 arg6 harg6 arg7 harg7 arg8 harg8 hc0 hc1 hc2 x0 x1 x2 xs0 xs1 xs2)]
  unfold kernelRun1_D
  dsimp only
  try sl_unfold_words
  first | rw [View.canon_cons_unit_zero (S := S4x256x1) hz3'] | rw [View.canon_cons_unit_zero (S := S4x256x1024) hz3']
  simp only [View.readCov_cons_toLoadRect, View.readAt_eq_ld, harg2.read_unread, harg3.read_unread, harg4.read_unread, harg6.read_unread, harg7.read_unread, harg8.read_unread,
    View.ld_unit_zero (S := S4x256x1024) hz3', View.ld_unit_zero (S := S4x256x1) hz3']

end Cert.KernelIdeal.Hand

end
-- ==== Proof.KernelIdeal.Pay1.lean ====
/-
  The attention kernel's arithmetic, read one element at a time on the extended reals.

  A grid point is a pair (query tile `q`, key tile `k`) of tiles of 256 positions. The score tile at row `r`, column `j`
  is the contraction of query row `r` and key row `j` over the 1024 features, times `1/32`, where key position
  `256 k + j` is not after query position `256 q + r`, and −∞ elsewhere: the positions are compared as signed 32-bit
  words, and all of them are below 4096. The running maximum takes the row's supremum over the tile's columns, the
  rescaling factor and the tile's weights are exponentials against the new maximum, the denominator and the
  numerator are rescaled and the tile's sums added: a lane sum over the 256 columns, and a contraction of the weights
  against the value rows over the 256 key positions of the tile.
-/
import proofs.«116248_j65103114273198_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx

/-! ### Constants -/

/-- The word of −∞. -/
theorem ofBits_neg_inf : Ideal.ofBits .f32 0xFF800000#32 = ⊥ := by
  simp [Ideal.ofBits, Ideal.ieee]

/-- The scale word is `1/32`. -/
theorem ofBits_scale : Ideal.ofBits .f32 0x3D000000#32 = ((1 / 32 : ℝ) : EReal) := by
  simp [Ideal.ofBits, Ideal.ieee, -EReal.coe_mul]; norm_num

/-- The masked fill is −∞, by the table of names. -/
theorem neg_big : Named.named (F := Ideal) κ "neg_big" (φ := .f32) 0xFF333332#32 = ⊥ :=
  IdealRules.named_const.ideal_named_scalar (φ := .f32) κ "neg_big" 0xFF333332#32 ⊥ rfl

/-- A fold of `max` from −∞ over a finite set is the supremum over it. -/
theorem fold_max_eq_sup {ι : Type} (s : Finset ι) (f : ι → EReal) (c : EReal) (hc : c = ⊥) :
    s.fold max c f = s.sup f := by
  subst hc; rfl

/-! ### The causal mask of a tile -/

/-- A position below 4096, as a 32-bit word read signed, is itself. -/
theorem toInt_position (n : Nat) (h : n < 4096) : (BitVec.ofNat 32 n).toInt = (n : Int) := by
  have h1 : (BitVec.ofNat 32 n).toNat = n := by
    rw [BitVec.toNat_ofNat]; exact Nat.mod_eq_of_lt (Nat.lt_trans h (by norm_num))
  rw [BitVec.toInt_eq_toNat_of_lt (by rw [h1]; omega), h1]

/-- A tile offset plus a coordinate inside the tile is the position, as words. -/
theorem position_word (n : ℕ) (x : Fin 256) :
    IntOp.addi (IntOp.muli (BitVec.ofNat 32 n) 256#32) (BitVec.ofNat 32 x.val) = BitVec.ofNat 32 (256 * n + x.val) := by
  show BitVec.ofNat 32 n * BitVec.ofNat 32 256 + BitVec.ofNat 32 x.val = _
  rw [← BitVec.ofNat_mul, ← BitVec.ofNat_add, Nat.mul_comm]

/-- The mask bit at row `r`, column `j` of tile `(q, k)`: key position `256 k + j` is not after query position `256 q + r`. -/
theorem tile_mask (q k : ℕ) (hq : q < 16) (hk : k < 16) (r j : Fin 256) :
    IntOp.cmpi .sle (IntOp.addi (IntOp.muli (BitVec.ofNat 32 k) 256#32) (BitVec.ofNat 32 j.val))
        (IntOp.addi (IntOp.muli (BitVec.ofNat 32 q) 256#32) (BitVec.ofNat 32 r.val))
      = if 256 * k + j.val ≤ 256 * q + r.val then 1#1 else 0#1 := by
  rw [position_word, position_word]
  have hkj : 256 * k + j.val < 4096 := by omega
  have hqr : 256 * q + r.val < 4096 := by omega
  by_cases h : 256 * k + j.val ≤ 256 * q + r.val
  · rw [if_pos h]
    exact IntOp.cmpi_sle.mpr (by rw [toInt_position _ hkj, toInt_position _ hqr]; exact_mod_cast h)
  · rw [if_neg h]
    exact eq_zero_of_ne_one fun hh => h (by
      have := IntOp.cmpi_sle.mp hh
      rw [toInt_position _ hkj, toInt_position _ hqr] at this
      exact_mod_cast this)

/-! ### Layout operations on the tile shapes -/

/-- A row statistic `[4, 256]` viewed `[4, 256, 1]`. -/
theorem cast_col {α : Type} (v : S4x256.Idx → α) (h : S4x256.ShapeCasts S4x256x1) (b : Fin 4) (r : Fin 256) (z : Fin 1) :
    shapeCast S4x256x1 v h (ix3 b r z) = v (ix2 b r) :=
  shapeCast_apply v h _ _ (by
    rw [Shape.rowMajor_val_two, Shape.rowMajor_val_three]
    show b.val * 256 + r.val = (b.val * 256 + r.val) * 1 + z.val
    omega)

/-- A column `[4, 256, 1]` broadcast along the 256 columns of a score tile. -/
theorem bcast_col256 {α : Type} (v : S4x256x1.Idx → α) (h : S4x256x1.Broadcasts S4x256x256) (b : Fin 4) (r j : Fin 256) :
    broadcastTo S4x256x256 v h (ix3 b r j) = v (ix3 b r 0) :=
  broadcastTo_apply v h _ _ (fun a => by match a with | ⟨0, _⟩ => rfl | ⟨1, _⟩ => rfl | ⟨2, _⟩ => rfl)

/-- A column `[4, 256, 1]` broadcast along the 1024 features. -/
theorem bcast_col1024 {α : Type} (v : S4x256x1.Idx → α) (h : S4x256x1.Broadcasts S4x256x1024) (b : Fin 4) (r : Fin 256)
    (d : Fin 1024) : broadcastTo S4x256x1024 v h (ix3 b r d) = v (ix3 b r 0) :=
  broadcastTo_apply v h _ _ (fun a => by match a with | ⟨0, _⟩ => rfl | ⟨1, _⟩ => rfl | ⟨2, _⟩ => rfl)

/-! ### The two contractions -/

/-- The query–key contraction's dimension numbers: batch axis 0, the last axis of both operands contracted. -/
abbrev dQK := dot_S4x256x1024_S4x256x1024_S4x256x256_2_2_1_1_0_0
/-- The weight–value contraction's: batch axis 0, the weights' last axis against the values' middle axis. -/
abbrev dPV := dot_S4x256x256_S4x256x1024_S4x256x1024_2_1_1_2_0_0

theorem lhsQK_0 (i : S4x256x256.Idx) (c : dQK.contr.Idx) : (dQK.lhsIdx i c 0).val = (i 0).val := by
  unfold DotDims.lhsIdx
  rw [dif_pos (show (0 : Fin S4x256x1024.rank) ∈ dQK.lhsBatch by decide)]
  rfl
theorem lhsQK_1 (i : S4x256x256.Idx) (c : dQK.contr.Idx) : (dQK.lhsIdx i c 1).val = (i 1).val := by
  unfold DotDims.lhsIdx
  rw [dif_neg (show ¬(1 : Fin S4x256x1024.rank) ∈ dQK.lhsBatch by decide),
    dif_pos (show (1 : Fin S4x256x1024.rank) ∈ dQK.lhsNonContracting by decide)]
  rfl
theorem lhsQK_2 (i : S4x256x256.Idx) (c : dQK.contr.Idx) : (dQK.lhsIdx i c 2).val = (c ⟨0, by decide⟩).val :=
  dQK.lhsIdx_val_of_single rfl i c
theorem rhsQK_0 (i : S4x256x256.Idx) (c : dQK.contr.Idx) : (dQK.rhsIdx i c 0).val = (i 0).val := by
  unfold DotDims.rhsIdx
  rw [dif_pos (show (0 : Fin S4x256x1024.rank) ∈ dQK.rhsBatch by decide)]
  rfl
theorem rhsQK_1 (i : S4x256x256.Idx) (c : dQK.contr.Idx) : (dQK.rhsIdx i c 1).val = (i 2).val := by
  unfold DotDims.rhsIdx
  rw [dif_neg (show ¬(1 : Fin S4x256x1024.rank) ∈ dQK.rhsBatch by decide),
    dif_pos (show (1 : Fin S4x256x1024.rank) ∈ dQK.rhsNonContracting by decide)]
  rfl
theorem rhsQK_2 (i : S4x256x256.Idx) (c : dQK.contr.Idx) : (dQK.rhsIdx i c 2).val = (c ⟨0, by decide⟩).val :=
  dQK.rhsIdx_val_of_single rfl i c

/-- The query–key contraction into a zero accumulator at `(b, r, j)`: `Σ_d lhs[b, r, d] · rhs[b, j, d]`. -/
theorem qk_dot_at (lhs rhs : FVec Ideal S4x256x1024 .bf16) (b : Fin 4) (r j : Fin 256) :
    FloatOps.matmul dQK none lhs rhs (constant S4x256x256 .f32 0x00000000#32) (ix3 b r j)
      = ∑ d : Fin 1024, lhs (ix3 b r d) * rhs (ix3 b j d) := by
  rw [Ideal.matmul_constant_zero_apply, ← Equiv.sum_comp (contrEquiv1 dQK 1024 rfl rfl).symm]
  refine Finset.sum_congr rfl fun d _ => ?_
  have hd := contrEquiv1_symm_val dQK 1024 rfl rfl d
  have el : dQK.lhsIdx (ix3 b r j) ((contrEquiv1 dQK 1024 rfl rfl).symm d) = ix3 b r d := funext fun a => Fin.ext (by
    match a with
    | ⟨0, _⟩ => exact lhsQK_0 _ _
    | ⟨1, _⟩ => exact lhsQK_1 _ _
    | ⟨2, _⟩ => exact (lhsQK_2 _ _).trans hd)
  have er : dQK.rhsIdx (ix3 b r j) ((contrEquiv1 dQK 1024 rfl rfl).symm d) = ix3 b j d := funext fun a => Fin.ext (by
    match a with
    | ⟨0, _⟩ => exact rhsQK_0 _ _
    | ⟨1, _⟩ => exact rhsQK_1 _ _
    | ⟨2, _⟩ => exact (rhsQK_2 _ _).trans hd)
  rw [el, er]

theorem lhsPV_0 (i : S4x256x1024.Idx) (c : dPV.contr.Idx) : (dPV.lhsIdx i c 0).val = (i 0).val := by
  unfold DotDims.lhsIdx
  rw [dif_pos (show (0 : Fin S4x256x256.rank) ∈ dPV.lhsBatch by decide)]
  rfl
theorem lhsPV_1 (i : S4x256x1024.Idx) (c : dPV.contr.Idx) : (dPV.lhsIdx i c 1).val = (i 1).val := by
  unfold DotDims.lhsIdx
  rw [dif_neg (show ¬(1 : Fin S4x256x256.rank) ∈ dPV.lhsBatch by decide),
    dif_pos (show (1 : Fin S4x256x256.rank) ∈ dPV.lhsNonContracting by decide)]
  rfl
theorem lhsPV_2 (i : S4x256x1024.Idx) (c : dPV.contr.Idx) : (dPV.lhsIdx i c 2).val = (c ⟨0, by decide⟩).val :=
  dPV.lhsIdx_val_of_single rfl i c
theorem rhsPV_0 (i : S4x256x1024.Idx) (c : dPV.contr.Idx) : (dPV.rhsIdx i c 0).val = (i 0).val := by
  unfold DotDims.rhsIdx
  rw [dif_pos (show (0 : Fin S4x256x1024.rank) ∈ dPV.rhsBatch by decide)]
  rfl
theorem rhsPV_1 (i : S4x256x1024.Idx) (c : dPV.contr.Idx) : (dPV.rhsIdx i c 1).val = (c ⟨0, by decide⟩).val :=
  dPV.rhsIdx_val_of_single rfl i c
theorem rhsPV_2 (i : S4x256x1024.Idx) (c : dPV.contr.Idx) : (dPV.rhsIdx i c 2).val = (i 2).val := by
  unfold DotDims.rhsIdx
  rw [dif_neg (show ¬(2 : Fin S4x256x1024.rank) ∈ dPV.rhsBatch by decide),
    dif_pos (show (2 : Fin S4x256x1024.rank) ∈ dPV.rhsNonContracting by decide)]
  rfl

/-- The weight–value contraction into a zero accumulator at `(b, r, d)`: `Σ_j lhs[b, r, j] · rhs[b, j, d]`. -/
theorem pv_dot_at (lhs : FVec Ideal S4x256x256 .bf16) (rhs : FVec Ideal S4x256x1024 .bf16) (b : Fin 4) (r : Fin 256)
    (d : Fin 1024) :
    FloatOps.matmul dPV none lhs rhs (constant S4x256x1024 .f32 0x00000000#32) (ix3 b r d)
      = ∑ j : Fin 256, lhs (ix3 b r j) * rhs (ix3 b j d) := by
  rw [Ideal.matmul_constant_zero_apply, ← Equiv.sum_comp (contrEquiv1 dPV 256 rfl rfl).symm]
  refine Finset.sum_congr rfl fun j _ => ?_
  have hj := contrEquiv1_symm_val dPV 256 rfl rfl j
  have el : dPV.lhsIdx (ix3 b r d) ((contrEquiv1 dPV 256 rfl rfl).symm j) = ix3 b r j := funext fun a => Fin.ext (by
    match a with
    | ⟨0, _⟩ => exact lhsPV_0 _ _
    | ⟨1, _⟩ => exact lhsPV_1 _ _
    | ⟨2, _⟩ => exact (lhsPV_2 _ _).trans hj)
  have er : dPV.rhsIdx (ix3 b r d) ((contrEquiv1 dPV 256 rfl rfl).symm j) = ix3 b j d := funext fun a => Fin.ext (by
    match a with
    | ⟨0, _⟩ => exact rhsPV_0 _ _
    | ⟨1, _⟩ => exact (rhsPV_1 _ _).trans hj
    | ⟨2, _⟩ => exact rhsPV_2 _ _)
  rw [el, er]

/-! ### The payloads -/

/-- The score tile at `(b, r, j)` of grid point `(q, k)`. -/
theorem pay7_at (q k : ℕ) (hq : q < 16) (hk : k < 16) (xq xk : Vec Ideal S4x256x1024 .bf16) (b : Fin 4) (r j : Fin 256) :
    k1_pay7 (F := Ideal) (BitVec.ofNat 32 q) (BitVec.ofNat 32 k) xq xk (ix3 b r j)
      = if 256 * k + j.val ≤ 256 * q + r.val then (∑ d : Fin 1024, xq (ix3 b r d) * xk (ix3 b j d)) * ((1 / 32 : ℝ) : EReal)
        else ⊥ := by
  unfold k1_pay7
  dsimp only
  show Scalar.select
      (IntOp.cmpi .sle
        (IntOp.addi (IntOp.muli (BitVec.ofNat 32 k) 256#32) (iota .tc S4x256x256 32 [2] iota_S4x256x256_d2_w32 (ix3 b r j)))
        (IntOp.addi (IntOp.muli (BitVec.ofNat 32 q) 256#32) (iota .tc S4x256x256 32 [1] iota_S4x256x256_d1_w32 (ix3 b r j))))
      (FloatOps.matmul dQK none (shapeCast S4x256x1024 xq shapeCasts_S4x256x1024_S4x256x1024)
          (shapeCast S4x256x1024 xk shapeCasts_S4x256x1024_S4x256x1024) (constant S4x256x256 .f32 0x00000000#32) (ix3 b r j)
        * Ideal.ofBits .f32 0x3D000000#32)
      (Named.named (F := Ideal) κ "neg_big" (φ := .f32) 0xFF333332#32) = _
  rw [iota_single_apply, iota_single_apply, shapeCast_self, shapeCast_self, qk_dot_at, ofBits_scale, neg_big]
  show Scalar.select (IntOp.cmpi .sle (IntOp.addi (IntOp.muli (BitVec.ofNat 32 k) 256#32) (BitVec.ofNat 32 j.val))
      (IntOp.addi (IntOp.muli (BitVec.ofNat 32 q) 256#32) (BitVec.ofNat 32 r.val))) _ _ = _
  rw [tile_mask q k hq hk r j]
  by_cases h : 256 * k + j.val ≤ 256 * q + r.val
  · rw [if_pos h, if_pos h]; exact select_one _ _
  · rw [if_neg h, if_neg h]; exact select_zero _ _

/-- The new running maximum at row `(b, r)`: the old one against the supremum of the score tile's row. -/
theorem pay8_at (a0 a1 : BitVec 32) (xq xk : Vec Ideal S4x256x1024 .bf16) (mm : Vec Ideal S4x256x1 .f32) (b : Fin 4) (r : Fin 256) :
    k1_pay8 (F := Ideal) a0 a1 xq xk mm (ix3 b r 0)
      = max (mm (ix3 b r 0)) (Finset.univ.sup fun j : Fin 256 => k1_pay7 (F := Ideal) a0 a1 xq xk (ix3 b r j)) := by
  unfold k1_pay8
  show max (mm (ix3 b r 0)) (shapeCast S4x256x1 (multiReduction .maximumf [2] S4x256 (k1_pay7 (F := Ideal) a0 a1 xq xk)
      0xFF800000#32 reduces_S4x256x256_S4x256 _ _) shapeCasts_S4x256_S4x256x1 (ix3 b r 0)) = _
  refine congrArg (max (mm (ix3 b r 0))) ?_
  refine (cast_col _ _ b r 0).trans ?_
  refine (Ideal.multiReduction_maximumf_single (k1_pay7 (F := Ideal) a0 a1 xq xk) _ reduces_S4x256x256_S4x256 _ _ (ix2 b r)).trans ?_
  refine (fold_max_eq_sup _ _ _ ofBits_neg_inf).trans ?_
  refine congrArg (Finset.univ.sup) (funext fun j => congrArg (k1_pay7 (F := Ideal) a0 a1 xq xk) ?_)
  exact funext fun a => Fin.ext (by match a with | ⟨0, _⟩ => rfl | ⟨1, _⟩ => rfl | ⟨2, _⟩ => rfl)

/-- The rescaling factor at row `(b, r)`. -/
theorem pay9_at (a0 a1 : BitVec 32) (xq xk : Vec Ideal S4x256x1024 .bf16) (mm : Vec Ideal S4x256x1 .f32) (b : Fin 4) (r : Fin 256) :
    k1_pay9 (F := Ideal) a0 a1 xq xk mm (ix3 b r 0)
      = Ideal.exp (mm (ix3 b r 0) - k1_pay8 (F := Ideal) a0 a1 xq xk mm (ix3 b r 0)) := rfl

/-- The tile's weights at `(b, r, j)`. -/
theorem pay10_at (a0 a1 : BitVec 32) (xq xk : Vec Ideal S4x256x1024 .bf16) (mm : Vec Ideal S4x256x1 .f32) (b : Fin 4) (r j : Fin 256) :
    k1_pay10 (F := Ideal) a0 a1 xq xk mm (ix3 b r j)
      = Ideal.exp (k1_pay7 (F := Ideal) a0 a1 xq xk (ix3 b r j) - k1_pay8 (F := Ideal) a0 a1 xq xk mm (ix3 b r 0)) := by
  unfold k1_pay10
  show Ideal.exp (k1_pay7 (F := Ideal) a0 a1 xq xk (ix3 b r j)
      - broadcastTo S4x256x256 (k1_pay8 (F := Ideal) a0 a1 xq xk mm) broadcasts_S4x256x1_S4x256x256 (ix3 b r j)) = _
  rw [bcast_col256]

/-- The new denominator at row `(b, r)`: the old one rescaled plus the lane sum of the tile's weights. -/
theorem pay11_at (a0 a1 : BitVec 32) (xq xk : Vec Ideal S4x256x1024 .bf16) (mm ll : Vec Ideal S4x256x1 .f32) (b : Fin 4) (r : Fin 256) :
    k1_pay11 (F := Ideal) a0 a1 xq xk mm ll (ix3 b r 0)
      = k1_pay9 (F := Ideal) a0 a1 xq xk mm (ix3 b r 0) * ll (ix3 b r 0)
        + ∑ j : Fin 256, k1_pay10 (F := Ideal) a0 a1 xq xk mm (ix3 b r j) := by
  unfold k1_pay11
  rw [shapeCast_self]
  show k1_pay9 (F := Ideal) a0 a1 xq xk mm (ix3 b r 0) * ll (ix3 b r 0)
      + shapeCast S4x256x1 (multiReduction .add [2] S4x256 (k1_pay10 (F := Ideal) a0 a1 xq xk mm) 0x00000000#32
          reduces_S4x256x256_S4x256 _ _) shapeCasts_S4x256_S4x256x1 (ix3 b r 0) = _
  refine congrArg (k1_pay9 (F := Ideal) a0 a1 xq xk mm (ix3 b r 0) * ll (ix3 b r 0) + ·) ?_
  refine (cast_col _ _ b r 0).trans ?_
  refine (Ideal.multiReduction_add_single (k1_pay10 (F := Ideal) a0 a1 xq xk mm) _ reduces_S4x256x256_S4x256 _ _ (ix2 b r)).trans ?_
  refine Finset.sum_congr rfl fun j _ => congrArg (k1_pay10 (F := Ideal) a0 a1 xq xk mm) ?_
  exact funext fun a => Fin.ext (by match a with | ⟨0, _⟩ => rfl | ⟨1, _⟩ => rfl | ⟨2, _⟩ => rfl)

/-- The new numerator at `(b, r, d)`: the old one rescaled plus the weights contracted against the value rows. -/
theorem pay4_at (v32 : FVec Ideal S4x256x1 .f32) (v35 : FVec Ideal S4x256x256 .f32) (aa : Vec Ideal S4x256x1024 .f32)
    (xv : Vec Ideal S4x256x1024 .bf16) (b : Fin 4) (r : Fin 256) (d : Fin 1024) :
    k1_pay4 (F := Ideal) v32 v35 aa xv (ix3 b r d)
      = v32 (ix3 b r 0) * aa (ix3 b r d) + ∑ j : Fin 256, v35 (ix3 b r j) * xv (ix3 b j d) := by
  unfold k1_pay4
  rw [shapeCast_self, shapeCast_self]
  show broadcastTo S4x256x1024 v32 broadcasts_S4x256x1_S4x256x1024 (ix3 b r d) * aa (ix3 b r d)
      + FloatOps.matmul dPV none (truncf .bf16 v35 bitsLt_bf16_f32) xv (constant S4x256x1024 .f32 0x00000000#32) (ix3 b r d) = _
  rw [bcast_col1024, pv_dot_at]
  rfl

/-- The running maximum is stored as it is. -/
theorem pay5_at (v30 : FVec Ideal S4x256x1 .f32) : k1_pay5 (F := Ideal) v30 = v30 := by
  unfold k1_pay5
  exact shapeCast_self _ _

/-- The maximum starts at −∞ … -/
theorem pay1_at (i : S4x256x1.Idx) : k1_pay1 (F := Ideal) i = ⊥ := by
  unfold k1_pay1
  rw [shapeCast_self]
  exact ofBits_neg_inf

/-- … the denominator at `0` … -/
theorem pay2_at (i : S4x256x1.Idx) : k1_pay2 (F := Ideal) i = 0 := by
  unfold k1_pay2
  rw [shapeCast_self]
  exact Ideal.ofBits_zero_f32

/-- … and the numerator at `0`. -/
theorem pay3_at (i : S4x256x1024.Idx) : k1_pay3 (F := Ideal) i = 0 := by
  unfold k1_pay3
  rw [shapeCast_self]
  exact Ideal.ofBits_zero_f32

/-- The result at `(b, r, d)`: the numerator over the row's denominator. -/
theorem pay6_at (aa : Vec Ideal S4x256x1024 .f32) (ll : Vec Ideal S4x256x1 .f32) (b : Fin 4) (r : Fin 256) (d : Fin 1024) :
    k1_pay6 (F := Ideal) aa ll (ix3 b r d) = Ideal.div (aa (ix3 b r d)) (ll (ix3 b r 0)) := by
  unfold k1_pay6
  show Ideal.div (aa (ix3 b r d)) (broadcastTo S4x256x1024 ll broadcasts_S4x256x1_S4x256x1024 (ix3 b r d)) = _
  rw [bcast_col1024]

end Cert.KernelIdeal.Hand

end
-- ==== Proof.LibOnlineSoftmax.lean ====
/-
  Online softmax on the extended reals (over the library's ideal instance only).

  A row of attention scores `s t` (each a real number, or −∞ at a masked position) is consumed tile by tile.
  The running state is a triple: the maximum `m` of the scores seen so far, the denominator
  `l = Σ e^(s t − m)` and, per output column, the numerator `a = Σ e^(s t − m) · v t`, both sums over the
  columns seen so far. A new tile `U` updates the state by

      m' = max m (max over U of s),   α = e^(m − m'),
      l' = α · l + Σ_U e^(s t − m'),   a' = α · a + Σ_U e^(s t − m') · v t.

  The law behind the update is `e^(m − m') · e^(x − m) = e^(x − m')`: rescaling by α moves every old weight
  from the old level to the new one. It holds at the corner `m = −∞` (nothing but masked columns so far) too,
  because there every old weight is `0`. Since the extended reals do not distribute in general, the sums are
  computed on real weights (`wt`) and carried back by the inclusion of the reals.

  At the end the quotient `a / l` is the softmax-weighted sum `Σ (e^(s t − m) / l) · v t`: the denominator is
  a positive real because the column that attains the maximum weighs `e^0 = 1`. Columns that are masked
  contribute nothing to the maximum or to either sum, so the set of columns may be enlarged by masked ones
  (a causal kernel skips whole tiles of them; a dense reference sums over them).
-/
import Idealize.ShloMosaic.PureOps.Ideal

noncomputable section

namespace OnlineSoftmax

open Idealize.ShloMosaic

/-- The weight `e^(x − m)` of a score `x` against a real level `m`, as a real number; a masked score weighs nothing. -/
def wt (x : EReal) (m : ℝ) : ℝ := if x = ⊥ then 0 else Real.exp (x.toReal - m)

theorem wt_bot (m : ℝ) : wt ⊥ m = 0 := if_pos rfl

theorem wt_coe (x m : ℝ) : wt (x : EReal) m = Real.exp (x - m) := by
  rw [wt, if_neg (EReal.coe_ne_bot x), EReal.toReal_coe]

theorem wt_nonneg (x : EReal) (m : ℝ) : 0 ≤ wt x m := by
  unfold wt
  split_ifs
  · exact le_rfl
  · exact (Real.exp_pos _).le

/-- The ideal exponential of a difference against a real level is the weight. -/
theorem exp_sub_coe {x : EReal} (hx : x ≠ ⊤) (m : ℝ) : Ideal.exp (x - (m : EReal)) = ((wt x m : ℝ) : EReal) := by
  induction x using EReal.rec with
  | bot => rw [EReal.bot_sub, Ideal.exp_bot, wt_bot, EReal.coe_zero]
  | coe r => rw [← EReal.coe_sub, Ideal.exp_coe, wt_coe]
  | top => exact absurd rfl hx

/-- Rescaling: the factor from the old level to the new one moves a weight from the old level to the new one. -/
theorem wt_rescale {x m : EReal} (hxm : x ≤ m) (hm : m ≠ ⊤) (r' : ℝ) : wt m r' * wt x m.toReal = wt x r' := by
  induction m using EReal.rec with
  | bot =>
    rw [le_bot_iff.mp hxm, wt_bot, wt_bot, mul_zero]
  | coe r =>
    induction x using EReal.rec with
    | bot => rw [wt_bot, wt_bot, mul_zero]
    | coe y =>
      rw [EReal.toReal_coe, wt_coe, wt_coe, wt_coe, ← Real.exp_add]
      congr 1; ring
    | top => exact absurd hxm (not_le.mpr (EReal.coe_lt_top r))
  | top => exact absurd rfl hm

variable {ι : Type*} [DecidableEq ι]

/-- The inclusion of the reals carries a finite sum to the finite sum. -/
theorem coe_sum (T : Finset ι) (f : ι → ℝ) : ((∑ t ∈ T, f t : ℝ) : EReal) = ∑ t ∈ T, (f t : EReal) := by
  induction T using Finset.induction_on with
  | empty => simp
  | insert a T ha ih => rw [Finset.sum_insert ha, Finset.sum_insert ha, EReal.coe_add, ih]

variable (s : ι → EReal) (v : ι → ℝ)

/-- The running state after the columns `T`: the maximum, the denominator and the numerator at that maximum. -/
structure Inv (T : Finset ι) (m l a : EReal) : Prop where
  max_eq : m = T.sup s
  den_eq : l = ((∑ t ∈ T, wt (s t) m.toReal : ℝ) : EReal)
  num_eq : a = ((∑ t ∈ T, wt (s t) m.toReal * v t : ℝ) : EReal)

/-- Before any column: maximum −∞, both sums zero. -/
theorem Inv.empty : Inv s v ∅ ⊥ 0 0 := ⟨by simp, by simp, by simp⟩

variable {s v}

/-- One tile of the online update keeps the invariant, as soon as the new maximum is a real number. -/
theorem Inv.step {T U : Finset ι} {m l a : EReal} (h : Inv s v T m l a) (hd : Disjoint T U)
    (hs : ∀ t, s t ≠ ⊤) {r' : ℝ} (hr' : max m (U.sup s) = (r' : EReal)) :
    Inv s v (T ∪ U) (max m (U.sup s))
      (Ideal.exp (m - max m (U.sup s)) * l + ∑ t ∈ U, Ideal.exp (s t - max m (U.sup s)))
      (Ideal.exp (m - max m (U.sup s)) * a + ∑ t ∈ U, Ideal.exp (s t - max m (U.sup s)) * (v t : EReal)) := by
  have hmT : m ≠ ⊤ := by
    intro e
    rw [e, max_eq_left le_top] at hr'
    exact EReal.coe_ne_top _ hr'.symm
  have hle : ∀ t ∈ T, s t ≤ m := fun t ht => h.max_eq ▸ Finset.le_sup ht
  have e1 : Ideal.exp (m - (r' : EReal)) = ((wt m r' : ℝ) : EReal) := exp_sub_coe hmT r'
  have e2 : ∑ t ∈ U, Ideal.exp (s t - (r' : EReal)) = ((∑ t ∈ U, wt (s t) r' : ℝ) : EReal) := by
    rw [coe_sum]; exact Finset.sum_congr rfl fun t _ => exp_sub_coe (hs t) r'
  have e3 : ∑ t ∈ U, Ideal.exp (s t - (r' : EReal)) * (v t : EReal) = ((∑ t ∈ U, wt (s t) r' * v t : ℝ) : EReal) := by
    rw [coe_sum]; exact Finset.sum_congr rfl fun t _ => by rw [exp_sub_coe (hs t) r', EReal.coe_mul]
  rw [hr']
  refine ⟨?_, ?_, ?_⟩
  · rw [Finset.sup_union, ← h.max_eq]; exact hr'.symm
  · rw [e1, e2, h.den_eq, ← EReal.coe_mul, ← EReal.coe_add, EReal.toReal_coe, Finset.sum_union hd, Finset.mul_sum,
      show (∑ t ∈ T, wt m r' * wt (s t) m.toReal) = ∑ t ∈ T, wt (s t) r' from
        Finset.sum_congr rfl fun t ht => wt_rescale (hle t ht) hmT r']
  · rw [e1, e3, h.num_eq, ← EReal.coe_mul, ← EReal.coe_add, EReal.toReal_coe, Finset.sum_union hd, Finset.mul_sum,
      show (∑ t ∈ T, wt m r' * (wt (s t) m.toReal * v t)) = ∑ t ∈ T, wt (s t) r' * v t from
        Finset.sum_congr rfl fun t ht => by rw [← mul_assoc, wt_rescale (hle t ht) hmT r']]

/-- Masked columns may be added to the set of columns without changing the state. -/
theorem Inv.mono {T T' : Finset ι} {m l a : EReal} (h : Inv s v T m l a) (hsub : T ⊆ T')
    (hbot : ∀ t ∈ T', t ∉ T → s t = ⊥) : Inv s v T' m l a := by
  refine ⟨?_, ?_, ?_⟩
  · rw [h.max_eq]
    refine le_antisymm (Finset.sup_mono hsub) (Finset.sup_le fun t ht => ?_)
    by_cases hT : t ∈ T
    · exact Finset.le_sup hT
    · rw [hbot t ht hT]; exact bot_le
  · rw [h.den_eq, Finset.sum_subset hsub fun t ht hT => by rw [hbot t ht hT, wt_bot]]
  · rw [h.num_eq, Finset.sum_subset hsub fun t ht hT => by rw [hbot t ht hT, wt_bot, zero_mul]]

/-- With a real maximum the denominator is a positive real: the column attaining the maximum weighs one. -/
theorem Inv.den_pos {T : Finset ι} {m l a : EReal} (h : Inv s v T m l a) {r : ℝ} (hm : m = (r : EReal)) :
    0 < ∑ t ∈ T, wt (s t) r := by
  have hsup : T.sup s = (r : EReal) := h.max_eq.symm.trans hm
  have hne : T.Nonempty := Finset.nonempty_iff_ne_empty.mpr fun e => by
    rw [e, Finset.sup_empty] at hsup; exact EReal.bot_ne_coe r hsup
  obtain ⟨t0, ht0, e0⟩ := Finset.exists_mem_eq_sup T hne s
  have h1 : wt (s t0) r = 1 := by rw [← e0, hsup, wt_coe, sub_self, Real.exp_zero]
  have h2 : wt (s t0) r ≤ ∑ t ∈ T, wt (s t) r :=
    Finset.single_le_sum (f := fun t => wt (s t) r) (fun t _ => wt_nonneg _ _) ht0
  linarith

/-- The final quotient is the softmax-weighted sum. -/
theorem Inv.div_eq {T : Finset ι} {m l a : EReal} (h : Inv s v T m l a) (hs : ∀ t, s t ≠ ⊤) {r : ℝ}
    (hm : m = (r : EReal)) :
    Ideal.div a l = ∑ t ∈ T, Ideal.div (Ideal.exp (s t - m)) l * (v t : EReal) := by
  have hpos := h.den_pos hm
  have hl : l = ((∑ t ∈ T, wt (s t) r : ℝ) : EReal) := by rw [h.den_eq, hm, EReal.toReal_coe]
  have ha : a = ((∑ t ∈ T, wt (s t) r * v t : ℝ) : EReal) := by rw [h.num_eq, hm, EReal.toReal_coe]
  rw [ha, hl, Ideal.div_coe hpos.ne', ← EReal.coe_mul, Finset.sum_mul, coe_sum]
  refine Finset.sum_congr rfl fun t _ => ?_
  rw [hm, exp_sub_coe (hs t) r, Ideal.div_coe hpos.ne', ← EReal.coe_mul, ← EReal.coe_mul]
  congr 1; ring

end OnlineSoftmax

end
-- ==== Proof.Spec.lean ====
/-
  The function both programs compute, index by index, on the extended reals.

  From the activations `x[b, s, ·]` three affine projections are taken, `P[b, s, k] = Σ_m x[b, s, m] · W[k, m] + bias[k]`
  (queries, keys, values). Queries and keys are rotated position-wise: with the row split into halves `(p0, p1)`
  the rotated row is `(p0 · cos − p1 · sin, p0 · sin + p1 · cos)`, the angle tables indexed by the position `s`
  and the column inside a half. The score of query position `q` against key position `t` is the dot product of the
  rotated rows scaled by `1/32 = 1/√1024` when `t ≤ q`, and −∞ (masked) otherwise. The result row is the softmax of
  the scores over `t` applied to the value rows: `Σ_t (e^(S t − M) / Σ_u e^(S u − M)) · V[b, t, ·]`, `M` the
  maximum score of the row.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 4096, 1024]⟩
abbrev SC : Shape := ⟨2, ![4096, 512]⟩
abbrev SW : Shape := ⟨2, ![1024, 1024]⟩
abbrev SB : Shape := ⟨1, ![1024]⟩

/-- An affine projection of the activations: row `(b, s)` against row `k` of the weight, plus the bias. -/
def proj (x : SX.Idx → EReal) (W : SW.Idx → EReal) (bias : SB.Idx → EReal)
    (b : Fin 4) (s : Fin 4096) (k : Fin 1024) : EReal :=
  (∑ m : Fin 1024, x (ix3 b s m) * W (ix2 k m)) + bias (ix1 k)

/-- The position-wise rotation of a projected row by the angle tables. -/
def rope (P : Fin 4 → Fin 4096 → Fin 1024 → EReal) (cos sin : SC.Idx → EReal)
    (b : Fin 4) (s : Fin 4096) (j : Fin 1024) : EReal :=
  if h : j.val < 512 then
    P b s ⟨j.val, by omega⟩ * cos (ix2 s ⟨j.val, h⟩) - P b s ⟨j.val + 512, by omega⟩ * sin (ix2 s ⟨j.val, h⟩)
  else
    P b s ⟨j.val - 512, by omega⟩ * sin (ix2 s ⟨j.val - 512, by omega⟩)
      + P b s ⟨j.val, j.isLt⟩ * cos (ix2 s ⟨j.val - 512, by omega⟩)

/-- The causal score of query position `q` against key position `t`. -/
def score (Q K : Fin 4 → Fin 4096 → Fin 1024 → EReal) (b : Fin 4) (q t : Fin 4096) : EReal :=
  if t.val ≤ q.val then (∑ d : Fin 1024, Q b q d * K b t d) * ((1 / 32 : ℝ) : EReal) else ⊥

/-- The softmax of a row of scores applied to a column of values. -/
def attn (S : Fin 4096 → EReal) (V : Fin 4096 → EReal) : EReal :=
  ∑ t : Fin 4096, Ideal.div (Ideal.exp (S t - Finset.univ.sup S))
    (∑ u : Fin 4096, Ideal.exp (S u - Finset.univ.sup S)) * V t

/-- The whole layer, at an index `(b, q, d)` of the result. -/
def G (x : SX.Idx → EReal) (cos sin : SC.Idx → EReal) (Wq : SW.Idx → EReal) (bq : SB.Idx → EReal)
    (Wk : SW.Idx → EReal) (bk : SB.Idx → EReal) (Wv : SW.Idx → EReal) (bv : SB.Idx → EReal) : SX.Idx → EReal :=
  fun i =>
    attn (fun t => score (rope (proj x Wq bq) cos sin) (rope (proj x Wk bk) cos sin) (i 0) (i 1) t)
      (fun t => proj x Wv bv (i 0) t (i 2))

end Cert.Spec

end
-- ==== Proof.AttnMath.lean ====
/-
  The attention kernel's arithmetic on plain functions: one key tile of the online softmax, and the final quotient.

  A row of 4096 scores is consumed in 16 tiles of 256 consecutive key positions. After `k` tiles the positions seen are
  those below `256 k`; tile `k` adds the positions `256 k + j`, `j < 256`, which are disjoint from the ones seen, so
  the generic update of the running state (maximum, denominator, numerator) applies with the sums and the supremum over
  the tile written over `j`. A causal row of query tile `q` has −∞ at every position from `256 (q + 1)` on: those
  positions change neither the maximum nor the sums, so the state after `q + 1` tiles is the state over all 4096
  positions, and its quotient is the softmax-weighted sum of the specification.
-/
import proofs.«116248_j65103114273198_2_alg».proof.Proof.LibOnlineSoftmax
import proofs.«116248_j65103114273198_2_alg».proof.Proof.Spec

noncomputable section

namespace Cert.AttnMath

open Idealize.ShloMosaic OnlineSoftmax

/-- The key positions of the first `k` tiles. -/
def seen (k : ℕ) : Finset (Fin 4096) := Finset.univ.filter fun t => t.val < 256 * k

/-- Column `j` of key tile `k`, as a key position. -/
abbrev tcol (k : ℕ) (hk : k < 16) (j : Fin 256) : Fin 4096 := ⟨256 * k + j.val, by omega⟩

/-- The key positions of tile `k`. -/
def tile (k : ℕ) (hk : k < 16) : Finset (Fin 4096) := Finset.univ.image (tcol k hk)

theorem seen_zero : seen 0 = ∅ := by
  ext t; simp [seen]

theorem tcol_injective (k : ℕ) (hk : k < 16) : Function.Injective (tcol k hk) := fun a b h => by
  have := congrArg Fin.val h
  exact Fin.ext (by simp only [tcol] at this; omega)

/-- The first `k + 1` tiles are the first `k` and tile `k`. -/
theorem seen_succ (k : ℕ) (hk : k < 16) : seen (k + 1) = seen k ∪ tile k hk := by
  ext t
  simp only [seen, tile, Finset.mem_filter, Finset.mem_univ, true_and, Finset.mem_union, Finset.mem_image]
  constructor
  · intro h
    by_cases h' : t.val < 256 * k
    · exact Or.inl h'
    · exact Or.inr ⟨⟨t.val - 256 * k, by omega⟩, Fin.ext (by show 256 * k + (t.val - 256 * k) = t.val; omega)⟩
  · rintro (h | ⟨j, rfl⟩)
    · omega
    · show 256 * k + j.val < 256 * (k + 1); omega

/-- Tile `k` is disjoint from the tiles before it. -/
theorem disjoint_seen_tile (k : ℕ) (hk : k < 16) : Disjoint (seen k) (tile k hk) := by
  rw [Finset.disjoint_left]
  intro t ht hU
  simp only [seen, Finset.mem_filter, Finset.mem_univ, true_and] at ht
  simp only [tile, Finset.mem_image, Finset.mem_univ, true_and] at hU
  obtain ⟨j, rfl⟩ := hU
  have : 256 * k + j.val < 256 * k := ht
  omega

/-- A supremum over tile `k` is the supremum over its 256 columns. -/
theorem sup_tile (k : ℕ) (hk : k < 16) (f : Fin 4096 → EReal) :
    (tile k hk).sup f = Finset.univ.sup fun j : Fin 256 => f (tcol k hk j) :=
  Finset.sup_image _ _ _

/-- A sum over tile `k` is the sum over its 256 columns. -/
theorem sum_tile (k : ℕ) (hk : k < 16) (f : Fin 4096 → EReal) :
    ∑ t ∈ tile k hk, f t = ∑ j : Fin 256, f (tcol k hk j) :=
  Finset.sum_image fun a _ b _ h => tcol_injective k hk h

/-- ONE KEY TILE of the online softmax keeps the running state, as soon as the new maximum is a real number. -/
theorem tile_step (S : Fin 4096 → EReal) (Vc : Fin 4096 → ℝ) (k : ℕ) (hk : k < 16) {m l a : EReal}
    (h : Inv S Vc (seen k) m l a) (hS : ∀ t, S t ≠ ⊤) {r' : ℝ}
    (hr' : max m (Finset.univ.sup fun j : Fin 256 => S (tcol k hk j)) = (r' : EReal)) :
    Inv S Vc (seen (k + 1)) (max m (Finset.univ.sup fun j : Fin 256 => S (tcol k hk j)))
      (Ideal.exp (m - max m (Finset.univ.sup fun j : Fin 256 => S (tcol k hk j))) * l
        + ∑ j : Fin 256, Ideal.exp (S (tcol k hk j) - max m (Finset.univ.sup fun j : Fin 256 => S (tcol k hk j))))
      (Ideal.exp (m - max m (Finset.univ.sup fun j : Fin 256 => S (tcol k hk j))) * a
        + ∑ j : Fin 256, Ideal.exp (S (tcol k hk j) - max m (Finset.univ.sup fun j : Fin 256 => S (tcol k hk j)))
            * (Vc (tcol k hk j) : EReal)) := by
  have hsup := sup_tile k hk S
  have key := Inv.step (U := tile k hk) h (disjoint_seen_tile k hk) hS (by rw [hsup]; exact hr')
  rw [hsup, sum_tile, sum_tile, ← seen_succ] at key
  exact key

/-- THE END of a causal row of query tile `q`: after `q + 1` key tiles, every later position masked, the quotient of
    the numerator by the denominator is the specification's softmax-weighted sum over all 4096 positions. -/
theorem attn_of_inv (S : Fin 4096 → EReal) (Vc : Fin 4096 → ℝ) {q : ℕ} (hq : q < 16) {m l a : EReal}
    (h : Inv S Vc (seen (q + 1)) m l a) (hS : ∀ t, S t ≠ ⊤)
    (hmask : ∀ t : Fin 4096, 256 * (q + 1) ≤ t.val → S t = ⊥) {r : ℝ} (hm : m = (r : EReal)) :
    Ideal.div a l = Cert.Spec.attn S (fun t => (Vc t : EReal)) := by
  have hU : Inv S Vc Finset.univ m l a := h.mono (Finset.subset_univ _) fun t _ ht =>
    hmask t (by simp only [seen, Finset.mem_filter, Finset.mem_univ, true_and] at ht; omega)
  have hsup : Finset.univ.sup S = m := hU.max_eq.symm
  have hl : l = ∑ u : Fin 4096, Ideal.exp (S u - m) := by
    rw [hU.den_eq, coe_sum]
    exact Finset.sum_congr rfl fun u _ => by rw [hm, EReal.toReal_coe]; exact (exp_sub_coe (hS u) r).symm
  rw [hU.div_eq hS hm]
  unfold Cert.Spec.attn
  rw [hsup, ← hl]

end Cert.AttnMath

end
-- ==== Proof.KernelIdeal.FoldStep.lean ====
/-
  One key tile of the attention kernel, on block vectors: the kernel's update of its running state is the online
  softmax's.

  Fix a batch `b`, a row `r` of query tile `q` (query position `256 q + r`) and a key tile `k ≤ q`. The kernel's score tile at
  `(b, r, j)` is the specification's score of that query position against key position `256 k + j`; its new maximum,
  denominator and numerator are the online-softmax update over the tile's 256 columns. The update keeps the running
  state's invariant once the new maximum is a real number: no score is +∞ (a masked score is −∞, an unmasked one a
  finite sum of products of reals), and the tile's first column is not after the query position, so its score is a
  real and the maximum is at least that. After the diagonal tile every later position is masked, and the final quotient
  is the specification's softmax-weighted sum.
-/
import proofs.«116248_j65103114273198_2_alg».proof.Proof.KernelIdeal.Pay1
import proofs.«116248_j65103114273198_2_alg».proof.Proof.AttnMath

noncomputable section

namespace Cert.KernelIdeal.Hand

open Cert.KernelIdeal Cert.KernelIdeal.Gen Idealize.ShloMosaic Idealize.ShloMosaic.ValueIdx Cert.AttnMath OnlineSoftmax

/-- The row of scores of batch `b`, query position `p`, from the rotated query and key arrays. -/
def Srow (Qa Ka : S4x4096x1024.Idx → EReal) (b : Fin 4) (p : Fin 4096) : Fin 4096 → EReal :=
  fun t => Cert.Spec.score (fun b s d => Qa (ix3 b s d)) (fun b s d => Ka (ix3 b s d)) b p t

/-- Column `d` of batch `b`'s value rows, as real numbers. -/
def Vcol (Va : S4x4096x1024.Idx → EReal) (b : Fin 4) (d : Fin 1024) : Fin 4096 → ℝ :=
  fun t => (Va (ix3 b t d)).toReal

section
variable {Qa Ka Va : S4x4096x1024.Idx → EReal}

/-- A scaled contraction of real entries is a real number. -/
theorem dot_real (f g : Fin 1024 → EReal) (hf : ∀ d, ∃ ρ : ℝ, f d = (ρ : EReal)) (hg : ∀ d, ∃ ρ : ℝ, g d = (ρ : EReal)) :
    ∃ ρ : ℝ, (∑ d : Fin 1024, f d * g d) * ((1 / 32 : ℝ) : EReal) = (ρ : EReal) := by
  choose F hF using hf
  choose G hG using hg
  refine ⟨(∑ d : Fin 1024, F d * G d) * (1 / 32), ?_⟩
  rw [EReal.coe_mul, coe_sum]
  exact congrArg (· * ((1 / 32 : ℝ) : EReal)) (Finset.sum_congr rfl fun d _ => by rw [hF, hG, EReal.coe_mul])

/-- An unmasked score is a real number. -/
theorem Srow_real (hQ : ∀ i, ∃ ρ : ℝ, Qa i = (ρ : EReal)) (hK : ∀ i, ∃ ρ : ℝ, Ka i = (ρ : EReal)) (b : Fin 4)
    (p t : Fin 4096) (h : t.val ≤ p.val) : ∃ ρ : ℝ, Srow Qa Ka b p t = (ρ : EReal) := by
  unfold Srow Cert.Spec.score
  rw [if_pos h]
  exact dot_real _ _ (fun d => hQ _) (fun d => hK _)

/-- A masked score is −∞. -/
theorem Srow_masked (b : Fin 4) (p t : Fin 4096) (h : ¬t.val ≤ p.val) : Srow Qa Ka b p t = ⊥ := by
  unfold Srow Cert.Spec.score
  rw [if_neg h]

/-- No score is +∞. -/
theorem Srow_ne_top (hQ : ∀ i, ∃ ρ : ℝ, Qa i = (ρ : EReal)) (hK : ∀ i, ∃ ρ : ℝ, Ka i = (ρ : EReal)) (b : Fin 4)
    (p t : Fin 4096) : Srow Qa Ka b p t ≠ ⊤ := by
  by_cases h : t.val ≤ p.val
  · obtain ⟨ρ, hρ⟩ := Srow_real hQ hK b p t h
    rw [hρ]; exact EReal.coe_ne_top ρ
  · rw [Srow_masked b p t h]; exact bot_ne_top

/-- A supremum of values none of which is +∞, over a finite set, is not +∞. -/
theorem sup_ne_top {ι : Type} (s : Finset ι) (f : ι → EReal) (h : ∀ t, f t ≠ ⊤) : s.sup f ≠ ⊤ :=
  ne_of_lt ((Finset.sup_lt_iff bot_lt_top).mpr fun t _ => lt_top_iff_ne_top.mpr (h t))

/-- The kernel's score tile is the specification's row of scores at the tile's key positions. -/
theorem pay7_eq_Srow (q k : ℕ) (hq : q < 16) (hk : k < 16) (xq xk : Vec Ideal S4x256x1024 .bf16)
    (hxq : ∀ b r d, xq (ix3 b r d) = Qa (ix3 b (tcol q hq r) d)) (hxk : ∀ b j d, xk (ix3 b j d) = Ka (ix3 b (tcol k hk j) d))
    (b : Fin 4) (r j : Fin 256) :
    k1_pay7 (F := Ideal) (BitVec.ofNat 32 q) (BitVec.ofNat 32 k) xq xk (ix3 b r j) = Srow Qa Ka b (tcol q hq r) (tcol k hk j) := by
  rw [pay7_at q k hq hk xq xk b r j]
  show _ = if 256 * k + j.val ≤ 256 * q + r.val then
      (∑ d : Fin 1024, Qa (ix3 b (tcol q hq r) d) * Ka (ix3 b (tcol k hk j) d)) * ((1 / 32 : ℝ) : EReal) else ⊥
  simp only [hxq, hxk]

/-- ONE KEY TILE on block vectors: the kernel's new maximum, denominator and numerator keep the running state's
    invariant, for every feature column, and the new maximum is a real number. -/
theorem fold_step (hQ : ∀ i, ∃ ρ : ℝ, Qa i = (ρ : EReal)) (hK : ∀ i, ∃ ρ : ℝ, Ka i = (ρ : EReal))
    (hV : ∀ i, ∃ ρ : ℝ, Va i = (ρ : EReal)) (q k : ℕ) (hq : q < 16) (hkq : k ≤ q) (hk : k < 16)
    (xq xk xv : Vec Ideal S4x256x1024 .bf16) (mm ll : Vec Ideal S4x256x1 .f32) (aa : Vec Ideal S4x256x1024 .f32)
    (hxq : ∀ b r d, xq (ix3 b r d) = Qa (ix3 b (tcol q hq r) d)) (hxk : ∀ b j d, xk (ix3 b j d) = Ka (ix3 b (tcol k hk j) d))
    (hxv : ∀ b j d, xv (ix3 b j d) = Va (ix3 b (tcol k hk j) d)) (b : Fin 4) (r : Fin 256)
    (hInv : ∀ d : Fin 1024, Inv (Srow Qa Ka b (tcol q hq r)) (Vcol Va b d) (seen k) (mm (ix3 b r 0)) (ll (ix3 b r 0))
      (aa (ix3 b r d))) :
    (∀ d : Fin 1024, Inv (Srow Qa Ka b (tcol q hq r)) (Vcol Va b d) (seen (k + 1))
        (k1_pay5 (F := Ideal) (k1_pay8 (F := Ideal) (BitVec.ofNat 32 q) (BitVec.ofNat 32 k) xq xk mm) (ix3 b r 0))
        (k1_pay11 (F := Ideal) (BitVec.ofNat 32 q) (BitVec.ofNat 32 k) xq xk mm ll (ix3 b r 0))
        (k1_pay4 (F := Ideal) (k1_pay9 (F := Ideal) (BitVec.ofNat 32 q) (BitVec.ofNat 32 k) xq xk mm)
          (k1_pay10 (F := Ideal) (BitVec.ofNat 32 q) (BitVec.ofNat 32 k) xq xk mm) aa xv (ix3 b r d)))
    ∧ ∃ ρ : ℝ, k1_pay5 (F := Ideal) (k1_pay8 (F := Ideal) (BitVec.ofNat 32 q) (BitVec.ofNat 32 k) xq xk mm) (ix3 b r 0) = (ρ : EReal) := by
  have hS := Srow_ne_top hQ hK b (tcol q hq r)
  -- the new maximum, in the online softmax's spelling
  have h8 : k1_pay8 (F := Ideal) (BitVec.ofNat 32 q) (BitVec.ofNat 32 k) xq xk mm (ix3 b r 0) = max (mm (ix3 b r 0)) (Finset.univ.sup fun j : Fin 256 => Srow Qa Ka b (tcol q hq r) (tcol k hk j)) := by
    rw [pay8_at]
    simp only [pay7_eq_Srow q k hq hk xq xk hxq hxk]
  have h5 : k1_pay5 (F := Ideal) (k1_pay8 (F := Ideal) (BitVec.ofNat 32 q) (BitVec.ofNat 32 k) xq xk mm) (ix3 b r 0) = max (mm (ix3 b r 0)) (Finset.univ.sup fun j : Fin 256 => Srow Qa Ka b (tcol q hq r) (tcol k hk j)) := by
    rw [pay5_at, h8]
  have h9 : k1_pay9 (F := Ideal) (BitVec.ofNat 32 q) (BitVec.ofNat 32 k) xq xk mm (ix3 b r 0)
      = Ideal.exp (mm (ix3 b r 0) - max (mm (ix3 b r 0)) (Finset.univ.sup fun j : Fin 256 => Srow Qa Ka b (tcol q hq r) (tcol k hk j))) := by
    rw [pay9_at, h8]
  have h10 : ∀ j : Fin 256, k1_pay10 (F := Ideal) (BitVec.ofNat 32 q) (BitVec.ofNat 32 k) xq xk mm (ix3 b r j)
      = Ideal.exp (Srow Qa Ka b (tcol q hq r) (tcol k hk j) - max (mm (ix3 b r 0)) (Finset.univ.sup fun j : Fin 256 => Srow Qa Ka b (tcol q hq r) (tcol k hk j))) := fun j => by
    rw [pay10_at, h8, pay7_eq_Srow q k hq hk xq xk hxq hxk]
  have h11 : k1_pay11 (F := Ideal) (BitVec.ofNat 32 q) (BitVec.ofNat 32 k) xq xk mm ll (ix3 b r 0)
      = Ideal.exp (mm (ix3 b r 0) - max (mm (ix3 b r 0)) (Finset.univ.sup fun j : Fin 256 => Srow Qa Ka b (tcol q hq r) (tcol k hk j))) * ll (ix3 b r 0)
        + ∑ j : Fin 256, Ideal.exp (Srow Qa Ka b (tcol q hq r) (tcol k hk j) - max (mm (ix3 b r 0)) (Finset.univ.sup fun j : Fin 256 => Srow Qa Ka b (tcol q hq r) (tcol k hk j))) := by
    rw [pay11_at, h9]
    simp only [h10]
  have hv : ∀ (j : Fin 256) (d : Fin 1024), xv (ix3 b j d) = ((Vcol Va b d (tcol k hk j) : ℝ) : EReal) := fun j d => by
    obtain ⟨ρ, hρ⟩ := hV (ix3 b (tcol k hk j) d)
    rw [hxv, Vcol, hρ, EReal.toReal_coe]
  have h4 : ∀ d : Fin 1024, k1_pay4 (F := Ideal) (k1_pay9 (F := Ideal) (BitVec.ofNat 32 q) (BitVec.ofNat 32 k) xq xk mm)
        (k1_pay10 (F := Ideal) (BitVec.ofNat 32 q) (BitVec.ofNat 32 k) xq xk mm) aa xv (ix3 b r d)
      = Ideal.exp (mm (ix3 b r 0) - max (mm (ix3 b r 0)) (Finset.univ.sup fun j : Fin 256 => Srow Qa Ka b (tcol q hq r) (tcol k hk j))) * aa (ix3 b r d)
        + ∑ j : Fin 256, Ideal.exp (Srow Qa Ka b (tcol q hq r) (tcol k hk j) - max (mm (ix3 b r 0)) (Finset.univ.sup fun j : Fin 256 => Srow Qa Ka b (tcol q hq r) (tcol k hk j)))
            * ((Vcol Va b d (tcol k hk j) : ℝ) : EReal) := fun d => by
    rw [pay4_at, h9]
    simp only [h10, hv]
  -- the new maximum is a real number
  have hm_top : mm (ix3 b r 0) ≠ ⊤ := by
    rw [(hInv 0).max_eq]; exact sup_ne_top _ _ hS
  have hM_top : max (mm (ix3 b r 0)) (Finset.univ.sup fun j : Fin 256 => Srow Qa Ka b (tcol q hq r) (tcol k hk j)) ≠ ⊤ :=
    ne_of_lt (max_lt (lt_top_iff_ne_top.mpr hm_top) (lt_top_iff_ne_top.mpr (sup_ne_top _ _ fun j => hS _)))
  have hM_bot : max (mm (ix3 b r 0)) (Finset.univ.sup fun j : Fin 256 => Srow Qa Ka b (tcol q hq r) (tcol k hk j)) ≠ ⊥ := by
    obtain ⟨ρ, hρ⟩ := Srow_real hQ hK b (tcol q hq r) (tcol k hk 0) (by
      show 256 * k + ((0 : Fin 256) : ℕ) ≤ 256 * q + r.val
      have : ((0 : Fin 256) : ℕ) = 0 := rfl
      omega)
    have h1 : ((ρ : ℝ) : EReal) ≤ max (mm (ix3 b r 0)) (Finset.univ.sup fun j : Fin 256 => Srow Qa Ka b (tcol q hq r) (tcol k hk j)) := by
      rw [← hρ]
      exact le_trans (Finset.le_sup (f := fun j : Fin 256 => Srow Qa Ka b (tcol q hq r) (tcol k hk j)) (Finset.mem_univ 0))
        (le_max_right _ _)
    exact ne_of_gt (lt_of_lt_of_le (EReal.bot_lt_coe ρ) h1)
  have hr' : max (mm (ix3 b r 0)) (Finset.univ.sup fun j : Fin 256 => Srow Qa Ka b (tcol q hq r) (tcol k hk j)) = (((max (mm (ix3 b r 0)) (Finset.univ.sup fun j : Fin 256 => Srow Qa Ka b (tcol q hq r) (tcol k hk j))).toReal : ℝ) : EReal) := (EReal.coe_toReal hM_top hM_bot).symm
  refine ⟨fun d => ?_, _, h5.trans hr'⟩
  rw [h5, h11, h4 d]
  exact tile_step (Srow Qa Ka b (tcol q hq r)) (Vcol Va b d) k hk (hInv d) hS hr'

/-- Before the first key tile the state is the empty one. -/
theorem reset_inv (S : Fin 4096 → EReal) (Vc : Fin 4096 → ℝ) (i j : S4x256x1.Idx) (e : S4x256x1024.Idx) :
    Inv S Vc (seen 0) (k1_pay1 (F := Ideal) i) (k1_pay2 (F := Ideal) j) (k1_pay3 (F := Ideal) e) := by
  rw [seen_zero, pay1_at, pay2_at, pay3_at]
  exact Inv.empty S Vc

/-- THE END of a row: after the diagonal tile the stored quotient is the specification's softmax-weighted sum. -/
theorem out_eq (hQ : ∀ i, ∃ ρ : ℝ, Qa i = (ρ : EReal)) (hK : ∀ i, ∃ ρ : ℝ, Ka i = (ρ : EReal))
    (hV : ∀ i, ∃ ρ : ℝ, Va i = (ρ : EReal)) (q : ℕ) (hq : q < 16) (mm ll : Vec Ideal S4x256x1 .f32)
    (aa : Vec Ideal S4x256x1024 .f32) (b : Fin 4) (r : Fin 256) (d : Fin 1024)
    (hInv : Inv (Srow Qa Ka b (tcol q hq r)) (Vcol Va b d) (seen (q + 1)) (mm (ix3 b r 0)) (ll (ix3 b r 0)) (aa (ix3 b r d)))
    (hm : ∃ ρ : ℝ, mm (ix3 b r 0) = (ρ : EReal)) :
    k1_pay6 (F := Ideal) aa ll (ix3 b r d) = Cert.Spec.attn (Srow Qa Ka b (tcol q hq r)) (fun t => Va (ix3 b t d)) := by
  obtain ⟨ρ, hρ⟩ := hm
  rw [pay6_at, attn_of_inv _ _ hq hInv (Srow_ne_top hQ hK b _)
    (fun t ht => Srow_masked b _ t (by show ¬t.val ≤ 256 * q + r.val; omega)) hρ]
  refine congrArg (Cert.Spec.attn (Srow Qa Ka b (tcol q hq r))) (funext fun t => ?_)
  obtain ⟨v, hv⟩ := hV (ix3 b t d)
  rw [Vcol, hv, EReal.toReal_coe]

end

end Cert.KernelIdeal.Hand

end
-- ==== Proof.KernelIdeal.Value1.lean ====
/-
  What the attention region leaves in the result array, on the extended reals.

  The grid's point `n` is the pair (query tile `q = n / 16`, key tile `k = n % 16`), visited row by row. Along a row the
  three scratch buffers carry the online softmax's running state — maximum, denominator, numerator — of every query
  position of the tile: after the point with key tile `k ≤ q` it is the state over the key positions below
  `256 · (k + 1)`; above the diagonal (`k > q`) the body stores nothing, so the state stays the one after the diagonal
  tile, which, every later position being masked, is the state over all 4096 key positions. On the diagonal the body
  stores the numerator divided by the denominator into the result tile, and the tile is written back at the row's last
  point: the result array ends holding the specification's softmax-weighted sums.
-/
import proofs.«116248_j65103114273198_2_alg».proof.Proof.KernelIdeal.Blocks1
import proofs.«116248_j65103114273198_2_alg».proof.Proof.KernelIdeal.R1Pieces
import proofs.«116248_j65103114273198_2_alg».proof.Proof.KernelIdeal.FoldStep

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.AttnMath OnlineSoftmax

variable (V : (c : Dev nD) → (b : Ref sig .tc) → Buf (Elt Ideal) ((c : Thread nD τ).loc b)) (c : Dev nD)

/-- The rotated queries, the rotated keys and the values as the region finds them. -/
abbrev Qarr : S4x4096x1024.Idx → EReal := V c main_v6_0
abbrev Karr : S4x4096x1024.Idx → EReal := V c main_v6_1
abbrev Varr : S4x4096x1024.Idx → EReal := V c main_v6_2

/-- The grid's coordinates, decided over the 256 points: query tile `t / 16`, key tile `t % 16`. -/
theorem coords1 : ∀ t : Fin cfg1.N, (grid1.coords t 0).val = t.val / 16 ∧ (grid1.coords t 1).val = t.val % 16 :=
  (by decide +kernel : ∀ t : Fin grid1.N, _)

/-- The four buffers the body stores into: result tile, running maximum, denominator, numerator. -/
abbrev St1 : Type := Vec Ideal S4x256x1024 .f32 × Vec Ideal S4x256x1 .f32 × Vec Ideal S4x256x1 .f32 × Vec Ideal S4x256x1024 .f32

/-- The scratch holds, for every query position of tile `q`, the running state over the first `kk + 1` key tiles,
    and every running maximum is a real number. -/
def Good1 (q kk : ℕ) (hq : q < 16) (st : St1) : Prop :=
  (∀ (b : Fin 4) (r : Fin 256) (d : Fin 1024),
      Inv (Srow (Qarr V c) (Karr V c) b (tcol q hq r)) (Vcol (Varr V c) b d) (seen kk)
        (st.2.1 (ix3 b r (0 : Fin 1))) (st.2.2.1 (ix3 b r (0 : Fin 1))) (st.2.2.2 (ix3 b r d)))
  ∧ ∀ (b : Fin 4) (r : Fin 256), ∃ ρ : ℝ, st.2.1 (ix3 b r (0 : Fin 1)) = (ρ : EReal)

/-- The result tile holds the specification's value at every query position of tile `q`. -/
def Done1 (q : ℕ) (hq : q < 16) (st : St1) : Prop :=
  ∀ (b : Fin 4) (r : Fin 256) (d : Fin 1024),
    st.1 (ix3 b r d) = Cert.Spec.attn (Srow (Qarr V c) (Karr V c) b (tcol q hq r)) (fun s => Varr V c (ix3 b s d))

variable {V c} in
theorem Good1.congr {q q' kk kk' : ℕ} {hq : q < 16} {st : St1} (h : Good1 V c q kk hq st) (eq : q = q') (ek : kk = kk') :
    Good1 V c q' kk' (eq ▸ hq) st := by subst eq; subst ek; exact h

variable {V c} in
theorem Done1.congr {q q' : ℕ} {hq : q < 16} {st : St1} (h : Done1 V c q hq st) (eq : q = q') :
    Done1 V c q' (eq ▸ hq) st := by subst eq; exact h

section
variable (hQ : ∀ i, ∃ ρ : ℝ, Qarr V c i = (ρ : EReal)) (hK : ∀ i, ∃ ρ : ℝ, Karr V c i = (ρ : EReal))
  (hV : ∀ i, ∃ ρ : ℝ, Varr V c i = (ρ : EReal))
include hQ hK hV

/-- The blocks at point `t`, on or below the diagonal, in the form one fold step takes them. -/
theorem blocks1_at (n : ℕ) (hn : n < cfg1.N) (hkq : n % 16 ≤ n / 16) :
    (∀ (b : Fin 4) (r : Fin 256) (d : Fin 1024), (iblk1 V c 0 ⟨n, hn⟩ : S4x256x1024.Idx → EReal) (ix3 b r d) = Qarr V c (ix3 b (tcol (n / 16) (qlt ⟨n, hn⟩) r) d))
    ∧ (∀ (b : Fin 4) (j : Fin 256) (d : Fin 1024), (iblk1 V c 1 ⟨n, hn⟩ : S4x256x1024.Idx → EReal) (ix3 b j d) = Karr V c (ix3 b (tcol (n % 16) (Nat.mod_lt _ (by decide)) j) d))
    ∧ (∀ (b : Fin 4) (j : Fin 256) (d : Fin 1024), (iblk1 V c 2 ⟨n, hn⟩ : S4x256x1024.Idx → EReal) (ix3 b j d) = Varr V c (ix3 b (tcol (n % 16) (Nat.mod_lt _ (by decide)) j) d)) := by
  refine ⟨fun b r d => iblk1_0_at V c ⟨n, hn⟩ b r d, fun b j d => ?_, fun b j d => ?_⟩
  · exact (iblk1_1_at V c ⟨n, hn⟩ b j d).trans (congrArg (fun p => Karr V c (ix3 b p d)) (Fin.ext (by
      show 256 * min (n % 16) (n / 16) + j.val = 256 * (n % 16) + j.val; rw [Nat.min_eq_left hkq])))
  · exact (iblk1_2_at V c ⟨n, hn⟩ b j d).trans (congrArg (fun p => Varr V c (ix3 b p d)) (Fin.ext (by
      show 256 * min (n % 16) (n / 16) + j.val = 256 * (n % 16) + j.val; rw [Nat.min_eq_left hkq])))

/-- ONE POINT on or below the diagonal: from the state over the key tiles before `t % 16` to the state with that tile
    folded in, whatever the result tile holds. -/
theorem fold_good1 (n : ℕ) (hn : n < cfg1.N) (hkq : n % 16 ≤ n / 16) (X : Vec Ideal S4x256x1024 .f32)
    (mm ll : Vec Ideal S4x256x1 .f32) (aa : Vec Ideal S4x256x1024 .f32)
    (hprev : ∀ (b : Fin 4) (r : Fin 256) (d : Fin 1024),
      Inv (Srow (Qarr V c) (Karr V c) b (tcol (n / 16) (qlt ⟨n, hn⟩) r)) (Vcol (Varr V c) b d) (seen (n % 16))
        (mm (ix3 b r (0 : Fin 1))) (ll (ix3 b r (0 : Fin 1))) (aa (ix3 b r d))) :
    Good1 V c (n / 16) (n % 16 + 1) (qlt ⟨n, hn⟩)
      (X, k1_pay5 (F := Ideal) (k1_pay8 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm),
        k1_pay11 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm ll,
        k1_pay4 (F := Ideal) (k1_pay9 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm)
          (k1_pay10 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm) aa (iblk1 V c 2 ⟨n, hn⟩)) := by
  have c0 : (grid1.coords ⟨n, hn⟩ 0).val = n / 16 := (coords1 ⟨n, hn⟩).1
  have c1 : (grid1.coords ⟨n, hn⟩ 1).val = n % 16 := (coords1 ⟨n, hn⟩).2
  rw [c0, c1]
  obtain ⟨hxq, hxk, hxv⟩ := blocks1_at V c hQ hK hV n hn hkq
  have key := fun (b : Fin 4) (r : Fin 256) => fold_step (Qa := Qarr V c) (Ka := Karr V c) (Va := Varr V c) hQ hK hV (n / 16) (n % 16) (qlt ⟨n, hn⟩) hkq (Nat.mod_lt _ (by decide))
    (iblk1 V c 0 ⟨n, hn⟩) (iblk1 V c 1 ⟨n, hn⟩) (iblk1 V c 2 ⟨n, hn⟩) mm ll aa hxq hxk hxv b r (fun d => hprev b r d)
  exact ⟨fun b r d => (key b r).1 d, fun b r => (key b r).2⟩

/-- THE DIAGONAL POINT also stores the quotient, which is the specification's value. -/
theorem fold_done1 (n : ℕ) (hn : n < cfg1.N) (hkq : n % 16 = n / 16)
    (mm ll : Vec Ideal S4x256x1 .f32) (aa : Vec Ideal S4x256x1024 .f32)
    (hprev : ∀ (b : Fin 4) (r : Fin 256) (d : Fin 1024),
      Inv (Srow (Qarr V c) (Karr V c) b (tcol (n / 16) (qlt ⟨n, hn⟩) r)) (Vcol (Varr V c) b d) (seen (n % 16))
        (mm (ix3 b r (0 : Fin 1))) (ll (ix3 b r (0 : Fin 1))) (aa (ix3 b r d)))
    (b : Fin 4) (r : Fin 256) (d : Fin 1024) :
    k1_pay6 (F := Ideal)
        (k1_pay4 (F := Ideal) (k1_pay9 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm)
          (k1_pay10 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm) aa (iblk1 V c 2 ⟨n, hn⟩))
        (k1_pay11 (F := Ideal) (BitVec.ofNat 32 (grid1.coords ⟨n, hn⟩ 0).val) (BitVec.ofNat 32 (grid1.coords ⟨n, hn⟩ 1).val) (iblk1 V c 0 ⟨n, hn⟩) (iblk1 V c 1 ⟨n, hn⟩) mm ll) (ix3 b r d)
      = Cert.Spec.attn (Srow (Qarr V c) (Karr V c) b (tcol (n / 16) (qlt ⟨n, hn⟩) r)) (fun s => Varr V c (ix3 b s d)) := by
  obtain ⟨hinv, hreal⟩ := fold_good1 V c hQ hK hV n hn (le_of_eq hkq) aa mm ll aa hprev
  have hi := hinv b r d
  rw [hkq] at hi
  exact out_eq (Qa := Qarr V c) (Ka := Karr V c) (Va := Varr V c) hQ hK hV (n / 16) (qlt ⟨n, hn⟩) _ _ _ b r d hi (hreal b r)
/-- The state after position `n`: the first `min (n % 16) (n / 16) + 1` key tiles are folded in, and from the diagonal
    on the result tile holds the specification's value. -/
def P1 (n : ℕ) (hn : n < cfg1.N) : Prop :=
  Good1 V c (n / 16) (min (n % 16) (n / 16) + 1) (qlt ⟨n, hn⟩) (outsAt1 V c n hn)
  ∧ (n / 16 ≤ n % 16 → Done1 V c (n / 16) (qlt ⟨n, hn⟩) (outsAt1 V c n hn))

/-- The reset's constants are the state over no key tile. -/
theorem reset_prev1 (n : ℕ) (hn : n < cfg1.N) (h0 : n % 16 = 0) (b : Fin 4) (r : Fin 256) (d : Fin 1024) :
    Inv (Srow (Qarr V c) (Karr V c) b (tcol (n / 16) (qlt ⟨n, hn⟩) r)) (Vcol (Varr V c) b d) (seen (n % 16))
      (k1_pay1 (F := Ideal) (ix3 b r (0 : Fin 1))) (k1_pay2 (F := Ideal) (ix3 b r (0 : Fin 1))) (k1_pay3 (F := Ideal) (ix3 b r d)) := by
  rw [h0]
  exact reset_inv _ _ _ _ _

/-- The state of the row's previous point is the state this point folds from. -/
theorem prev_inv1 (n : ℕ) (hn : n + 1 < cfg1.N) (h0 : ¬(n + 1) % 16 = 0) (h1 : (n + 1) % 16 ≤ (n + 1) / 16)
    (ih : P1 V c n (Nat.lt_of_succ_lt hn)) (b : Fin 4) (r : Fin 256) (d : Fin 1024) :
    Inv (Srow (Qarr V c) (Karr V c) b (tcol ((n + 1) / 16) (qlt ⟨n + 1, hn⟩) r)) (Vcol (Varr V c) b d) (seen ((n + 1) % 16))
      ((outsAt1 V c n (Nat.lt_of_succ_lt hn)).2.1 (ix3 b r (0 : Fin 1))) ((outsAt1 V c n (Nat.lt_of_succ_lt hn)).2.2.1 (ix3 b r (0 : Fin 1)))
      ((outsAt1 V c n (Nat.lt_of_succ_lt hn)).2.2.2 (ix3 b r d)) :=
  (ih.1.congr (q' := (n + 1) / 16) (kk' := (n + 1) % 16) (by omega) (by omega)).1 b r d

theorem inv1 : ∀ (n : ℕ) (hn : n < cfg1.N), P1 V c n hn
  | 0, hn => by
    have e : outsAt1 V c 0 hn = _ := outsAt1_A V c ⟨0, hn⟩ rfl
    rw [out1_A_3_eq, sout1_A_0_eq, sout1_A_1_eq, sout1_A_2_eq] at e
    unfold P1
    rw [e]
    exact ⟨fold_good1 V c hQ hK hV 0 hn (by decide) _ _ _ _ (reset_prev1 V c hQ hK hV 0 hn rfl),
      fun _ => fold_done1 V c hQ hK hV 0 hn rfl _ _ _ (reset_prev1 V c hQ hK hV 0 hn rfl)⟩
  | n + 1, hn => by
    have ih := inv1 n (Nat.lt_of_succ_lt hn)
    have hN : n + 1 < 256 := lt_N1 ⟨n + 1, hn⟩
    unfold P1
    by_cases h0 : (n + 1) % 16 = 0
    · -- a row's first point: reset, then the first key tile
      have e : outsAt1 V c (n + 1) hn = _ := outsAt1_B V c ⟨n + 1, hn⟩ (Nat.succ_ne_zero n) h0
      rw [sout1_B_0_eq, sout1_B_1_eq, sout1_B_2_eq] at e
      rw [e]
      exact ⟨(fold_good1 V c hQ hK hV (n + 1) hn (by omega) _ _ _ _ (reset_prev1 V c hQ hK hV (n + 1) hn h0)).congr rfl (by omega),
        fun h => absurd h (by omega)⟩
    · by_cases h1 : (n + 1) % 16 ≤ (n + 1) / 16
      · by_cases h2 : (n + 1) % 16 = (n + 1) / 16
        · -- the diagonal point: fold, and store the quotient
          have e : outsAt1 V c (n + 1) hn = _ := outsAt1_D V c ⟨n + 1, hn⟩ h0 h1 h2
          rw [out1_D_3_eq, sout1_D_0_eq, sout1_D_1_eq, sout1_D_2_eq] at e
          rw [e]
          exact ⟨(fold_good1 V c hQ hK hV (n + 1) hn h1 _ _ _ _ (prev_inv1 V c hQ hK hV n hn h0 h1 ih)).congr rfl (by omega),
            fun _ => fold_done1 V c hQ hK hV (n + 1) hn h2 _ _ _ (prev_inv1 V c hQ hK hV n hn h0 h1 ih)⟩
        · -- below the diagonal: fold
          have e : outsAt1 V c (n + 1) hn = _ := outsAt1_C V c ⟨n + 1, hn⟩ h0 h1 h2
          rw [sout1_C_0_eq, sout1_C_1_eq, sout1_C_2_eq] at e
          rw [e]
          exact ⟨(fold_good1 V c hQ hK hV (n + 1) hn h1 _ _ _ _ (prev_inv1 V c hQ hK hV n hn h0 h1 ih)).congr rfl (by omega),
            fun h => absurd h (by omega)⟩
      · -- above the diagonal: nothing is stored
        have e : outsAt1 V c (n + 1) hn = outsAt1 V c n (Nat.lt_of_succ_lt hn) := outsAt1_E V c ⟨n + 1, hn⟩ h0 h1
        rw [e]
        exact ⟨ih.1.congr (by omega) (by omega), fun h => (ih.2 (by omega)).congr (by omega)⟩

/-! ## The result array -/

/-- The specification's result, index by index, from the arrays the region finds. -/
def Gattn : S4x4096x1024.Idx → EReal := fun i =>
  Cert.Spec.attn (Srow (Qarr V c) (Karr V c) (i 0) (i 1)) (fun s => Varr V c (ix3 (i 0) s (i 2)))

/-- A row's last point writes back the specification's values of its query tile. -/
theorem flushed1_3 (t : Fin cfg1.N) (h15 : t.val % 16 = 15) :
    (dat1 V c).flushed 3 t = ((cfg1.win 3).blk t).view.read (Elt Ideal) (Gattn V c) := by
  show (cfg1.win 3).cut (grid1.coords t) ((dat1 V c).after 3 t) = _
  rw [after1_3]
  funext y
  obtain ⟨b, r, d, rfl⟩ : ∃ (b : Fin 4) (r : Fin 256) (d : Fin 1024), y = ix3 b r d := ⟨y 0, y 1, y 2, eq_ix3 y⟩
  rw [View.read_apply, emb1_3]
  have hN := lt_N1 t
  exact (inv1 V c hQ hK hV t.val t.isLt).2 (by omega) b r d

end

/-- THE RESULT ARRAY after the region: the softmax of each causal row of scores applied to the value rows. -/
theorem final1_3 (hQ : ∀ i, ∃ ρ : ℝ, (V c main_v6_0 : S4x4096x1024.Idx → EReal) i = (ρ : EReal))
    (hK : ∀ i, ∃ ρ : ℝ, (V c main_v6_1 : S4x4096x1024.Idx → EReal) i = (ρ : EReal))
    (hV : ∀ i, ∃ ρ : ℝ, (V c main_v6_2 : S4x4096x1024.Idx → EReal) i = (ρ : EReal)) :
    (dat1 (F := Ideal) V c).arrAt 3 cfg1.N = fun i =>
      Cert.Spec.attn (Srow (V c main_v6_0) (V c main_v6_1) (i 0) (i 1)) (fun t => (V c main_v6_2 : S4x4096x1024.Idx → EReal) (ix3 (i 0) t (i 2))) :=
  (dat1 V c).arrAt_eq_of_cover 3 (Gattn V c) (fun t hf => flushed1_3 V c hQ hK hV t ((flush1_3 t).mp hf)) cover1_3

end Cert.KernelIdeal.Hand

end
-- ==== Proof.KernelIdeal.Pay0.lean ====
/-
  The projection kernel's arithmetic, read at an index, on the extended reals.

  At a grid point the body holds a [1, 1024, 1024] tile `x` of the activations, the [1024, 3072] weight `w`, the
  [3072] bias `β` and the [1024, 512] tiles `c`, `s` of the angle tables. Its accumulator is
  `acc[r, n] = Σ_m x[0, r, m] · w[m, n] + β[n]`: on the extended reals the narrowing casts are the identity and the
  matrix product into a zero accumulator is the plain sum. Columns `[0, 1024)` of `acc` are the queries,
  `[1024, 2048)` the keys, `[2048, 3072)` the values. Queries and keys are stored rotated: with a row of the third
  split into halves `(p0, p1)`, the stored row is `(p0 · c − p1 · s, p0 · s + p1 · c)`; values are stored as they are.
-/
import proofs.«116248_j65103114273198_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-- The accumulator at row `r`, column `n`, from the loaded blocks. -/
def accAt (x : S1x1024x1024.Idx → EReal) (w : S1024x3072.Idx → EReal) (β : S3072.Idx → EReal) (r : Fin 1024) (n : Fin 3072) : EReal :=
  (∑ m : Fin 1024, x (ix3 (0 : Fin 1) r m) * w (ix2 m n)) + β (ix1 n)

theorem lhs_row (i : S1024x3072.Idx) (q : dot_S1024x1024_S1024x3072_S1024x3072_1_0_0_1_n_n.contr.Idx) : (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
theorem lhs_contr (i : S1024x3072.Idx) (q : dot_S1024x1024_S1024x3072_S1024x3072_1_0_0_1_n_n.contr.Idx) : (dot_S1024x1024_S1024x3072_S1024x3072_1_0_0_1_n_n.lhsIdx i q 1).val = (q ⟨0, by decide⟩).val :=
  dot_S1024x1024_S1024x3072_S1024x3072_1_0_0_1_n_n.lhsIdx_val_of_single rfl i q
theorem rhs_contr (i : S1024x3072.Idx) (q : dot_S1024x1024_S1024x3072_S1024x3072_1_0_0_1_n_n.contr.Idx) : (dot_S1024x1024_S1024x3072_S1024x3072_1_0_0_1_n_n.rhsIdx i q 0).val = (q ⟨0, by decide⟩).val :=
  dot_S1024x1024_S1024x3072_S1024x3072_1_0_0_1_n_n.rhsIdx_val_of_single rfl i q
theorem rhs_col (i : S1024x3072.Idx) (q : dot_S1024x1024_S1024x3072_S1024x3072_1_0_0_1_n_n.contr.Idx) : (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl

/-- The block product into a zero accumulator, at an index: the sum over the contracted axis. -/
theorem matmul_at (a : FVec Ideal S1024x1024 .bf16) (w : FVec Ideal S1024x3072 .bf16) (r : Fin 1024) (n : Fin 3072) :
    matmul (F := Ideal) dot_S1024x1024_S1024x3072_S1024x3072_1_0_0_1_n_n none a w (constant S1024x3072 .f32 0x00000000#32) (ix2 r n)
      = ∑ m : Fin 1024, a (ix2 r m) * w (ix2 m n) := by
  show FloatOps.matmul dot_S1024x1024_S1024x3072_S1024x3072_1_0_0_1_n_n none a w (constant S1024x3072 .f32 0x00000000#32) (ix2 r n) = _
  rw [Ideal.matmul_constant_zero_apply, ← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 r n) ((contrEquiv1 dot_S1024x1024_S1024x3072_S1024x3072_1_0_0_1_n_n 1024 rfl rfl).symm k) = ix2 r k := funext fun a => Fin.ext (by
    match a with
    | ⟨0, _⟩ => exact lhs_row _ _
    | ⟨1, _⟩ => exact (lhs_contr _ _).trans hk)
  have er : dot_S1024x1024_S1024x3072_S1024x3072_1_0_0_1_n_n.rhsIdx (ix2 r n) ((contrEquiv1 dot_S1024x1024_S1024x3072_S1024x3072_1_0_0_1_n_n 1024 rfl rfl).symm k) = ix2 k n := funext fun a => Fin.ext (by
    match a with
    | ⟨0, _⟩ => exact (rhs_contr _ _).trans hk
    | ⟨1, _⟩ => exact rhs_col _ _)
  rw [el, er]

/-- The accumulator the body computes, at an index. -/
theorem pay0_3_at (v0 : Vec Ideal S1x1024x1024 .f32) (v3 : Vec Ideal S1024x3072 .bf16) (v6 : Vec Ideal S3072 .f32) (r : Fin 1024) (n : Fin 3072) :
    k0_pay3 (F := Ideal) v0 v3 v6 (ix2 r n) = accAt v0 v3 v6 r n := by
  unfold k0_pay3 accAt
  rw [addf_apply, matmul_at, broadcastTo_1b_ab_apply, shapeCast_a_1a_apply, shapeCast_self, shapeCast_self]
  refine congrArg (· + _) (Finset.sum_congr rfl fun m _ => ?_)
  rw [truncf_apply, shapeCast_1ab_ab_apply]

/-- A row `(p0, p1)` rotated by the angle tables: `(p0 · c − p1 · s, p0 · s + p1 · c)`, column by column. -/
def ropeAt (P : Fin 1024 → Fin 1024 → EReal) (c s : S1024x512.Idx → EReal) (r j : Fin 1024) : EReal :=
  if h : j.val < 512 then
    P r ⟨j.val, by omega⟩ * c (ix2 r ⟨j.val, h⟩) - P r ⟨j.val + 512, by omega⟩ * s (ix2 r ⟨j.val, h⟩)
  else
    P r ⟨j.val - 512, by omega⟩ * s (ix2 r ⟨j.val - 512, by omega⟩)
      + P r ⟨j.val, j.isLt⟩ * c (ix2 r ⟨j.val - 512, by omega⟩)

/-- The rotation as the body spells it — the halves cut out, multiplied, recombined, laid side by side, narrowed and
    given a leading unit axis — read at an index. -/
theorem rope_at (P : FVec Ideal S1024x1024 .f32) (c s : Vec Ideal S1024x512 .f32) (u : Fin 1) (r j : Fin 1024) :
    shapeCast S1x1024x1024 (truncf (F := Ideal) .bf16 (concatenate S1024x1024 1
      [⟨S1024x512, subf (mulf (extractStridedSlice S1024x512 ![0, 0] P slices_S1024x1024_o0_0_S1024x512) c) (mulf (extractStridedSlice S1024x512 ![0, 512] P slices_S1024x1024_o0_512_S1024x512) s)⟩,
       ⟨S1024x512, addf (mulf (extractStridedSlice S1024x512 ![0, 0] P slices_S1024x1024_o0_0_S1024x512) s) (mulf (extractStridedSlice S1024x512 ![0, 512] P slices_S1024x1024_o0_512_S1024x512) c)⟩]
      concatenates_S1024x512_S1024x512_S1024x1024_d1) bitsLt_bf16_f32) shapeCasts_S1024x1024_S1x1024x1024 (ix3 u r j)
      = ropeAt (fun r k => P (ix2 r k)) c s r j := by
  rw [shapeCast_ab_1ab_apply, truncf_apply]
  unfold ropeAt
  by_cases h : j.val < 512
  · rw [dif_pos h, concatenate_pair_apply_left (s₁ := S1024x512) (s₂ := S1024x512) 1 _ _ _ (ix2 r j) rfl (ix2 r ⟨j.val, h⟩) (fun b => by
      match b with
      | ⟨0, _⟩ => rfl
      | ⟨1, _⟩ => rfl)]
    rw [subf_apply, mulf_apply, mulf_apply,
      slice2_axis1_apply (m := 512) 0 P _ r ⟨j.val, h⟩ ⟨j.val, by omega⟩ (Nat.zero_add _).symm,
      slice2_axis1_apply (m := 512) 512 P _ r ⟨j.val, h⟩ ⟨j.val + 512, by omega⟩ (Nat.add_comm _ _)]
  · have hj : j.val < 1024 := j.isLt
    rw [dif_neg h, concatenate_pair_apply_right (s₁ := S1024x512) (s₂ := S1024x512) 1 _ _ _ (ix2 r j) rfl rfl (ix2 r ⟨j.val - 512, by omega⟩) (fun b hb => by
      match b with
      | ⟨0, _⟩ => rfl
      | ⟨1, _⟩ => exact absurd rfl hb) (by show j.val - 512 + 512 = j.val; omega)]
    rw [addf_apply, mulf_apply, mulf_apply,
      slice2_axis1_apply (m := 512) 0 P _ r ⟨j.val - 512, by omega⟩ ⟨j.val - 512, by omega⟩ (Nat.zero_add _).symm,
      slice2_axis1_apply (m := 512) 512 P _ r ⟨j.val - 512, by omega⟩ ⟨j.val, hj⟩ (by show j.val = 512 + (j.val - 512); omega)]

/-- A third of the accumulator's columns, cut out at column offset `o`, at an index. -/
theorem third_at (A : FVec Ideal S1024x3072 .f32) (o : ℕ) (h : S1024x3072.Slices ![0, o] S1024x1024) (hb : o + 1024 ≤ 3072) (r k : Fin 1024) :
    extractStridedSlice S1024x1024 ![0, o] A h (ix2 r k) = A (ix2 r ⟨o + k.val, by have := k.isLt; omega⟩) :=
  slice2_axis1_apply o A h r k _ rfl

/-- Third `o` of the accumulator's columns: queries (0), keys (1), values (2). -/
def accThird (x : S1x1024x1024.Idx → EReal) (w : S1024x3072.Idx → EReal) (β : S3072.Idx → EReal) (o : Fin 3) (r k : Fin 1024) : EReal :=
  accAt x w β r ⟨1024 * o.val + k.val, by have := o.isLt; have := k.isLt; omega⟩

/-- What the body stores as the queries' block: the first third of the accumulator, rotated. -/
theorem pay0_5_at (v0 : Vec Ideal S1x1024x1024 .f32) (v3 : Vec Ideal S1024x3072 .bf16) (v6 : Vec Ideal S3072 .f32) (v14 v15 : Vec Ideal S1024x512 .f32)
    (u : Fin 1) (r j : Fin 1024) :
    k0_pay5 (F := Ideal) v0 v3 v6 v14 v15 (ix3 u r j)
      = ropeAt (accThird v0 v3 v6 0) v14 v15 r j := by
  unfold k0_pay5
  refine (rope_at _ v14 v15 u r j).trans ?_
  refine congrArg (fun P => ropeAt P v14 v15 r j) (funext fun r => funext fun k => ?_)
  rw [third_at _ 0 _ (by omega), pay0_3_at]
  rfl

/-- What the body stores as the keys' block: the second third of the accumulator, rotated. -/
theorem pay0_6_at (v0 : Vec Ideal S1x1024x1024 .f32) (v3 : Vec Ideal S1024x3072 .bf16) (v6 : Vec Ideal S3072 .f32) (v14 v15 : Vec Ideal S1024x512 .f32)
    (u : Fin 1) (r j : Fin 1024) :
    k0_pay1 (F := Ideal) (k0_pay6 v0 v3 v6 v14 v15) (ix3 u r j)
      = ropeAt (accThird v0 v3 v6 1) v14 v15 r j := by
  unfold k0_pay1 k0_pay6
  refine (rope_at _ v14 v15 u r j).trans ?_
  refine congrArg (fun P => ropeAt P v14 v15 r j) (funext fun r => funext fun k => ?_)
  rw [third_at _ 1024 _ (by omega), pay0_3_at]
  rfl

/-- What the body stores as the values' block: the last third of the accumulator. -/
theorem pay0_7_at (v0 : Vec Ideal S1x1024x1024 .f32) (v3 : Vec Ideal S1024x3072 .bf16) (v6 : Vec Ideal S3072 .f32)
    (u : Fin 1) (r k : Fin 1024) :
    k0_pay2 (F := Ideal) (k0_pay4 v0 v3 v6) (ix3 u r k) = accThird v0 v3 v6 2 r k := by
  unfold k0_pay2 k0_pay4
  rw [shapeCast_ab_1ab_apply, truncf_apply, third_at _ 2048 _ (by omega), pay0_3_at]
  rfl

end Cert.KernelIdeal.Hand

end
-- ==== Proof.KernelIdeal.Value0.lean ====
/-
  What the projection region leaves in its three output arrays, on the extended reals.

  The grid's point `t` is the pair (sequence tile `t / 4`, batch `t % 4`). Its activations block is rows
  `1024 · (t / 4) … + 1023` of batch `t % 4`; the weight and the bias are whole at every point; the angle tables'
  blocks are rows `1024 · (t / 4) … + 1023`. Each output's block at `t` sits where the activations' block does, and
  the sixteen blocks tile the [4, 4096, 1024] array. So each output array ends as ONE function of the arrays the region
  found: the affine projection against a third of the concatenated weight's columns, rotated for queries and keys.
-/
import proofs.«116248_j65103114273198_2_alg».proof.Proof.KernelIdeal.Region0
import proofs.«116248_j65103114273198_2_alg».proof.Proof.KernelIdeal.Pay0
import proofs.«116248_j65103114273198_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The affine projection against third `o` of the concatenated weight's columns: row `(b, s)` of the activations
    against column `1024 · o + k`, plus that entry of the concatenated bias. -/
def projCat (x : S4x4096x1024.Idx → EReal) (wcat : S1024x3072.Idx → EReal) (bcat : S3072.Idx → EReal) (o : Fin 3)
    (b : Fin 4) (s : Fin 4096) (k : Fin 1024) : EReal :=
  (∑ m : Fin 1024, x (ix3 b s m) * wcat (ix2 m ⟨1024 * o.val + k.val, by have := o.isLt; have := k.isLt; omega⟩))
    + bcat (ix1 ⟨1024 * o.val + k.val, by have := o.isLt; have := k.isLt; omega⟩)

theorem hz0_3 : (![0, 0, 0] : Fin 3 → Nat) = fun _ => 0 := funext fun a => by fin_cases a <;> rfl
theorem hz0_2 : (![0, 0] : Fin 2 → Nat) = fun _ => 0 := funext fun a => by fin_cases a <;> rfl
theorem hz0_1 : (![0] : Fin 1 → Nat) = fun _ => 0 := funext fun a => by fin_cases a <;> rfl

/-- The printed index maps, decided over the sixteen points: batch `t % 4`, sequence tile `t / 4`. -/
theorem idx_facts0 : ∀ t : Fin cfg0.N,
    win0_0.index t (0 : Fin 3) = t.val % 4 ∧ win0_0.index t (1 : Fin 3) = t.val / 4 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 3) = t.val % 4 ∧ win0_5.index t (1 : Fin 3) = t.val / 4 ∧ win0_5.index t (2 : Fin 3) = 0
    ∧ win0_6.index t (0 : Fin 3) = t.val % 4 ∧ win0_6.index t (1 : Fin 3) = t.val / 4 ∧ win0_6.index t (2 : Fin 3) = 0
    ∧ win0_7.index t (0 : Fin 3) = t.val % 4 ∧ win0_7.index t (1 : Fin 3) = t.val / 4 ∧ win0_7.index t (2 : Fin 3) = 0 :=
  (by decide +kernel : ∀ t : Fin grid0.N, _)

theorem lt_N0 (t : Fin cfg0.N) : t.val < 16 := lt_of_lt_of_eq t.isLt (show cfg0.N = 16 from N_0)

/-- The batch of point `t`. -/
def tB (t : Fin cfg0.N) : Fin 4 := ⟨t.val % 4, Nat.mod_lt _ (by decide)⟩
/-- Row `r` of point `t`'s sequence tile, as a position of the sequence. -/
def tS (t : Fin cfg0.N) (r : Fin 1024) : Fin 4096 := ⟨1024 * (t.val / 4) + r.val, by have := lt_N0 t; have := r.isLt; omega⟩

/-! ## The input blocks, read at coordinates -/

/-- The activations' block at point `t`: batch `t % 4`, rows `1024 · (t / 4) + r`. -/
theorem iblk0_0_at (c : Dev nD) (t : Fin cfg0.N) (u : Fin 1) (r m : Fin 1024) :
    (iblk0 V c 0 t : S1x1024x1024.Idx → EReal) (ix3 u r m) = (V c main_arg0 : S4x4096x1024.Idx → EReal) (ix3 (tB t) (tS t r) m) := by
  obtain ⟨e0, e1, e2, -⟩ := idx_facts0 t
  have hu : u.val = 0 := by omega
  unfold iblk0
  rw [View.read_apply]
  show V c main_arg0 _ = V c main_arg0 _
  congr 1
  funext a
  apply Fin.ext
  match a with
  | ⟨0, _⟩ => show win0_0.index t (0 : Fin 3) * 1 + 1 * u.val = t.val % 4; rw [e0, hu]; omega
  | ⟨1, _⟩ => show win0_0.index t (1 : Fin 3) * 1024 + 1 * r.val = 1024 * (t.val / 4) + r.val; rw [e1]; omega
  | ⟨2, _⟩ => show win0_0.index t (2 : Fin 3) * 1024 + 1 * m.val = m.val; rw [e2]; omega

/-- The weight's block is the whole concatenated weight, at every point. -/
theorem iblk0_1_eq (c : Dev nD) (t : Fin cfg0.N) : (iblk0 V c 1 t : S1024x3072.Idx → EReal) = (V c main_v4 : S1024x3072.Idx → EReal) := by
  obtain ⟨-, -, -, e0, e1, -⟩ := idx_facts0 t
  funext y
  unfold iblk0
  rw [View.read_apply]
  show V c main_v4 _ = V c main_v4 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 3072 + 1 * (y 1).val = (y 1).val; rw [e1]; omega

/-- The bias's block is the whole concatenated bias, at every point. -/
theorem iblk0_2_eq (c : Dev nD) (t : Fin cfg0.N) : (iblk0 V c 2 t : S3072.Idx → EReal) = (V c main_v5 : S3072.Idx → EReal) := by
  obtain ⟨-, -, -, -, -, e0, -⟩ := idx_facts0 t
  funext y
  unfold iblk0
  rw [View.read_apply]
  show V c main_v5 _ = V c main_v5 _
  congr 1
  funext a
  apply Fin.ext
  match a with
  | ⟨0, _⟩ => show win0_2.index t (0 : Fin 1) * 3072 + 1 * (y 0).val = (y 0).val; rw [e0]; omega

/-- The cosine table's block at point `t`: rows `1024 · (t / 4) + r`. -/
theorem iblk0_3_at (c : Dev nD) (t : Fin cfg0.N) (r : Fin 1024) (j : Fin 512) :
    (iblk0 V c 3 t : S1024x512.Idx → EReal) (ix2 r j) = (V c main_arg1 : S4096x512.Idx → EReal) (ix2 (tS t r) j) := by
  obtain ⟨-, -, -, -, -, -, e0, e1, -⟩ := idx_facts0 t
  unfold iblk0
  rw [View.read_apply]
  show V c main_arg1 _ = V c main_arg1 _
  congr 1
  funext a
  apply Fin.ext
  match a with
  | ⟨0, _⟩ => show win0_3.index t (0 : Fin 2) * 1024 + 1 * r.val = 1024 * (t.val / 4) + r.val; rw [e0]; omega
  | ⟨1, _⟩ => show win0_3.index t (1 : Fin 2) * 512 + 1 * j.val = j.val; rw [e1]; omega

/-- The sine table's block at point `t`: rows `1024 · (t / 4) + r`. -/
theorem iblk0_4_at (c : Dev nD) (t : Fin cfg0.N) (r : Fin 1024) (j : Fin 512) :
    (iblk0 V c 4 t : S1024x512.Idx → EReal) (ix2 r j) = (V c main_arg2 : S4096x512.Idx → EReal) (ix2 (tS t r) j) := by
  obtain ⟨-, -, -, -, -, -, -, -, e0, e1, -⟩ := idx_facts0 t
  unfold iblk0
  rw [View.read_apply]
  show V c main_arg2 _ = V c main_arg2 _
  congr 1
  funext a
  apply Fin.ext
  match a with
  | ⟨0, _⟩ => show win0_4.index t (0 : Fin 2) * 1024 + 1 * r.val = 1024 * (t.val / 4) + r.val; rw [e0]; omega
  | ⟨1, _⟩ => show win0_4.index t (1 : Fin 2) * 512 + 1 * j.val = j.val; rw [e1]; omega

/-- The accumulator at point `t`, row `r`, is the projection of the sequence position that row is. -/
theorem accAt_blocks (c : Dev nD) (t : Fin cfg0.N) (r : Fin 1024) (o : Fin 3) (k : Fin 1024) :
    accAt (iblk0 V c 0 t) (iblk0 V c 1 t) (iblk0 V c 2 t) r ⟨1024 * o.val + k.val, by have := o.isLt; have := k.isLt; omega⟩
      = projCat (V c main_arg0) (V c main_v4) (V c main_v5) o (tB t) (tS t r) k := by
  unfold accAt projCat
  rw [iblk0_1_eq, iblk0_2_eq]
  refine congrArg (· + _) (Finset.sum_congr rfl fun m _ => ?_)
  rw [iblk0_0_at]

/-- Third `o` of the accumulator at point `t`, row `r`, is the projection of the sequence position that row is. -/
theorem accThird_blocks (c : Dev nD) (t : Fin cfg0.N) (o : Fin 3) (r k : Fin 1024) :
    accThird (iblk0 V c 0 t) (iblk0 V c 1 t) (iblk0 V c 2 t) o r k
      = projCat (V c main_arg0) (V c main_v4) (V c main_v5) o (tB t) (tS t r) k :=
  accAt_blocks V c t r o k

/-- The rotation inside a block is the rotation of the whole arrays at the block's position. -/
theorem ropeAt_eq_rope (P : Fin 1024 → Fin 1024 → EReal) (cb sb : S1024x512.Idx → EReal)
    (P' : Fin 4 → Fin 4096 → Fin 1024 → EReal) (cos sin : Cert.Spec.SC.Idx → EReal) (b : Fin 4) (r : Fin 1024) (s : Fin 4096)
    (hP : ∀ k, P r k = P' b s k) (hc : ∀ j, cb (ix2 r j) = cos (ix2 s j)) (hs : ∀ j, sb (ix2 r j) = sin (ix2 s j)) (j : Fin 1024) :
    ropeAt P cb sb r j = Cert.Spec.rope P' cos sin b s j := by
  unfold ropeAt Cert.Spec.rope
  by_cases h : j.val < 512
  · rw [dif_pos h, dif_pos h, hP, hP, hc, hs]
  · rw [dif_neg h, dif_neg h, hP, hP, hc, hs]

/-! ## The three output arrays as whole-array functions of what the region found -/

/-- The rotated queries. -/
def Gq (c : Dev nD) : S4x4096x1024.Idx → EReal := fun i =>
  Cert.Spec.rope (projCat (V c main_arg0) (V c main_v4) (V c main_v5) 0) (V c main_arg1) (V c main_arg2) (i 0) (i 1) (i 2)
/-- The rotated keys. -/
def Gk (c : Dev nD) : S4x4096x1024.Idx → EReal := fun i =>
  Cert.Spec.rope (projCat (V c main_arg0) (V c main_v4) (V c main_v5) 1) (V c main_arg1) (V c main_arg2) (i 0) (i 1) (i 2)
/-- The values. -/
def Gv (c : Dev nD) : S4x4096x1024.Idx → EReal := fun i =>
  projCat (V c main_arg0) (V c main_v4) (V c main_v5) 2 (i 0) (i 1) (i 2)

/-- Where point `t`'s block of output 5 sits in its array: batch `t % 4`, rows `1024 · (t / 4) + r`. -/
theorem emb0_5 (t : Fin cfg0.N) (u : Fin 1) (r k : Fin 1024) :
    ((cfg0.win 5).blk t).view.emb (ix3 u r k : S1x1024x1024.Idx) = (ix3 (tB t) (tS t r) k : S4x4096x1024.Idx) := by
  have ef := idx_facts0 t
  have hu : u.val = 0 := by omega
  funext a
  apply Fin.ext
  match a with
  | ⟨0, _⟩ => show win0_5.index t (0 : Fin 3) * 1 + 1 * u.val = t.val % 4; rw [hu]; omega
  | ⟨1, _⟩ => show win0_5.index t (1 : Fin 3) * 1024 + 1 * r.val = 1024 * (t.val / 4) + r.val; omega
  | ⟨2, _⟩ => show win0_5.index t (2 : Fin 3) * 1024 + 1 * k.val = k.val; omega

/-- An index of the array is in point `t`'s block of output 5 iff each coordinate is in the block's range. -/
theorem mem_blk0_5 (t : Fin cfg0.N) (i : S4x4096x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v6_0).slice (win0_5.rect t)).set ↔ _
  rw [View.set_slice_whole, Rect.mem_set_unit]
  exact Iff.rfl

/-- The sixteen blocks of output 5 tile its array: index `(b, s, k)` is in the block of point `4 · (s / 1024) + b`. -/
theorem cover0_5 (i : S4x4096x1024.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 1024 := (i 2).isLt
  let t : Fin cfg0.N := ⟨4 * ((i 1).val / 1024) + (i 0).val, lt_of_lt_of_eq (by omega : 4 * ((i 1).val / 1024) + (i 0).val < 16) (show cfg0.N = 16 from N_0).symm⟩
  have ht : t.val = 4 * ((i 1).val / 1024) + (i 0).val := rfl
  have ef := idx_facts0 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- Where point `t`'s block of output 6 sits in its array: batch `t % 4`, rows `1024 · (t / 4) + r`. -/
theorem emb0_6 (t : Fin cfg0.N) (u : Fin 1) (r k : Fin 1024) :
    ((cfg0.win 6).blk t).view.emb (ix3 u r k : S1x1024x1024.Idx) = (ix3 (tB t) (tS t r) k : S4x4096x1024.Idx) := by
  have ef := idx_facts0 t
  have hu : u.val = 0 := by omega
  funext a
  apply Fin.ext
  match a with
  | ⟨0, _⟩ => show win0_6.index t (0 : Fin 3) * 1 + 1 * u.val = t.val % 4; rw [hu]; omega
  | ⟨1, _⟩ => show win0_6.index t (1 : Fin 3) * 1024 + 1 * r.val = 1024 * (t.val / 4) + r.val; omega
  | ⟨2, _⟩ => show win0_6.index t (2 : Fin 3) * 1024 + 1 * k.val = k.val; omega

/-- An index of the array is in point `t`'s block of output 6 iff each coordinate is in the block's range. -/
theorem mem_blk0_6 (t : Fin cfg0.N) (i : S4x4096x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v6_1).slice (win0_6.rect t)).set ↔ _
  rw [View.set_slice_whole, Rect.mem_set_unit]
  exact Iff.rfl

/-- The sixteen blocks of output 6 tile its array: index `(b, s, k)` is in the block of point `4 · (s / 1024) + b`. -/
theorem cover0_6 (i : S4x4096x1024.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 1024 := (i 2).isLt
  let t : Fin cfg0.N := ⟨4 * ((i 1).val / 1024) + (i 0).val, lt_of_lt_of_eq (by omega : 4 * ((i 1).val / 1024) + (i 0).val < 16) (show cfg0.N = 16 from N_0).symm⟩
  have ht : t.val = 4 * ((i 1).val / 1024) + (i 0).val := rfl
  have ef := idx_facts0 t
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-- Where point `t`'s block of output 7 sits in its array: batch `t % 4`, rows `1024 · (t / 4) + r`. -/
theorem emb0_7 (t : Fin cfg0.N) (u : Fin 1) (r k : Fin 1024) :
    ((cfg0.win 7).blk t).view.emb (ix3 u r k : S1x1024x1024.Idx) = (ix3 (tB t) (tS t r) k : S4x4096x1024.Idx) := by
  have ef := idx_facts0 t
  have hu : u.val = 0 := by omega
  funext a
  apply Fin.ext
  match a with
  | ⟨0, _⟩ => show win0_7.index t (0 : Fin 3) * 1 + 1 * u.val = t.val % 4; rw [hu]; omega
  | ⟨1, _⟩ => show win0_7.index t (1 : Fin 3) * 1024 + 1 * r.val = 1024 * (t.val / 4) + r.val; omega
  | ⟨2, _⟩ => show win0_7.index t (2 : Fin 3) * 1024 + 1 * k.val = k.val; omega

/-- An index of the array is in point `t`'s block of output 7 iff each coordinate is in the block's range. -/
theorem mem_blk0_7 (t : Fin cfg0.N) (i : S4x4096x1024.Idx) :
    i ∈ ((cfg0.win 7).blk t).view.set ↔ ∀ a : Fin 3, win0_7.index t a * S1x1024x1024.size a ≤ (i a).val ∧ (i a).val < win0_7.index t a * S1x1024x1024.size a + S1x1024x1024.size a := by
  show i ∈ ((View.whole main_v6_2).slice (win0_7.rect t)).set ↔ _
  rw [View.set_slice_whole, Rect.mem_set_unit]
  exact Iff.rfl

/-- The sixteen blocks of output 7 tile its array: index `(b, s, k)` is in the block of point `4 · (s / 1024) + b`. -/
theorem cover0_7 (i : S4x4096x1024.Idx) : ∃ t : Fin cfg0.N, (cfg0.win 7).flush t = true ∧ i ∈ ((cfg0.win 7).blk t).view.set := by
  have h0 : (i 0).val < 4 := (i 0).isLt
  have h1 : (i 1).val < 4096 := (i 1).isLt
  have h2 : (i 2).val < 1024 := (i 2).isLt
  let t : Fin cfg0.N := ⟨4 * ((i 1).val / 1024) + (i 0).val, lt_of_lt_of_eq (by omega : 4 * ((i 1).val / 1024) + (i 0).val < 16) (show cfg0.N = 16 from N_0).symm⟩
  have ht : t.val = 4 * ((i 1).val / 1024) + (i 0).val := rfl
  have ef := idx_facts0 t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

/-! ## What each point writes back -/

/-- Point `t` writes back its block of the rotated queries. -/
theorem flushed0_5 (c : Dev nD) (t : Fin cfg0.N) :
    (dat0 V c).flushed 5 t = ((cfg0.win 5).blk t).view.read (Elt Ideal) (Gq V c) := by
  show (cfg0.win 5).cut (grid0.coords t) ((dat0 V c).after 5 t) = _
  rw [after0_5]
  unfold out0_5
  rw [View.canon_unit_zero hz0_3]
  simp only [View.ld_unit_zero (S := S1x1024x1024) hz0_3, View.ld_unit_zero (S := S1024x3072) hz0_2, View.ld_unit_zero (S := S3072) hz0_1, View.ld_unit_zero (S := S1024x512) hz0_2]
  funext y
  obtain ⟨u, r, j, rfl⟩ : ∃ (u : Fin 1) (r j : Fin 1024), y = ix3 u r j := ⟨y 0, y 1, y 2, eq_ix3 y⟩
  rw [View.read_apply, emb0_5]
  refine (pay0_5_at (iblk0 V c 0 t) (iblk0 V c 1 t) (iblk0 V c 2 t) (iblk0 V c 3 t) (iblk0 V c 4 t) u r j).trans ?_
  exact ropeAt_eq_rope (accThird (iblk0 V c 0 t) (iblk0 V c 1 t) (iblk0 V c 2 t) 0) (iblk0 V c 3 t) (iblk0 V c 4 t)
    (projCat (V c main_arg0) (V c main_v4) (V c main_v5) 0) (V c main_arg1) (V c main_arg2) (tB t) r (tS t r)
    (fun k => accThird_blocks V c t 0 r k) (fun j => iblk0_3_at V c t r j) (fun j => iblk0_4_at V c t r j) j

/-- Point `t` writes back its block of the rotated keys. -/
theorem flushed0_6 (c : Dev nD) (t : Fin cfg0.N) :
    (dat0 V c).flushed 6 t = ((cfg0.win 6).blk t).view.read (Elt Ideal) (Gk V c) := by
  show (cfg0.win 6).cut (grid0.coords t) ((dat0 V c).after 6 t) = _
  rw [after0_6]
  unfold out0_6
  rw [View.canon_unit_zero hz0_3]
  simp only [View.ld_unit_zero (S := S1x1024x1024) hz0_3, View.ld_unit_zero (S := S1024x3072) hz0_2, View.ld_unit_zero (S := S3072) hz0_1, View.ld_unit_zero (S := S1024x512) hz0_2]
  funext y
  obtain ⟨u, r, j, rfl⟩ : ∃ (u : Fin 1) (r j : Fin 1024), y = ix3 u r j := ⟨y 0, y 1, y 2, eq_ix3 y⟩
  rw [View.read_apply, emb0_6]
  refine (pay0_6_at (iblk0 V c 0 t) (iblk0 V c 1 t) (iblk0 V c 2 t) (iblk0 V c 3 t) (iblk0 V c 4 t) u r j).trans ?_
  exact ropeAt_eq_rope (accThird (iblk0 V c 0 t) (iblk0 V c 1 t) (iblk0 V c 2 t) 1) (iblk0 V c 3 t) (iblk0 V c 4 t)
    (projCat (V c main_arg0) (V c main_v4) (V c main_v5) 1) (V c main_arg1) (V c main_arg2) (tB t) r (tS t r)
    (fun k => accThird_blocks V c t 1 r k) (fun j => iblk0_3_at V c t r j) (fun j => iblk0_4_at V c t r j) j

/-- Point `t` writes back its block of the values. -/
theorem flushed0_7 (c : Dev nD) (t : Fin cfg0.N) :
    (dat0 V c).flushed 7 t = ((cfg0.win 7).blk t).view.read (Elt Ideal) (Gv V c) := by
  show (cfg0.win 7).cut (grid0.coords t) ((dat0 V c).after 7 t) = _
  rw [after0_7]
  unfold out0_7
  rw [View.canon_unit_zero hz0_3]
  simp only [View.ld_unit_zero (S := S1x1024x1024) hz0_3, View.ld_unit_zero (S := S1024x3072) hz0_2, View.ld_unit_zero (S := S3072) hz0_1]
  funext y
  obtain ⟨u, r, k, rfl⟩ : ∃ (u : Fin 1) (r k : Fin 1024), y = ix3 u r k := ⟨y 0, y 1, y 2, eq_ix3 y⟩
  rw [View.read_apply, emb0_7]
  refine (pay0_7_at (iblk0 V c 0 t) (iblk0 V c 1 t) (iblk0 V c 2 t) u r k).trans ?_
  exact accThird_blocks V c t 2 r k

/-! ## The arrays after the region -/

/-- The queries' array after the region: the first third of the projection, rotated. -/
theorem final0_5 (c : Dev nD) : (dat0 (F := Ideal) V c).arrAt 5 cfg0.N = fun i =>
    Cert.Spec.rope (projCat (V c main_arg0) (V c main_v4) (V c main_v5) 0) (V c main_arg1) (V c main_arg2) (i 0) (i 1) (i 2) :=
  (dat0 V c).arrAt_eq_of_cover 5 (Gq V c) (fun t _ => flushed0_5 V c t) cover0_5

/-- The keys' array after the region: the second third of the projection, rotated. -/
theorem final0_6 (c : Dev nD) : (dat0 (F := Ideal) V c).arrAt 6 cfg0.N = fun i =>
    Cert.Spec.rope (projCat (V c main_arg0) (V c main_v4) (V c main_v5) 1) (V c main_arg1) (V c main_arg2) (i 0) (i 1) (i 2) :=
  (dat0 V c).arrAt_eq_of_cover 6 (Gk V c) (fun t _ => flushed0_6 V c t) cover0_6

/-- The values' array after the region: the last third of the projection. -/
theorem final0_7 (c : Dev nD) : (dat0 (F := Ideal) V c).arrAt 7 cfg0.N = fun i =>
    projCat (V c main_arg0) (V c main_v4) (V c main_v5) 2 (i 0) (i 1) (i 2) :=
  (dat0 V c).arrAt_eq_of_cover 7 (Gv V c) (fun t _ => flushed0_7 V c t) cover0_7

end Cert.KernelIdeal.Hand

end
-- ==== Proof.KernelIdeal.HostPrefix.lean ====
/-
  The host operations before the projection region, read at an index on the extended reals.

  They lay the three weights, each transposed, side by side as the [1024, 3072] concatenated weight (narrowed to bf16,
  which is the identity on the extended reals) and the three biases end to end as the [3072] concatenated bias:
  column `1024 · o + k` of the concatenated weight is row `k` of weight `o`, and entry `1024 · o + k` of the
  concatenated bias is entry `k` of bias `o` (`o` = 0, 1, 2 for queries, keys, values). No host operation writes the
  activations or the angle tables. Hence each third of the region's projection is the specification's projection.
-/
import proofs.«116248_j65103114273198_2_alg».proof.Proof.Gen.KernelIdeal.Regions
import proofs.«116248_j65103114273198_2_alg».proof.Proof.KernelIdeal.Value0
import Idealize.ShloMosaic.Lib.StableHlo.Run
import Idealize.ShloMosaic.Lib.Pipeline.Value
import Idealize.ShloMosaic.Lib.ValueLayout
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The buffers the region finds: the launch contents after the host operations. -/
abbrev Vin (c : Dev nD) (b : Ref sig .tc) : Buf (Elt Ideal) ((c : Thread nD τ).loc b) := V1 m c b

/-- Weight `o` of the three: queries, keys, values. -/
def Wsel (c : Dev nD) (o : Fin 3) : S1024x1024.Idx → EReal :=
  match o with
  | 0 => m ((c : Thread nD τ).loc main_arg3)
  | 1 => m ((c : Thread nD τ).loc main_arg5)
  | 2 => m ((c : Thread nD τ).loc main_arg7)

/-- Bias `o` of the three. -/
def bsel (c : Dev nD) (o : Fin 3) : S1024.Idx → EReal :=
  match o with
  | 0 => m ((c : Thread nD τ).loc main_arg4)
  | 1 => m ((c : Thread nD τ).loc main_arg6)
  | 2 => m ((c : Thread nD τ).loc main_arg8)

/-- The concatenated weight as the host operations compute it. -/
theorem v4_eq (c : Dev nD) : (V1 m c main_v4 : S1024x3072.Idx → EReal)
    = truncf (F := Ideal) .bf16 (concatenate S1024x3072 1
        [⟨S1024x1024, transpose S1024x1024 [1, 0] (m ((c : Thread nD τ).loc main_arg3)) transposes_S1024x1024_S1024x1024_1_0⟩,
         ⟨S1024x1024, transpose S1024x1024 [1, 0] (m ((c : Thread nD τ).loc main_arg5)) transposes_S1024x1024_S1024x1024_1_0⟩,
         ⟨S1024x1024, transpose S1024x1024 [1, 0] (m ((c : Thread nD τ).loc main_arg7)) transposes_S1024x1024_S1024x1024_1_0⟩]
        concatenates_S1024x1024_S1024x1024_S1024x1024_S1024x3072_d1) bitsLt_bf16_f32 := by
  dsimp only [V1, V0, hostOps0]
  after_results
  rfl

/-- The concatenated bias as the host operations compute it. -/
theorem v5_eq (c : Dev nD) : (V1 m c main_v5 : S3072.Idx → EReal)
    = concatenate S3072 0
        [⟨S1024, m ((c : Thread nD τ).loc main_arg4)⟩, ⟨S1024, m ((c : Thread nD τ).loc main_arg6)⟩, ⟨S1024, m ((c : Thread nD τ).loc main_arg8)⟩]
        concatenates_S1024_S1024_S1024_S3072_d0 := by
  dsimp only [V1, V0, hostOps0]
  after_results
  rfl

/-- No host operation writes the activations or the angle tables. -/
theorem Vin_arg0 (c : Dev nD) : Vin m c main_arg0 = m ((c : Thread nD τ).loc main_arg0) := (V1_of m c main_arg0 (by decide)).trans rfl
theorem Vin_arg1 (c : Dev nD) : Vin m c main_arg1 = m ((c : Thread nD τ).loc main_arg1) := (V1_of m c main_arg1 (by decide)).trans rfl
theorem Vin_arg2 (c : Dev nD) : Vin m c main_arg2 = m ((c : Thread nD τ).loc main_arg2) := (V1_of m c main_arg2 (by decide)).trans rfl

/-- Three [1024, 1024] pieces laid side by side: column `1024 · p + k` is column `k` of piece `p`. -/
theorem cat3_cols (B0 B1 B2 : S1024x1024.Idx → EReal) (p : Fin 3) (mm k : Fin 1024) :
    concatenate S1024x3072 1 [⟨S1024x1024, B0⟩, ⟨S1024x1024, B1⟩, ⟨S1024x1024, B2⟩] concatenates_S1024x1024_S1024x1024_S1024x1024_S1024x3072_d1
        (ix2 mm ⟨1024 * p.val + k.val, by have := p.isLt; have := k.isLt; omega⟩)
      = (match p with | 0 => B0 | 1 => B1 | 2 => B2) (ix2 mm k) := by
  match p with
  | ⟨0, _⟩ =>
    exact concatenate_apply_piece (1 : Fin S1024x3072.rank) [⟨S1024x1024, B0⟩, ⟨S1024x1024, B1⟩, ⟨S1024x1024, B2⟩] _ _ 0 (Nat.zero_lt_succ _) S1024x1024 B0 rfl rfl 0 rfl (ix2 mm k)
      (fun b hb => by match b with | ⟨0, _⟩ => rfl | ⟨1, _⟩ => exact absurd rfl hb) (by show 0 + k.val = 1024 * 0 + k.val; omega)
  | ⟨1, _⟩ =>
    exact concatenate_apply_piece (1 : Fin S1024x3072.rank) [⟨S1024x1024, B0⟩, ⟨S1024x1024, B1⟩, ⟨S1024x1024, B2⟩] _ _ 1 (Nat.succ_lt_succ (Nat.zero_lt_succ _)) S1024x1024 B1 rfl rfl 1024 rfl (ix2 mm k)
      (fun b hb => by match b with | ⟨0, _⟩ => rfl | ⟨1, _⟩ => exact absurd rfl hb) (by show 1024 + k.val = 1024 * 1 + k.val; omega)
  | ⟨2, _⟩ =>
    exact concatenate_apply_piece (1 : Fin S1024x3072.rank) [⟨S1024x1024, B0⟩, ⟨S1024x1024, B1⟩, ⟨S1024x1024, B2⟩] _ _ 2 (Nat.succ_lt_succ (Nat.succ_lt_succ (Nat.zero_lt_succ _))) S1024x1024 B2 rfl rfl 2048 rfl (ix2 mm k)
      (fun b hb => by match b with | ⟨0, _⟩ => rfl | ⟨1, _⟩ => exact absurd rfl hb) (by show 2048 + k.val = 1024 * 2 + k.val; omega)

/-- Three [1024] pieces laid end to end: entry `1024 · p + k` is entry `k` of piece `p`. -/
theorem cat3_entries (B0 B1 B2 : S1024.Idx → EReal) (p : Fin 3) (k : Fin 1024) :
    concatenate S3072 0 [⟨S1024, B0⟩, ⟨S1024, B1⟩, ⟨S1024, B2⟩] concatenates_S1024_S1024_S1024_S3072_d0
        (ix1 ⟨1024 * p.val + k.val, by have := p.isLt; have := k.isLt; omega⟩)
      = (match p with | 0 => B0 | 1 => B1 | 2 => B2) (ix1 k) := by
  match p with
  | ⟨0, _⟩ =>
    exact concatenate_apply_piece (0 : Fin S3072.rank) [⟨S1024, B0⟩, ⟨S1024, B1⟩, ⟨S1024, B2⟩] _ _ 0 (Nat.zero_lt_succ _) S1024 B0 rfl rfl 0 rfl (ix1 k)
      (fun b hb => by match b with | ⟨0, _⟩ => exact absurd rfl hb) (by show 0 + k.val = 1024 * 0 + k.val; omega)
  | ⟨1, _⟩ =>
    exact concatenate_apply_piece (0 : Fin S3072.rank) [⟨S1024, B0⟩, ⟨S1024, B1⟩, ⟨S1024, B2⟩] _ _ 1 (Nat.succ_lt_succ (Nat.zero_lt_succ _)) S1024 B1 rfl rfl 1024 rfl (ix1 k)
      (fun b hb => by match b with | ⟨0, _⟩ => exact absurd rfl hb) (by show 1024 + k.val = 1024 * 1 + k.val; omega)
  | ⟨2, _⟩ =>
    exact concatenate_apply_piece (0 : Fin S3072.rank) [⟨S1024, B0⟩, ⟨S1024, B1⟩, ⟨S1024, B2⟩] _ _ 2 (Nat.succ_lt_succ (Nat.succ_lt_succ (Nat.zero_lt_succ _))) S1024 B2 rfl rfl 2048 rfl (ix1 k)
      (fun b hb => by match b with | ⟨0, _⟩ => exact absurd rfl hb) (by show 2048 + k.val = 1024 * 2 + k.val; omega)

/-- Column `1024 · o + k` of the concatenated weight is row `k` of weight `o`. -/
theorem v4_at (c : Dev nD) (o : Fin 3) (mm k : Fin 1024) :
    (V1 m c main_v4 : S1024x3072.Idx → EReal) (ix2 mm ⟨1024 * o.val + k.val, by have := o.isLt; have := k.isLt; omega⟩)
      = Wsel m c o (ix2 k mm) := by
  rw [v4_eq, truncf_apply, cat3_cols]
  unfold Wsel
  match o with
  | ⟨0, _⟩ => exact transpose_ix2_apply _ _ mm k
  | ⟨1, _⟩ => exact transpose_ix2_apply _ _ mm k
  | ⟨2, _⟩ => exact transpose_ix2_apply _ _ mm k

/-- Entry `1024 · o + k` of the concatenated bias is entry `k` of bias `o`. -/
theorem v5_at (c : Dev nD) (o : Fin 3) (k : Fin 1024) :
    (V1 m c main_v5 : S3072.Idx → EReal) (ix1 ⟨1024 * o.val + k.val, by have := o.isLt; have := k.isLt; omega⟩)
      = bsel m c o (ix1 k) := by
  rw [v5_eq, cat3_entries]
  unfold bsel
  match o with
  | ⟨0, _⟩ => rfl
  | ⟨1, _⟩ => rfl
  | ⟨2, _⟩ => rfl

/-- A third of the projection against concatenated operands is the projection against the operands that third holds. -/
theorem projCat_congr (x : S4x4096x1024.Idx → EReal) (wcat : S1024x3072.Idx → EReal) (bcat : S3072.Idx → EReal)
    (W : S1024x1024.Idx → EReal) (β : S1024.Idx → EReal) (o : Fin 3)
    (hW : ∀ mm k : Fin 1024, wcat (ix2 mm ⟨1024 * o.val + k.val, by have := o.isLt; have := k.isLt; omega⟩) = W (ix2 k mm))
    (hβ : ∀ k : Fin 1024, bcat (ix1 ⟨1024 * o.val + k.val, by have := o.isLt; have := k.isLt; omega⟩) = β (ix1 k)) :
    projCat x wcat bcat o = Cert.Spec.proj x W β := by
  funext b s k
  unfold projCat Cert.Spec.proj
  rw [hβ]
  refine congrArg (· + _) (Finset.sum_congr rfl fun mm _ => ?_)
  rw [hW]

/-- Third `o` of the region's projection is the specification's projection against weight and bias `o`. -/
theorem projCat_eq_proj (c : Dev nD) (o : Fin 3) :
    projCat (Vin m c main_arg0) (Vin m c main_v4) (Vin m c main_v5) o
      = Cert.Spec.proj (m ((c : Thread nD τ).loc main_arg0)) (Wsel m c o) (bsel m c o) := by
  rw [Vin_arg0]
  exact projCat_congr _ _ _ (Wsel m c o) (bsel m c o) o (v4_at m c o) (v5_at m c o)

/-! ## The region's three output arrays in the specification's terms -/

/-- The queries' array after the region. -/
theorem final0_5_spec (c : Dev nD) : (dat0 (F := Ideal) (Vin m) c).arrAt 5 cfg0.N = fun i =>
    Cert.Spec.rope (Cert.Spec.proj (m ((c : Thread nD τ).loc main_arg0)) (m ((c : Thread nD τ).loc main_arg3)) (m ((c : Thread nD τ).loc main_arg4)))
      (m ((c : Thread nD τ).loc main_arg1)) (m ((c : Thread nD τ).loc main_arg2)) (i 0) (i 1) (i 2) := by
  rw [final0_5, projCat_eq_proj, Vin_arg1, Vin_arg2]
  rfl

/-- The keys' array after the region. -/
theorem final0_6_spec (c : Dev nD) : (dat0 (F := Ideal) (Vin m) c).arrAt 6 cfg0.N = fun i =>
    Cert.Spec.rope (Cert.Spec.proj (m ((c : Thread nD τ).loc main_arg0)) (m ((c : Thread nD τ).loc main_arg5)) (m ((c : Thread nD τ).loc main_arg6)))
      (m ((c : Thread nD τ).loc main_arg1)) (m ((c : Thread nD τ).loc main_arg2)) (i 0) (i 1) (i 2) := by
  rw [final0_6, projCat_eq_proj, Vin_arg1, Vin_arg2]
  rfl

/-- The values' array after the region. -/
theorem final0_7_spec (c : Dev nD) : (dat0 (F := Ideal) (Vin m) c).arrAt 7 cfg0.N = fun i =>
    Cert.Spec.proj (m ((c : Thread nD τ).loc main_arg0)) (m ((c : Thread nD τ).loc main_arg7)) (m ((c : Thread nD τ).loc main_arg8)) (i 0) (i 1) (i 2) := by
  rw [final0_7, projCat_eq_proj]
  rfl

end Cert.KernelIdeal.Hand

end
-- ==== Proof.SpecReal.lean ====
/-
  The projections and rotations of real arrays are real.

  A projection is a finite sum of products of entries plus a bias entry; a rotated entry is a difference or a sum of two
  products of a projected entry and an angle-table entry. When every entry involved is a real number so is the result:
  the inclusion of the reals in the extended reals carries sums, differences and products to themselves.
-/
import proofs.«116248_j65103114273198_2_alg».proof.Proof.Spec

noncomputable section

namespace Cert.Spec

open Idealize.ShloMosaic Idealize.ShloMosaic.ValueIdx

/-- The inclusion of the reals carries a finite sum to the finite sum. -/
theorem coe_finsum {ι : Type} (s : Finset ι) (f : ι → ℝ) : ((∑ t ∈ s, f t : ℝ) : EReal) = ∑ t ∈ s, (f t : EReal) := by
  classical
  induction s using Finset.induction_on with
  | empty => simp
  | insert a T ha ih => rw [Finset.sum_insert ha, Finset.sum_insert ha, EReal.coe_add, ih]

/-- A projection of real activations by a real weight and bias is real. -/
theorem proj_real (x : SX.Idx → EReal) (W : SW.Idx → EReal) (bias : SB.Idx → EReal)
    (hx : ∀ i, ∃ ρ : ℝ, x i = (ρ : EReal)) (hW : ∀ i, ∃ ρ : ℝ, W i = (ρ : EReal)) (hb : ∀ i, ∃ ρ : ℝ, bias i = (ρ : EReal))
    (b : Fin 4) (s : Fin 4096) (k : Fin 1024) : ∃ ρ : ℝ, proj x W bias b s k = (ρ : EReal) := by
  choose X hX using hx
  choose Wr hWr using hW
  choose B hB using hb
  refine ⟨(∑ m : Fin 1024, X (ix3 b s m) * Wr (ix2 k m)) + B (ix1 k), ?_⟩
  unfold proj
  rw [EReal.coe_add, coe_finsum, hB]
  exact congrArg (· + (B (ix1 k) : EReal)) (Finset.sum_congr rfl fun m _ => by rw [hX, hWr, EReal.coe_mul])

/-- A rotation of real rows by real angle tables is real. -/
theorem rope_real (P : Fin 4 → Fin 4096 → Fin 1024 → EReal) (cos sin : SC.Idx → EReal)
    (hP : ∀ b s j, ∃ ρ : ℝ, P b s j = (ρ : EReal)) (hc : ∀ i, ∃ ρ : ℝ, cos i = (ρ : EReal))
    (hs : ∀ i, ∃ ρ : ℝ, sin i = (ρ : EReal)) (b : Fin 4) (s : Fin 4096) (j : Fin 1024) :
    ∃ ρ : ℝ, rope P cos sin b s j = (ρ : EReal) := by
  choose Pr hPr using hP
  choose C hC using hc
  choose Sn hSn using hs
  unfold rope
  by_cases h : j.val < 512
  · rw [dif_pos h]
    simp only [hPr, hC, hSn]
    exact ⟨_, by rw [← EReal.coe_mul, ← EReal.coe_mul, ← EReal.coe_sub]⟩
  · rw [dif_neg h]
    simp only [hPr, hC, hSn]
    exact ⟨_, by rw [← EReal.coe_mul, ← EReal.coe_mul, ← EReal.coe_add]⟩

end Cert.Spec

end
-- ==== Proof.KernelIdeal.KernelG.lean ====
/-
  The attention of the rotated queries, rotated keys and values is the specification.

  The specification's result at `(b, p, d)` is the softmax of the row of scores of batch `b`, query position `p` applied
  to column `d` of the value rows. The row of scores built from the ARRAYS of rotated queries and keys is the same row:
  an array read at the index of coordinates `(b, s, d)` is the function at `b s d`. And those arrays are real when
  the nine inputs are.
-/
import proofs.«116248_j65103114273198_2_alg».proof.Proof.KernelIdeal.FoldStep
import proofs.«116248_j65103114273198_2_alg».proof.Proof.SpecReal

noncomputable section

namespace Cert.KernelIdeal.Hand

open Cert.KernelIdeal Idealize.ShloMosaic Idealize.ShloMosaic.ValueIdx

/-- At coordinates: the attention of the three arrays at `(b, p, d)` is the specification there. -/
theorem attn_arrays_at (x : Cert.Spec.SX.Idx → EReal) (cos sin : Cert.Spec.SC.Idx → EReal) (Wq : Cert.Spec.SW.Idx → EReal) (bq : Cert.Spec.SB.Idx → EReal)
    (Wk : Cert.Spec.SW.Idx → EReal) (bk : Cert.Spec.SB.Idx → EReal) (Wv : Cert.Spec.SW.Idx → EReal) (bv : Cert.Spec.SB.Idx → EReal)
    (b : Fin 4) (p : Fin 4096) (d : Fin 1024) :
    Cert.Spec.attn (Srow (fun i : S4x4096x1024.Idx => Cert.Spec.rope (Cert.Spec.proj x Wq bq) cos sin (i 0) (i 1) (i 2))
        (fun i : S4x4096x1024.Idx => Cert.Spec.rope (Cert.Spec.proj x Wk bk) cos sin (i 0) (i 1) (i 2)) b p)
      (fun t => (fun i : S4x4096x1024.Idx => Cert.Spec.proj x Wv bv (i 0) (i 1) (i 2)) (ix3 b t d))
      = Cert.Spec.G x cos sin Wq bq Wk bk Wv bv (ix3 b p d) := rfl

/-- As arrays: the attention of the three arrays is the specification. -/
theorem attn_arrays_eq_G (x : Cert.Spec.SX.Idx → EReal) (cos sin : Cert.Spec.SC.Idx → EReal) (Wq : Cert.Spec.SW.Idx → EReal) (bq : Cert.Spec.SB.Idx → EReal)
    (Wk : Cert.Spec.SW.Idx → EReal) (bk : Cert.Spec.SB.Idx → EReal) (Wv : Cert.Spec.SW.Idx → EReal) (bv : Cert.Spec.SB.Idx → EReal) :
    (fun i : S4x4096x1024.Idx => Cert.Spec.attn
        (Srow (fun i : S4x4096x1024.Idx => Cert.Spec.rope (Cert.Spec.proj x Wq bq) cos sin (i 0) (i 1) (i 2))
          (fun i : S4x4096x1024.Idx => Cert.Spec.rope (Cert.Spec.proj x Wk bk) cos sin (i 0) (i 1) (i 2)) (i 0) (i 1))
        (fun t => (fun i : S4x4096x1024.Idx => Cert.Spec.proj x Wv bv (i 0) (i 1) (i 2)) (ix3 (n0 := 4) (n1 := 4096) (n2 := 1024) (i 0) t (i 2))))
      = Cert.Spec.G x cos sin Wq bq Wk bk Wv bv := rfl

/-- The same for arrays KNOWN to be the rotated queries, the rotated keys and the values. -/
theorem attn_eq_G_of (x : Cert.Spec.SX.Idx → EReal) (cos sin : Cert.Spec.SC.Idx → EReal) (Wq : Cert.Spec.SW.Idx → EReal) (bq : Cert.Spec.SB.Idx → EReal)
    (Wk : Cert.Spec.SW.Idx → EReal) (bk : Cert.Spec.SB.Idx → EReal) (Wv : Cert.Spec.SW.Idx → EReal) (bv : Cert.Spec.SB.Idx → EReal)
    (Qa Ka Va : S4x4096x1024.Idx → EReal)
    (hQa : Qa = fun i : S4x4096x1024.Idx => Cert.Spec.rope (Cert.Spec.proj x Wq bq) cos sin (i 0) (i 1) (i 2))
    (hKa : Ka = fun i : S4x4096x1024.Idx => Cert.Spec.rope (Cert.Spec.proj x Wk bk) cos sin (i 0) (i 1) (i 2))
    (hVa : Va = fun i : S4x4096x1024.Idx => Cert.Spec.proj x Wv bv (i 0) (i 1) (i 2)) :
    (fun i : S4x4096x1024.Idx => Cert.Spec.attn (Srow Qa Ka (i 0) (i 1))
        (fun t => Va (ix3 (n0 := 4) (n1 := 4096) (n2 := 1024) (i 0) t (i 2))))
      = Cert.Spec.G x cos sin Wq bq Wk bk Wv bv := by
  subst hQa hKa hVa
  rfl

/-- … and at coordinates. -/
theorem attn_at_of (x : Cert.Spec.SX.Idx → EReal) (cos sin : Cert.Spec.SC.Idx → EReal) (Wq : Cert.Spec.SW.Idx → EReal) (bq : Cert.Spec.SB.Idx → EReal)
    (Wk : Cert.Spec.SW.Idx → EReal) (bk : Cert.Spec.SB.Idx → EReal) (Wv : Cert.Spec.SW.Idx → EReal) (bv : Cert.Spec.SB.Idx → EReal)
    (Qa Ka Va : S4x4096x1024.Idx → EReal)
    (hQa : Qa = fun i : S4x4096x1024.Idx => Cert.Spec.rope (Cert.Spec.proj x Wq bq) cos sin (i 0) (i 1) (i 2))
    (hKa : Ka = fun i : S4x4096x1024.Idx => Cert.Spec.rope (Cert.Spec.proj x Wk bk) cos sin (i 0) (i 1) (i 2))
    (hVa : Va = fun i : S4x4096x1024.Idx => Cert.Spec.proj x Wv bv (i 0) (i 1) (i 2)) (b : Fin 4) (p : Fin 4096) (d : Fin 1024) :
    Cert.Spec.attn (Srow Qa Ka b p) (fun t => Va (ix3 b t d)) = Cert.Spec.G x cos sin Wq bq Wk bk Wv bv (ix3 b p d) := by
  subst hQa hKa hVa
  rfl

/-- The array of rotated projections of real inputs is real (the queries' and the keys'). -/
theorem rope_array_real (x : Cert.Spec.SX.Idx → EReal) (cos sin : Cert.Spec.SC.Idx → EReal) (W : Cert.Spec.SW.Idx → EReal)
    (bias : Cert.Spec.SB.Idx → EReal) (hx : ∀ i, ∃ ρ : ℝ, x i = (ρ : EReal)) (hcos : ∀ i, ∃ ρ : ℝ, cos i = (ρ : EReal)) (hsin : ∀ i, ∃ ρ : ℝ, sin i = (ρ : EReal))
    (hW : ∀ i, ∃ ρ : ℝ, W i = (ρ : EReal)) (hbias : ∀ i, ∃ ρ : ℝ, bias i = (ρ : EReal)) :
    ∀ i : S4x4096x1024.Idx, ∃ ρ : ℝ,
      (fun i : S4x4096x1024.Idx => Cert.Spec.rope (Cert.Spec.proj x W bias) cos sin (i 0) (i 1) (i 2)) i = (ρ : EReal) :=
  fun i => Cert.Spec.rope_real _ cos sin (fun b s j => Cert.Spec.proj_real x W bias hx hW hbias b s j) hcos hsin (i 0) (i 1) (i 2)

/-- The array of projections of real inputs is real (the values'). -/
theorem proj_array_real (x : Cert.Spec.SX.Idx → EReal) (W : Cert.Spec.SW.Idx → EReal) (bias : Cert.Spec.SB.Idx → EReal)
    (hx : ∀ i, ∃ ρ : ℝ, x i = (ρ : EReal)) (hW : ∀ i, ∃ ρ : ℝ, W i = (ρ : EReal)) (hbias : ∀ i, ∃ ρ : ℝ, bias i = (ρ : EReal)) :
    ∀ i : S4x4096x1024.Idx, ∃ ρ : ℝ,
      (fun i : S4x4096x1024.Idx => Cert.Spec.proj x W bias (i 0) (i 1) (i 2)) i = (ρ : EReal) :=
  fun i => Cert.Spec.proj_real x W bias hx hW hbias (i 0) (i 1) (i 2)

end Cert.KernelIdeal.Hand

end
-- ==== Proof.RefValue1.lean ====
/-
  The reference's projections and rotations, read at an index.

  Each of the three projections is a contraction of the activations' last axis against a weight's second axis plus a
  bias broadcast along the leading axes: at `(b, s, k)` it is `Σ_m x[b, s, m] · W[k, m] + bias[k]`. The rotated rows are a
  concatenation of two half-rows along the last axis: a column below 512 falls in the first piece
  `p0 · cos − p1 · sin`, a column from 512 on in the second piece `p0 · sin + p1 · cos`, where `p0` and `p1` are the
  projected row's halves (columns `j` and `j + 512`) and the angle tables are broadcast over the batch.
-/
import proofs.«116248_j65103114273198_2_alg».proof.Proof.Gen.ReferenceIdeal.Read
import proofs.«116248_j65103114273198_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- The arrays' types at the ideal instance: activations, a weight, a bias, an angle table. -/
abbrev AX := (⟨S4x4096x1024, .f32⟩ : BufTy).Contents (Elt Ideal)
abbrev AW := (⟨S1024x1024, .f32⟩ : BufTy).Contents (Elt Ideal)
abbrev AB := (⟨S1024, .f32⟩ : BufTy).Contents (Elt Ideal)
abbrev AC := (⟨S4096x512, .f32⟩ : BufTy).Contents (Elt Ideal)

/-! ### The three projections -/

/-- The query projection at `(b, s, k)`. -/
theorem v3_at (x0 : AX) (x3 : AW) (x4 : AB) (b : Fin 4) (s : Fin 4096) (k : Fin 1024) :
    val_main_v3 (F := Ideal) x0 x3 x4 (ix3 b s k) = proj x0 x3 x4 b s k := by
  rw [val_main_v3_apply, val_main_v0_apply, val_main_v2_apply, val_main_v1_apply]
  unfold proj
  refine congrArg₂ (· + ·) (Finset.sum_congr rfl fun m _ => congrArg₂ (· * ·) (congrArg x0 ?_) (congrArg x3 ?_)) (congrArg x4 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The key projection at `(b, s, k)`. -/
theorem v7_at (x0 : AX) (x5 : AW) (x6 : AB) (b : Fin 4) (s : Fin 4096) (k : Fin 1024) :
    val_main_v7 (F := Ideal) x0 x5 x6 (ix3 b s k) = proj x0 x5 x6 b s k := by
  rw [val_main_v7_apply, val_main_v4_apply, val_main_v6_apply, val_main_v5_apply]
  unfold proj
  refine congrArg₂ (· + ·) (Finset.sum_congr rfl fun m _ => congrArg₂ (· * ·) (congrArg x0 ?_) (congrArg x5 ?_)) (congrArg x6 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The value projection at `(b, s, k)`. -/
theorem v63_at (x0 : AX) (x7 : AW) (x8 : AB) (b : Fin 4) (s : Fin 4096) (k : Fin 1024) :
    val_main_v63 (F := Ideal) x0 x7 x8 (ix3 b s k) = proj x0 x7 x8 b s k := by
  rw [val_main_v63_apply, val_main_v60_apply, val_main_v62_apply, val_main_v61_apply]
  unfold proj
  refine congrArg₂ (· + ·) (Finset.sum_congr rfl fun m _ => congrArg₂ (· * ·) (congrArg x0 ?_) (congrArg x7 ?_)) (congrArg x8 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-! ### The halves of the projected rows and the angle tables -/

/-- The first half of a projected row: column `j` of the half is column `j` of the row. -/
theorem v8_at (x0 : AX) (x3 : AW) (x4 : AB) (b : Fin 4) (s : Fin 4096) (j : Fin 512) :
    val_main_v8 (F := Ideal) x0 x3 x4 (ix3 b s j) = proj x0 x3 x4 b s ⟨j.val, by omega⟩ := by
  rw [val_main_v8_apply]
  refine (congrArg (val_main_v3 (F := Ideal) x0 x3 x4) ?_).trans (v3_at x0 x3 x4 b s _)
  exact funext fun a => by match a with | ⟨0, _⟩ => rfl | ⟨1, _⟩ => rfl | ⟨2, _⟩ => rfl

/-- The second half of a projected row: column `j` of the half is column `j + 512` of the row. -/
theorem v9_at (x0 : AX) (x3 : AW) (x4 : AB) (b : Fin 4) (s : Fin 4096) (j : Fin 512) :
    val_main_v9 (F := Ideal) x0 x3 x4 (ix3 b s j) = proj x0 x3 x4 b s ⟨j.val + 512, by omega⟩ := by
  rw [val_main_v9_apply]
  refine (congrArg (val_main_v3 (F := Ideal) x0 x3 x4) ?_).trans (v3_at x0 x3 x4 b s _)
  exact funext fun a => by match a with | ⟨0, _⟩ => rfl | ⟨1, _⟩ => rfl | ⟨2, _⟩ => exact Fin.ext (Nat.add_comm _ _)

/-- The first half of a projected row: column `j` of the half is column `j` of the row. -/
theorem v25_at (x0 : AX) (x5 : AW) (x6 : AB) (b : Fin 4) (s : Fin 4096) (j : Fin 512) :
    val_main_v25 (F := Ideal) x0 x5 x6 (ix3 b s j) = proj x0 x5 x6 b s ⟨j.val, by omega⟩ := by
  rw [val_main_v25_apply]
  refine (congrArg (val_main_v7 (F := Ideal) x0 x5 x6) ?_).trans (v7_at x0 x5 x6 b s _)
  exact funext fun a => by match a with | ⟨0, _⟩ => rfl | ⟨1, _⟩ => rfl | ⟨2, _⟩ => rfl

/-- The second half of a projected row: column `j` of the half is column `j + 512` of the row. -/
theorem v26_at (x0 : AX) (x5 : AW) (x6 : AB) (b : Fin 4) (s : Fin 4096) (j : Fin 512) :
    val_main_v26 (F := Ideal) x0 x5 x6 (ix3 b s j) = proj x0 x5 x6 b s ⟨j.val + 512, by omega⟩ := by
  rw [val_main_v26_apply]
  refine (congrArg (val_main_v7 (F := Ideal) x0 x5 x6) ?_).trans (v7_at x0 x5 x6 b s _)
  exact funext fun a => by match a with | ⟨0, _⟩ => rfl | ⟨1, _⟩ => rfl | ⟨2, _⟩ => exact Fin.ext (Nat.add_comm _ _)

/-- The cosine table broadcast over the batch, at `(b, s, j)`. -/
theorem v11_at (x1 : AC) (b : Fin 4) (s : Fin 4096) (j : Fin 512) :
    val_main_v11 (F := Ideal) x1 (ix3 b s j) = x1 (ix2 s j) := by
  rw [val_main_v11_apply, val_main_v10_apply]
  exact congrArg x1 (funext fun a => by match a with | ⟨0, _⟩ => rfl | ⟨1, _⟩ => rfl)

/-- The sine table broadcast over the batch, at `(b, s, j)`. -/
theorem v14_at (x2 : AC) (b : Fin 4) (s : Fin 4096) (j : Fin 512) :
    val_main_v14 (F := Ideal) x2 (ix3 b s j) = x2 (ix2 s j) := by
  rw [val_main_v14_apply, val_main_v13_apply]
  exact congrArg x2 (funext fun a => by match a with | ⟨0, _⟩ => rfl | ⟨1, _⟩ => rfl)

/-- The sine table broadcast over the batch, at `(b, s, j)`. -/
theorem v18_at (x2 : AC) (b : Fin 4) (s : Fin 4096) (j : Fin 512) :
    val_main_v18 (F := Ideal) x2 (ix3 b s j) = x2 (ix2 s j) := by
  rw [val_main_v18_apply, val_main_v17_apply]
  exact congrArg x2 (funext fun a => by match a with | ⟨0, _⟩ => rfl | ⟨1, _⟩ => rfl)

/-- The cosine table broadcast over the batch, at `(b, s, j)`. -/
theorem v21_at (x1 : AC) (b : Fin 4) (s : Fin 4096) (j : Fin 512) :
    val_main_v21 (F := Ideal) x1 (ix3 b s j) = x1 (ix2 s j) := by
  rw [val_main_v21_apply, val_main_v20_apply]
  exact congrArg x1 (funext fun a => by match a with | ⟨0, _⟩ => rfl | ⟨1, _⟩ => rfl)

/-- The cosine table broadcast over the batch, at `(b, s, j)`. -/
theorem v28_at (x1 : AC) (b : Fin 4) (s : Fin 4096) (j : Fin 512) :
    val_main_v28 (F := Ideal) x1 (ix3 b s j) = x1 (ix2 s j) := by
  rw [val_main_v28_apply, val_main_v27_apply]
  exact congrArg x1 (funext fun a => by match a with | ⟨0, _⟩ => rfl | ⟨1, _⟩ => rfl)

/-- The sine table broadcast over the batch, at `(b, s, j)`. -/
theorem v31_at (x2 : AC) (b : Fin 4) (s : Fin 4096) (j : Fin 512) :
    val_main_v31 (F := Ideal) x2 (ix3 b s j) = x2 (ix2 s j) := by
  rw [val_main_v31_apply, val_main_v30_apply]
  exact congrArg x2 (funext fun a => by match a with | ⟨0, _⟩ => rfl | ⟨1, _⟩ => rfl)

/-- The sine table broadcast over the batch, at `(b, s, j)`. -/
theorem v35_at (x2 : AC) (b : Fin 4) (s : Fin 4096) (j : Fin 512) :
    val_main_v35 (F := Ideal) x2 (ix3 b s j) = x2 (ix2 s j) := by
  rw [val_main_v35_apply, val_main_v34_apply]
  exact congrArg x2 (funext fun a => by match a with | ⟨0, _⟩ => rfl | ⟨1, _⟩ => rfl)

/-- The cosine table broadcast over the batch, at `(b, s, j)`. -/
theorem v38_at (x1 : AC) (b : Fin 4) (s : Fin 4096) (j : Fin 512) :
    val_main_v38 (F := Ideal) x1 (ix3 b s j) = x1 (ix2 s j) := by
  rw [val_main_v38_apply, val_main_v37_apply]
  exact congrArg x1 (funext fun a => by match a with | ⟨0, _⟩ => rfl | ⟨1, _⟩ => rfl)

/-! ### The rotated rows -/

/-- The rotated query row at column `j`: the first piece below 512, the second from 512 on. -/
theorem v24_at (x0 : AX) (x1 x2 : AC) (x3 : AW) (x4 : AB) (b : Fin 4) (s : Fin 4096) (j : Fin 1024) :
    val_main_v24 (F := Ideal) x0 x1 x2 x3 x4 (ix3 b s j) = rope (proj x0 x3 x4) x1 x2 b s j := by
  unfold val_main_v24 rope
  by_cases h : j.val < 512
  · rw [dif_pos h]
    refine (concatenate_pair_apply_left (t := S4x4096x1024) (s₁ := S4x4096x512) (s₂ := S4x4096x512) 2 _ _ _ (ix3 b s j) rfl (ix3 b s (⟨j.val, h⟩ : Fin 512))
      (fun a => by match a with | ⟨0, _⟩ => rfl | ⟨1, _⟩ => rfl | ⟨2, _⟩ => rfl)).trans ?_
    rw [val_main_v16_apply, val_main_v12_apply, val_main_v15_apply, v8_at, v9_at, v11_at, v14_at]
    rfl
  · rw [dif_neg h]
    have h' : j.val - 512 < 512 := by omega
    refine (concatenate_pair_apply_right (t := S4x4096x1024) (s₁ := S4x4096x512) (s₂ := S4x4096x512) 2 _ _ _ (ix3 b s j) rfl rfl (ix3 b s (⟨j.val - 512, h'⟩ : Fin 512))
      (fun a ha => by match a with | ⟨0, _⟩ => rfl | ⟨1, _⟩ => rfl | ⟨2, _⟩ => exact absurd rfl ha)
      (by show j.val - 512 + 512 = j.val; omega)).trans ?_
    rw [val_main_v23_apply, val_main_v19_apply, val_main_v22_apply, v8_at, v9_at, v18_at, v21_at]
    have e : (⟨j.val - 512 + 512, by omega⟩ : Fin 1024) = ⟨j.val, j.isLt⟩ := Fin.ext (by show j.val - 512 + 512 = j.val; omega)
    rw [e]
    rfl

/-- The rotated key row at column `j`. -/
theorem v41_at (x0 : AX) (x1 x2 : AC) (x5 : AW) (x6 : AB) (b : Fin 4) (s : Fin 4096) (j : Fin 1024) :
    val_main_v41 (F := Ideal) x0 x1 x2 x5 x6 (ix3 b s j) = rope (proj x0 x5 x6) x1 x2 b s j := by
  unfold val_main_v41 rope
  by_cases h : j.val < 512
  · rw [dif_pos h]
    refine (concatenate_pair_apply_left (t := S4x4096x1024) (s₁ := S4x4096x512) (s₂ := S4x4096x512) 2 _ _ _ (ix3 b s j) rfl (ix3 b s (⟨j.val, h⟩ : Fin 512))
      (fun a => by match a with | ⟨0, _⟩ => rfl | ⟨1, _⟩ => rfl | ⟨2, _⟩ => rfl)).trans ?_
    rw [val_main_v33_apply, val_main_v29_apply, val_main_v32_apply, v25_at, v26_at, v28_at, v31_at]
    rfl
  · rw [dif_neg h]
    have h' : j.val - 512 < 512 := by omega
    refine (concatenate_pair_apply_right (t := S4x4096x1024) (s₁ := S4x4096x512) (s₂ := S4x4096x512) 2 _ _ _ (ix3 b s j) rfl rfl (ix3 b s (⟨j.val - 512, h'⟩ : Fin 512))
      (fun a ha => by match a with | ⟨0, _⟩ => rfl | ⟨1, _⟩ => rfl | ⟨2, _⟩ => exact absurd rfl ha)
      (by show j.val - 512 + 512 = j.val; omega)).trans ?_
    rw [val_main_v40_apply, val_main_v36_apply, val_main_v39_apply, v25_at, v26_at, v35_at, v38_at]
    have e : (⟨j.val - 512 + 512, by omega⟩ : Fin 1024) = ⟨j.val, j.isLt⟩ := Fin.ext (by show j.val - 512 + 512 = j.val; omega)
    rw [e]
    rfl

end Cert.ReferenceIdeal.RefValue

end
-- ==== Proof.RefValue2.lean ====
/-
  The reference's causal scores, read at an index.

  The score of query position `q` against key position `t` is the contraction of the two rotated rows over their 1024
  columns, divided by `√1024 = 32` — the same as multiplied by `1/32`, the divisor being a nonzero real — where the
  lower-triangular mask holds, and −∞ elsewhere. The mask compares two position counters as signed 32-bit words; both
  are below 4096, so the comparison is the comparison of the positions: the mask holds exactly when `t ≤ q`.
-/
import proofs.«116248_j65103114273198_2_alg».proof.Proof.RefValue1

noncomputable section

namespace Cert.ReferenceIdeal.RefValue

open Cert.ReferenceIdeal Cert.ReferenceIdeal.Gen Cert.ReferenceIdeal.Read Idealize.ShloMosaic Idealize.ShloMosaic.ValueIdx Cert.Spec

/-! ### The constants -/

/-- The word of −∞. -/
theorem ofBits_neg_inf : Ideal.ofBits .f32 0xFF800000#32 = ⊥ := by
  simp [Ideal.ofBits, Ideal.ieee]

/-- The word of 1024. -/
theorem ofBits_1024 : Ideal.ofBits .f32 0x44800000#32 = ((1024 : ℝ) : EReal) := by
  simp [Ideal.ofBits, Ideal.ieee, -EReal.coe_mul]; norm_num

/-- Its square root is 32, since `32 · 32 = 1024`. -/
theorem sqrt_1024 : Ideal.sqrt (Ideal.ofBits .f32 0x44800000#32) = ((32 : ℝ) : EReal) := by
  rw [ofBits_1024, Ideal.sqrt_coe, if_neg (by norm_num)]
  have e : Real.sqrt 1024 = 32 := by
    rw [show (1024 : ℝ) = 32 ^ 2 by norm_num]; exact Real.sqrt_sq (by norm_num)
  rw [e]

/-! ### The mask -/

/-- A position below 4096, as a 32-bit word read signed, is itself. -/
theorem toInt_position (n : Nat) (h : n < 4096) : (BitVec.ofNat 32 n).toInt = (n : Int) := by
  have h1 : (BitVec.ofNat 32 n).toNat = n := by
    rw [BitVec.toNat_ofNat]; exact Nat.mod_eq_of_lt (Nat.lt_trans h (by norm_num))
  rw [BitVec.toInt_eq_toNat_of_lt (by rw [h1]; omega), h1]

/-- The lower-triangular mask at `(q, t)` holds exactly when `t ≤ q`. -/
theorem v47_at (q t : Fin 4096) :
    val_main_v47 (F := Ideal) (ix2 q t) = if t.val ≤ q.val then 1#1 else 0#1 := by
  rw [val_main_v47_apply, val_main_call0_v4_apply, val_main_call0_v2_apply, val_main_call0_v0_apply,
    val_main_call0_v1_apply, val_main_call0_c_apply, val_main_call0_v3_apply, val_main_v46_apply, val_main_c_apply,
    val_main_call0_v5_apply, val_main_call0_c_0_apply]
  show Scalar.select (IntOp.cmpi .sge (IntOp.addi (BitVec.ofNat 32 q.val) 0#32) (BitVec.ofNat 32 t.val)) 1#1 0#1 = _
  have e : IntOp.addi (BitVec.ofNat 32 q.val) 0#32 = BitVec.ofNat 32 q.val := BitVec.add_zero _
  rw [e]
  by_cases h : t.val ≤ q.val
  · rw [if_pos h, IntOp.cmpi_sge.mpr (by rw [toInt_position _ q.isLt, toInt_position _ t.isLt]; exact_mod_cast h)]
    exact select_one _ _
  · rw [if_neg h]
    have hc : IntOp.cmpi .sge (BitVec.ofNat 32 q.val) (BitVec.ofNat 32 t.val) = 0#1 :=
      eq_zero_of_ne_one fun hh => h (by
        have := IntOp.cmpi_sge.mp hh
        rw [toInt_position _ q.isLt, toInt_position _ t.isLt] at this
        exact_mod_cast this)
    rw [hc]
    exact select_zero _ _

/-! ### The scores -/

/-- The masked, scaled score at `(b, q, t)`. -/
theorem v48_at (x0 : AX) (x1 x2 : AC) (x3 : AW) (x4 : AB) (x5 : AW) (x6 : AB) (b : Fin 4) (q t : Fin 4096) :
    val_main_v48 (F := Ideal) x0 x1 x2 x3 x4 x5 x6 (ix3 b q t)
      = score (rope (proj x0 x3 x4) x1 x2) (rope (proj x0 x5 x6) x1 x2) b q t := by
  have hm : idx_main_call1_v1 (ix3 b q t) = ix2 q t := funext fun a => by match a with | ⟨0, _⟩ => rfl | ⟨1, _⟩ => rfl
  have hd : val_main_v45 (F := Ideal) x0 x1 x2 x3 x4 x5 x6 (ix3 b q t)
      = (∑ d : Fin 1024, rope (proj x0 x3 x4) x1 x2 b q d * rope (proj x0 x5 x6) x1 x2 b t d) * ((1 / 32 : ℝ) : EReal) := by
    rw [val_main_v45_apply, val_main_v44_apply, val_main_v43_apply, val_main_cst_apply, val_main_v42_apply]
    simp only [Ideal.ofBits_def, Ideal.hostUnary_sqrt_def, Ideal.hostDivf_def, sqrt_1024]
    rw [Ideal.div_coe (by norm_num : (32 : ℝ) ≠ 0)]
    refine congrArg (· * ((1 / 32 : ℝ) : EReal)) (Finset.sum_congr rfl fun d _ => ?_)
    rw [show lidx_main_v42 (ix3 b q t) d = ix3 b q d from funext fun a => by match a with | ⟨0, _⟩ => rfl | ⟨1, _⟩ => rfl | ⟨2, _⟩ => rfl,
      show ridx_main_v42 (ix3 b q t) d = ix3 b t d from funext fun a => by match a with | ⟨0, _⟩ => rfl | ⟨1, _⟩ => rfl | ⟨2, _⟩ => rfl, v24_at, v41_at]
  rw [val_main_v48_apply, val_main_call1_v1_apply, hm, v47_at, hd, val_main_call1_v2_apply, val_main_call1_v0_apply,
    val_main_cst_0_apply]
  unfold score
  by_cases h : t.val ≤ q.val
  · rw [if_pos h, if_pos h]; exact select_one _ _
  · rw [if_neg h, if_neg h]
    exact (select_zero _ _).trans ofBits_neg_inf

end Cert.ReferenceIdeal.RefValue

end
-- ==== Proof.RefValue3.lean ====
/-
  The reference's softmax and its result, read at an index: the reference is the specification.

  Along the key axis the reference takes the maximum of a row of scores, folding `max` from −∞ over the 4096 positions —
  the supremum of the row —, subtracts it, exponentiates, sums the exponentials from `0`, divides each by the sum, and
  contracts the weights against the value projection over the key positions. No step needs a finite entry: a
  contraction from a zero accumulator is the plain sum, `max (−∞) x = x`, and `0 + s = s` hold on the extended reals.
-/
import proofs.«116248_j65103114273198_2_alg».proof.Proof.RefValue2

noncomputable section

namespace Cert.ReferenceIdeal.RefValue

open Cert.ReferenceIdeal Cert.ReferenceIdeal.Gen Cert.ReferenceIdeal.Read Idealize.ShloMosaic Idealize.ShloMosaic.ValueIdx Cert.Spec

/-- A fold of `max` from −∞ over a finite set is the supremum over it. -/
theorem fold_max_eq_sup {ι : Type} (s : Finset ι) (f : ι → EReal) (c : EReal) (hc : c = ⊥) :
    s.fold max c f = s.sup f := by
  subst hc; rfl

/-- The last axis of the score array is the one the row maximum folds over. -/
theorem reduces_last : S4x4096x4096.Reduces [2] S4x4096 := by decide

/-- A max-reduce from −∞ along the last axis is, at `(b, q)`, the supremum over that axis's 4096 coordinates. -/
theorem reduce_max_at (x : S4x4096x4096.Idx → EReal) (c : S_.Idx → EReal) (hc : c (Shape.Idx.first h_S_) = ⊥)
    (b : Fin 4) (q : Fin 4096) :
    Host.reduce (FloatOps.maximumf (F := Ideal) (φ := .f32)) x c reducesTo_S4x4096x4096_S4x4096_d2 h_S_ (ix2 b q)
      = Finset.univ.sup (fun t : Fin 4096 => x (ix3 b q t)) := by
  refine (Host.reduce_eq_fold_single (FloatOps.maximumf (F := Ideal) (φ := .f32)) x c
    reducesTo_S4x4096x4096_S4x4096_d2 reduces_last h_S_ (ix2 b q)).trans ?_
  refine (fold_max_eq_sup _ _ _ hc).trans ?_
  refine congrArg (Finset.univ.sup) (funext fun t => congrArg x ?_)
  exact funext fun a => Fin.ext (by match a with | ⟨0, _⟩ => rfl | ⟨1, _⟩ => rfl | ⟨2, _⟩ => rfl)

/-- The row of scores of batch `b`, query position `q`, as the specification spells it. -/
abbrev scoreRow (x0 : AX) (x1 x2 : AC) (x3 : AW) (x4 : AB) (x5 : AW) (x6 : AB) (b : Fin 4) (q : Fin 4096) : Fin 4096 → EReal :=
  fun t => score (rope (proj x0 x3 x4) x1 x2) (rope (proj x0 x5 x6) x1 x2) b q t

/-- The row maximum at `(b, q)`: the supremum of the row of scores. -/
theorem v51_at (x0 : AX) (x1 x2 : AC) (x3 : AW) (x4 : AB) (x5 : AW) (x6 : AB) (b : Fin 4) (q : Fin 4096) :
    val_main_v51 (F := Ideal) x0 x1 x2 x3 x4 x5 x6 (ix2 b q) = Finset.univ.sup (scoreRow x0 x1 x2 x3 x4 x5 x6 b q) := by
  have h49 : val_main_v49 (F := Ideal) x0 x1 x2 x3 x4 x5 x6 (ix2 b q) = Finset.univ.sup (scoreRow x0 x1 x2 x3 x4 x5 x6 b q) := by
    unfold val_main_v49
    refine (reduce_max_at _ _ ((val_main_cst_1_apply _).trans ofBits_neg_inf) b q).trans ?_
    exact congrArg (Finset.univ.sup) (funext fun t => v48_at x0 x1 x2 x3 x4 x5 x6 b q t)
  rw [val_main_v51_apply, h49, val_main_v50_apply, val_main_cst_2_apply]
  show max (Ideal.ofBits .f32 0xFF800000#32) _ = _
  rw [ofBits_neg_inf]
  exact max_bot_left _

/-- The exponential of a score less its row's maximum, at `(b, q, t)`. -/
theorem v55_at (x0 : AX) (x1 x2 : AC) (x3 : AW) (x4 : AB) (x5 : AW) (x6 : AB) (b : Fin 4) (q t : Fin 4096) :
    val_main_v55 (F := Ideal) x0 x1 x2 x3 x4 x5 x6 (ix3 b q t)
      = Ideal.exp (scoreRow x0 x1 x2 x3 x4 x5 x6 b q t - Finset.univ.sup (scoreRow x0 x1 x2 x3 x4 x5 x6 b q)) := by
  rw [val_main_v55_apply, val_main_v54_apply, val_main_v53_apply, val_main_v52_apply, v48_at]
  rw [show idx_main_v52 (idx_main_v53 (ix3 b q t)) = ix2 b q from funext fun a => by match a with | ⟨0, _⟩ => rfl | ⟨1, _⟩ => rfl, v51_at]
  rfl

/-- The sum of a row's exponentials, broadcast along the row, at `(b, q, t)`. -/
theorem v58_at (x0 : AX) (x1 x2 : AC) (x3 : AW) (x4 : AB) (x5 : AW) (x6 : AB) (b : Fin 4) (q t : Fin 4096) :
    val_main_v58 (F := Ideal) x0 x1 x2 x3 x4 x5 x6 (ix3 b q t)
      = ∑ u : Fin 4096, Ideal.exp (scoreRow x0 x1 x2 x3 x4 x5 x6 b q u - Finset.univ.sup (scoreRow x0 x1 x2 x3 x4 x5 x6 b q)) := by
  rw [val_main_v58_apply, val_main_v57_apply]
  rw [show idx_main_v57 (idx_main_v58 (ix3 b q t)) = ix2 b q from funext fun a => by match a with | ⟨0, _⟩ => rfl | ⟨1, _⟩ => rfl, val_main_v56_apply, val_main_cst_3_apply]
  show Ideal.ofBits .f32 0x00000000#32 + _ = _
  rw [Ideal.ofBits_zero_f32, zero_add]
  refine Finset.sum_congr rfl fun u _ => ?_
  rw [show idx_main_v56 (ix2 b q) u = ix3 b q u from funext fun a => by match a with | ⟨0, _⟩ => rfl | ⟨1, _⟩ => rfl | ⟨2, _⟩ => rfl, v55_at]

/-- THE REFERENCE IS THE SPECIFICATION: its result array, as a function of its nine argument arrays, is `G` of them. -/
theorem result_eq (x0 : AX) (x1 x2 : AC) (x3 : AW) (x4 : AB) (x5 : AW) (x6 : AB) (x7 : AW) (x8 : AB) :
    val_main_v64 (F := Ideal) x0 x1 x2 x3 x4 x5 x6 x7 x8 = G x0 x1 x2 x3 x4 x5 x6 x7 x8 := by
  funext i
  obtain ⟨b, q, d, rfl⟩ : ∃ (b : Fin 4) (q : Fin 4096) (d : Fin 1024), i = ix3 b q d := ⟨i 0, i 1, i 2, eq_ix3 i⟩
  rw [val_main_v64_apply]
  show _ = attn (scoreRow x0 x1 x2 x3 x4 x5 x6 b q) (fun t => proj x0 x7 x8 b t d)
  unfold attn
  refine Finset.sum_congr rfl fun t _ => ?_
  rw [show lidx_main_v64 (ix3 b q d) t = ix3 b q t from funext fun a => by match a with | ⟨0, _⟩ => rfl | ⟨1, _⟩ => rfl | ⟨2, _⟩ => rfl,
    show ridx_main_v64 (ix3 b q d) t = ix3 b t d from funext fun a => by match a with | ⟨0, _⟩ => rfl | ⟨1, _⟩ => rfl | ⟨2, _⟩ => rfl,
    val_main_v59_apply, v55_at, v58_at, v63_at]
  rfl

end Cert.ReferenceIdeal.RefValue

end
-- ==== Proof.RefValue.lean ====
/-
  The reference's run, with its result named by the specification.

  Every weakly fair execution of the reference terminates without a fault, leaves its nine argument arrays as it found
  them, and ends with its result array equal to `G` of them: the generated run states the result as the operations'
  composed term of the arguments, that term is the last stage of the operations read one at a time, and that stage is
  `G`, index by index.
-/
import proofs.«116248_j65103114273198_2_alg».proof.Proof.RefValue3

noncomputable section

namespace Cert.ReferenceIdeal.RefValue

open Cert.ReferenceIdeal Cert.ReferenceIdeal.Gen Idealize.ShloMosaic Idealize.ShloMosaic.TcCoe Idealize.SL.Sem

/-- The reference's run ends with its result at `G` of the argument arrays and the arguments unchanged. -/
theorem run_G (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v64) = Cert.Spec.G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) :=
  (θ_run defs _ _).mono
    (fun _ h c => ⟨(h c).1.trans ((Cert.ReferenceIdeal.Read.val_main_v64_eq m' c).trans (result_eq _ _ _ _ _ _ _ _ _)), (h c).2⟩)
    (Cert.ReferenceIdeal.Value.run (F := Ideal) m' ρ')

end Cert.ReferenceIdeal.RefValue

end
-- ==== Proof.FiniteInputs.lean ====
/-
  From the precondition to real entries.

  The precondition says of each of the nine input arrays that the conjunction, over all its entries `x`, of the
  comparisons `|x| < +∞` is true, and that the conjunction of the nine is true. A conjunction of bits that is 1 has
  every bit 1; `|x| = max x (−x)` is below +∞ on the extended reals exactly when `x` is neither infinity; so every
  entry of every input is a real number.
-/
import proofs.«116248_j65103114273198_2_alg».proof.Defs
import Idealize.ShloMosaic.Lib.ReduceAll
import Idealize.ShloMosaic.Lib.ValueIdx

noncomputable section

namespace Cert.Proof.Finite

open Idealize.ShloMosaic Idealize.ShloMosaic.TcCoe Idealize.SL.Sem Idealize.ShloMosaic.ValueIdx

/-- The word the entries are compared against is +∞. -/
theorem ofBits_pos_inf : Ideal.ofBits .f32 0x7F800000#32 = ⊤ := by
  simp [Ideal.ofBits, Ideal.ieee]

/-- An extended real whose absolute value compares below +∞ is a real number. -/
theorem real_of_bit (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    simp [Ideal.cmp, hn] at h
  induction x using EReal.rec with
  | bot => exact absurd hlt (by simp)
  | coe r => exact ⟨r, rfl⟩
  | top => exact absurd hlt (by simp)

instance : Subsingleton Cert.Pre_finite_inputs.S_.Idx := ⟨fun a b => funext fun d => d.elim0⟩

/-- One array's conjunct: if the conjunction over all entries of `|x| < +∞` is 1, every entry is a real. -/
theorem all_real {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel) (a : FVec Ideal s .f32)
    (h : Host.reduce IntOp.andi
        (cmpf .olt (Host.absf a) (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, a i = (r : EReal) :=
  real_of_bit (a i) (Host.reduce_andi_all _ _ hr hu ix0 h i)

/-- Under the precondition every entry of every input array of the kernel's memory is a real number. -/
theorem real_entries [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  have h0 := congrFun (h c) ix0
  dsimp only [Cert.Pre_finite_inputs.fn, Cert.Pre_finite_inputs.fn_part1, Cert.Pre_finite_inputs.fn_part2] at h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8⟩

end Cert.Proof.Finite

end
-- ==== Proof.lean ====
/-
  The certificate's claim, assembled.

  * The kernel program, at the word level and at the ideal instance alike, is a stretch of host operations and two
    pipelined regions (projection with rotation; causal attention with an online softmax). Each runs to the end
    without a fault, and the argument arrays end as launched: the regions' bodies are run case by case on their
    staging and scratch buffers, and the buffers' contents are followed from boundary to boundary.
  * The reference is a host program; its run is read back operation by operation.
  * The one rewrite of the ideal pass names the masked fill −∞.
  * At the ideal instance, with every input a real number, the kernel's result array is the softmax of the causal
    scores applied to the values, row by row: the online update keeps, tile after tile, the running maximum, the
    denominator and the numerator of exactly that quotient (rescaling by e^(m − m') moves every weight to the new
    level), and the reference computes the same quotient directly. Both are the function `Cert.Spec.G` of the
    arguments.
-/
import proofs.«116248_j65103114273198_2_alg».proof.Defs
import proofs.«116248_j65103114273198_2_alg».proof.Proof.Gen.Kernel
import proofs.«116248_j65103114273198_2_alg».proof.Proof.Gen.KernelIdeal
import proofs.«116248_j65103114273198_2_alg».proof.Proof.Gen.ReferenceIdeal
import proofs.«116248_j65103114273198_2_alg».proof.Proof.Gen.Pre_finite_inputs
import proofs.«116248_j65103114273198_2_alg».proof.Proof.Easy
import proofs.«116248_j65103114273198_2_alg».proof.Proof.Kernel.Run
import proofs.«116248_j65103114273198_2_alg».proof.Proof.KernelIdeal.Run
import proofs.«116248_j65103114273198_2_alg».proof.Proof.KernelIdeal.Value1
import proofs.«116248_j65103114273198_2_alg».proof.Proof.KernelIdeal.HostPrefix
import proofs.«116248_j65103114273198_2_alg».proof.Proof.KernelIdeal.KernelG
import proofs.«116248_j65103114273198_2_alg».proof.Proof.RefValue
import proofs.«116248_j65103114273198_2_alg».proof.Proof.FiniteInputs

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_p : Cert.frame_Kernel := fun m ρ _ => Cert.Kernel.Hand.frame m ρ
theorem frame_pi : Cert.frame_KernelIdeal := fun m ρ _ => Cert.KernelIdeal.Hand.frame m ρ

open Cert.KernelIdeal Cert.KernelIdeal.Gen Cert.KernelIdeal.Hand in
/-- The three arrays the projection region leaves, and the attention of them: the result array is `Spec.G`. -/
theorem kernel_value (m : (ℓ : Loc nD τ sig) → Buf (Elt Ideal) ℓ) (hpre : Cert.Pre_KernelIdeal m) (c : Dev nD) :
    (dat1 (F := Ideal) (V2 m) c).arrAt 3 cfg1.N
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  obtain ⟨h0, h1, h2, h3, h4, h5, h6, h7, h8⟩ := Cert.Proof.Finite.real_entries m hpre c
  have eQ := (W2_arr m c 5).trans (final0_5_spec m c)
  have eK := (W2_arr m c 6).trans (final0_6_spec m c)
  have eV := (W2_arr m c 7).trans (final0_7_spec m c)
  have hQ : ∀ i, ∃ ρ : ℝ, (V2 m c main_v6_0 : S4x4096x1024.Idx → EReal) i = (ρ : EReal) := fun i => by
    rw [show (V2 m c main_v6_0 : S4x4096x1024.Idx → EReal) = _ from eQ]
    exact rope_array_real _ _ _ _ _ h0 h1 h2 h3 h4 i
  have hK : ∀ i, ∃ ρ : ℝ, (V2 m c main_v6_1 : S4x4096x1024.Idx → EReal) i = (ρ : EReal) := fun i => by
    rw [show (V2 m c main_v6_1 : S4x4096x1024.Idx → EReal) = _ from eK]
    exact rope_array_real _ _ _ _ _ h0 h1 h2 h5 h6 i
  have hV : ∀ i, ∃ ρ : ℝ, (V2 m c main_v6_2 : S4x4096x1024.Idx → EReal) i = (ρ : EReal) := fun i => by
    rw [show (V2 m c main_v6_2 : S4x4096x1024.Idx → EReal) = _ from eV]
    exact proj_array_real _ _ _ h0 h7 h8 i
  rw [final1_3 (V2 m) c hQ hK hV]
  exact attn_eq_G_of _ _ _ _ _ _ _ _ _ _ _ _ eQ eK eV

/-- At the ideal instance both programs end with `Spec.G` of the arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (kernel_value m hpre c), (h c).2⟩)
      (Cert.KernelIdeal.Hand.run_value m ρ)
  · refine (θ_run Cert.ReferenceIdeal.defs _ _).mono (fun r h c => ⟨?_, (h c).2⟩) (Cert.ReferenceIdeal.RefValue.run_G m' ρ')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.Proof.Easy.frame_ri, Cert.Proof.Easy.preserves, algebraic⟩

end Cert.Proof

end
